-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x1024 : Shape := ⟨3, ![32, 128, 1024]⟩
abbrev S256x128x3 : Shape := ⟨3, ![256, 128, 3]⟩
abbrev S256x1x1 : Shape := ⟨3, ![256, 1, 1]⟩
abbrev S256 : Shape := ⟨1, ![256]⟩
abbrev S256x256x3 : Shape := ⟨3, ![256, 256, 3]⟩
abbrev S256x128x1 : Shape := ⟨3, ![256, 128, 1]⟩
abbrev S_ : Shape := ⟨0, ![]⟩

class Facts : Prop where
  bcast_S_S32x128x1024 : S_.BroadcastsInDim S32x128x1024 (![] : Fin 0 → Fin S32x128x1024.rank)
  reducesTo_S32x128x1024_S_d0_1_2 : S32x128x1024.ReducesTo [0, 1, 2] S_
  h_S_ : 0 < S_.numel
  bcast_S_S256x128x3 : S_.BroadcastsInDim S256x128x3 (![] : Fin 0 → Fin S256x128x3.rank)
  reducesTo_S256x128x3_S_d0_1_2 : S256x128x3.ReducesTo [0, 1, 2] S_
  bcast_S_S256x1x1 : S_.BroadcastsInDim S256x1x1 (![] : Fin 0 → Fin S256x1x1.rank)
  reducesTo_S256x1x1_S_d0_1_2 : S256x1x1.ReducesTo [0, 1, 2] S_
  bcast_S_S256 : S_.BroadcastsInDim S256 (![] : Fin 0 → Fin S256.rank)
  reducesTo_S256_S_d0 : S256.ReducesTo [0] S_
  bcast_S_S256x256x3 : S_.BroadcastsInDim S256x256x3 (![] : Fin 0 → Fin S256x256x3.rank)
  reducesTo_S256x256x3_S_d0_1_2 : S256x256x3.ReducesTo [0, 1, 2] S_
  bcast_S_S256x128x1 : S_.BroadcastsInDim S256x128x1 (![] : Fin 0 → Fin S256x128x1.rank)
  reducesTo_S256x128x1_S_d0_1_2 : S256x128x1.ReducesTo [0, 1, 2] S_

variable [Facts]

def fn_part2 {F : FTy → Type} [FloatOps F] (main_arg7 : FVec F S256x128x1 .f32) (main_arg8 : FVec F S256 .f32) (main_v33 : IVec S_ 1) : IVec S_ 1 :=
  let main_v34 : FVec F S256x128x1 .f32 := Host.absf main_arg7
  let main_cst_12 : FVec F S_ .f32 := constant S_ .f32 0x7F800000#32
  let main_v35 : FVec F S256x128x1 .f32 := broadcastInDim S256x128x1 ![] bcast_S_S256x128x1 main_cst_12
  let main_v36 : IVec S256x128x1 1 := cmpf .olt main_v34 main_v35
  let main_c_13 : IVec S_ 1 := constantI S_ 1 1#1
  let main_v37 : IVec S_ 1 := (fun x v => Host.reduce IntOp.andi x v reducesTo_S256x128x1_S_d0_1_2 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S256x256x3 .f32) (main_arg5 : FVec F S256x1x1 .f32) (main_arg6 : FVec F S256 .f32) (main_arg7 : FVec F S256x128x1 .f32) (main_arg8 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256x3 .f32 := Host.absf main_arg4
  let main_cst_6 : FVec F S_ .f32 := constant S_ .f32 0x7F800000#32
  let main_v20 : FVec F S256x256x3 .f32 := broadcastInDim S256x256x3 ![] bcast_S_S256x256x3 main_cst_6
  let main_v21 : IVec S256x256x3 1 := cmpf .olt main_v19 main_v20
  let main_c_7 : IVec S_ 1 := constantI S_ 1 1#1
  let main_v22 : IVec S_ 1 := (fun x v => Host.reduce IntOp.andi x v reducesTo_S256x256x3_S_d0_1_2 h_S_) main_v21 main_c_7
  let main_v23 : IVec S_ 1 := andi main_v18 main_v22
  let main_v24 : FVec F S256x1x1 .f32 := Host.absf main_arg5
  let main_cst_8 : FVec F S_ .f32 := constant S_ .f32 0x7F800000#32
  let main_v25 : FVec F S256x1x1 .f32 := broadcastInDim S256x1x1 ![] bcast_S_S256x1x1 main_cst_8
  let main_v26 : IVec S256x1x1 1 := cmpf .olt main_v24 main_v25
  let main_c_9 : IVec S_ 1 := constantI S_ 1 1#1
  let main_v27 : IVec S_ 1 := (fun x v => Host.reduce IntOp.andi x v reducesTo_S256x1x1_S_d0_1_2 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S32x128x1024 .f32) (main_arg1 : FVec F S256x128x3 .f32) (main_arg2 : FVec F S256x1x1 .f32) (main_arg3 : FVec F S256 .f32) (main_arg4 : FVec F S256x256x3 .f32) (main_arg5 : FVec F S256x1x1 .f32) (main_arg6 : FVec F S256 .f32) (main_arg7 : FVec F S256x128x1 .f32) (main_arg8 : FVec F S256 .f32) : IVec S_ 1 :=
  let main_v0 : FVec F S32x128x1024 .f32 := Host.absf main_arg0
  let main_cst : FVec F S_ .f32 := constant S_ .f32 0x7F800000#32
  let main_v1 : FVec F S32x128x1024 .f32 := broadcastInDim S32x128x1024 ![] bcast_S_S32x128x1024 main_cst
  let main_v2 : IVec S32x128x1024 1 := cmpf .olt main_v0 main_v1
  let main_c : IVec S_ 1 := constantI S_ 1 1#1
  let main_v3 : IVec S_ 1 := (fun x v => Host.reduce IntOp.andi x v reducesTo_S32x128x1024_S_d0_1_2 h_S_) main_v2 main_c
  let main_v4 : FVec F S256x128x3 .f32 := Host.absf main_arg1
  let main_cst_0 : FVec F S_ .f32 := constant S_ .f32 0x7F800000#32
  let main_v5 : FVec F S256x128x3 .f32 := broadcastInDim S256x128x3 ![] bcast_S_S256x128x3 main_cst_0
  let main_v6 : IVec S256x128x3 1 := cmpf .olt main_v4 main_v5
  let main_c_1 : IVec S_ 1 := constantI S_ 1 1#1
  let main_v7 : IVec S_ 1 := (fun x v => Host.reduce IntOp.andi x v reducesTo_S256x128x3_S_d0_1_2 h_S_) main_v6 main_c_1
  let main_v8 : IVec S_ 1 := andi main_v3 main_v7
  let main_v9 : FVec F S256x1x1 .f32 := Host.absf main_arg2
  let main_cst_2 : FVec F S_ .f32 := constant S_ .f32 0x7F800000#32
  let main_v10 : FVec F S256x1x1 .f32 := broadcastInDim S256x1x1 ![] bcast_S_S256x1x1 main_cst_2
  let main_v11 : IVec S256x1x1 1 := cmpf .olt main_v9 main_v10
  let main_c_3 : IVec S_ 1 := constantI S_ 1 1#1
  let main_v12 : IVec S_ 1 := (fun x v => Host.reduce IntOp.andi x v reducesTo_S256x1x1_S_d0_1_2 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_v13 main_v16
-- ==== Kernel.lean ====
abbrev S32x128x1024 : Shape := ⟨3, ![32, 128, 1024]⟩
abbrev S256x128x3 : Shape := ⟨3, ![256, 128, 3]⟩
abbrev S256x1x1 : Shape := ⟨3, ![256, 1, 1]⟩
abbrev S256 : Shape := ⟨1, ![256]⟩
abbrev S256x256x3 : Shape := ⟨3, ![256, 256, 3]⟩
abbrev S256x128x1 : Shape := ⟨3, ![256, 128, 1]⟩
abbrev S_ : Shape := ⟨0, ![]⟩
abbrev S3x256x128 : Shape := ⟨3, ![3, 256, 128]⟩
abbrev S3x256x256 : Shape := ⟨3, ![3, 256, 256]⟩
abbrev S1x256x128 : Shape := ⟨3, ![1, 256, 128]⟩
abbrev S4x256x128 : Shape := ⟨3, ![4, 256, 128]⟩
abbrev S1x256 : Shape := ⟨2, ![1, 256]⟩
abbrev S3x256 : Shape := ⟨2, ![3, 256]⟩
abbrev S3x256x1 : Shape := ⟨3, ![3, 256, 1]⟩
abbrev S32x256x1024 : Shape := ⟨3, ![32, 256, 1024]⟩
abbrev S4x128x1024 : Shape := ⟨3, ![4, 128, 1024]⟩
abbrev S4x256x1024 : Shape := ⟨3, ![4, 256, 1024]⟩
abbrev S1x128x1024 : Shape := ⟨3, ![1, 128, 1024]⟩
abbrev S128x1024 : Shape := ⟨2, ![128, 1024]⟩
abbrev S256x128 : Shape := ⟨2, ![256, 128]⟩
abbrev S256x1024 : Shape := ⟨2, ![256, 1024]⟩
abbrev S128x4 : Shape := ⟨2, ![128, 4]⟩
abbrev S128x1020 : Shape := ⟨2, ![128, 1020]⟩
abbrev S128x2 : Shape := ⟨2, ![128, 2]⟩
abbrev S128x1022 : Shape := ⟨2, ![128, 1022]⟩
abbrev S1x256x1 : Shape := ⟨3, ![1, 256, 1]⟩
abbrev S256x1 : Shape := ⟨2, ![256, 1]⟩
abbrev S1x256x256 : Shape := ⟨3, ![1, 256, 256]⟩
abbrev S256x256 : Shape := ⟨2, ![256, 256]⟩
abbrev S256x4 : Shape := ⟨2, ![256, 4]⟩
abbrev S256x1020 : Shape := ⟨2, ![256, 1020]⟩
abbrev S256x2 : Shape := ⟨2, ![256, 2]⟩
abbrev S256x1022 : Shape := ⟨2, ![256, 1022]⟩
abbrev S1x256x1024 : Shape := ⟨3, ![1, 256, 1024]⟩

abbrev nBuf : Space → Nat
  | .hbm => 39
  | .vmem => 7
  | .smem => 0
  | _ => 0

abbrev bufTy : (tb : Table) → Fin (tcTables nBuf tb) → BufTy
  | .hbm, ⟨0, _⟩ => ⟨S32x128x1024, .f32⟩
  | .hbm, ⟨1, _⟩ => ⟨S256x128x3, .f32⟩
  | .hbm, ⟨2, _⟩ => ⟨S256x1x1, .f32⟩
  | .hbm, ⟨3, _⟩ => ⟨S256, .f32⟩
  | .hbm, ⟨4, _⟩ => ⟨S256x256x3, .f32⟩
  | .hbm, ⟨5, _⟩ => ⟨S256x1x1, .f32⟩
  | .hbm, ⟨6, _⟩ => ⟨S256, .f32⟩
  | .hbm, ⟨7, _⟩ => ⟨S256x128x1, .f32⟩
  | .hbm, ⟨8, _⟩ => ⟨S256, .f32⟩
  | .hbm, ⟨9, _⟩ => ⟨S256x128x3, .f32⟩
  | .hbm, ⟨10, _⟩ => ⟨S_, .f32⟩
  | .hbm, ⟨11, _⟩ => ⟨S256, .f32⟩
  | .hbm, ⟨12, _⟩ => ⟨S256x1x1, .f32⟩
  | .hbm, ⟨13, _⟩ => ⟨S256x1x1, .f32⟩
  | .hbm, ⟨14, _⟩ => ⟨S256x128x3, .f32⟩
  | .hbm, ⟨15, _⟩ => ⟨S256x128x3, .f32⟩
  | .hbm, ⟨16, _⟩ => ⟨S256x128x3, .f32⟩
  | .hbm, ⟨17, _⟩ => ⟨S256x128x3, .f32⟩
  | .hbm, ⟨18, _⟩ => ⟨S3x256x128, .f32⟩
  | .hbm, ⟨19, _⟩ => ⟨S256x256x3, .f32⟩
  | .hbm, ⟨20, _⟩ => ⟨S_, .f32⟩
  | .hbm, ⟨21, _⟩ => ⟨S256, .f32⟩
  | .hbm, ⟨22, _⟩ => ⟨S256x1x1, .f32⟩
  | .hbm, ⟨23, _⟩ => ⟨S256x1x1, .f32⟩
  | .hbm, ⟨24, _⟩ => ⟨S256x256x3, .f32⟩
  | .hbm, ⟨25, _⟩ => ⟨S256x256x3, .f32⟩
  | .hbm, ⟨26, _⟩ => ⟨S256x256x3, .f32⟩
  | .hbm, ⟨27, _⟩ => ⟨S256x256x3, .f32⟩
  | .hbm, ⟨28, _⟩ => ⟨S3x256x256, .f32⟩
  | .hbm, ⟨29, _⟩ => ⟨S3x256x256, .bf16⟩
  | .hbm, ⟨30, _⟩ => ⟨S1x256x128, .f32⟩
  | .hbm, ⟨31, _⟩ => ⟨S4x256x128, .f32⟩
  | .hbm, ⟨32, _⟩ => ⟨S4x256x128, .bf16⟩
  | .hbm, ⟨33, _⟩ => ⟨S1x256, .f32⟩
  | .hbm, ⟨34, _⟩ => ⟨S1x256, .f32⟩
  | .hbm, ⟨35, _⟩ => ⟨S1x256, .f32⟩
  | .hbm, ⟨36, _⟩ => ⟨S3x256, .f32⟩
  | .hbm, ⟨37, _⟩ => ⟨S3x256x1, .f32⟩
  | .hbm, ⟨38, _⟩ => ⟨S32x256x1024, .f32⟩
  | .local _ .vmem, ⟨0, _⟩ => ⟨S4x128x1024, .f32⟩
  | .local _ .vmem, ⟨1, _⟩ => ⟨S4x128x1024, .f32⟩
  | .local _ .vmem, ⟨2, _⟩ => ⟨S4x256x128, .bf16⟩
  | .local _ .vmem, ⟨3, _⟩ => ⟨S3x256x256, .bf16⟩
  | .local _ .vmem, ⟨4, _⟩ => ⟨S3x256x1, .f32⟩
  | .local _ .vmem, ⟨5, _⟩ => ⟨S4x256x1024, .f32⟩
  | .local _ .vmem, ⟨6, _⟩ => ⟨S4x256x1024, .f32⟩
  | _, _ => ⟨S32x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S256x128x3_S256_d1_2 : S256x128x3.ReducesTo [1, 2] S256
  h_S_ : 0 < S_.numel
  bcast_S256_S256x1x1_0 : S256.BroadcastsInDim S256x1x1 (![0] : Fin 1 → Fin S256x1x1.rank)
  bcast_S256x1x1_S256x128x3_0_1_2 : S256x1x1.BroadcastsInDim S256x128x3 (![0, 1, 2] : Fin 3 → Fin S256x128x3.rank)
  transposes_S256x128x3_S3x256x128_2_0_1 : S256x128x3.Transposes [2, 0, 1] S3x256x128
  reducesTo_S256x256x3_S256_d1_2 : S256x256x3.ReducesTo [1, 2] S256
  bcast_S256x1x1_S256x256x3_0_1_2 : S256x1x1.BroadcastsInDim S256x256x3 (![0, 1, 2] : Fin 3 → Fin S256x256x3.rank)
  transposes_S256x256x3_S3x256x256_2_0_1 : S256x256x3.Transposes [2, 0, 1] S3x256x256
  bitsLt_bf16_f32 : FTy.bits .bf16 < FTy.bits .f32
  shapeCasts_S256x128x1_S1x256x128 : S256x128x1.ShapeCasts S1x256x128
  concatenates_S3x256x128_S1x256x128_S4x256x128_d0 : Shape.Concatenates [S3x256x128, S1x256x128] S4x256x128 0
  bcast_S256_S1x256_1 : S256.BroadcastsInDim S1x256 (![1] : Fin 1 → Fin S1x256.rank)
  concatenates_S1x256_S1x256_S1x256_S3x256_d0 : Shape.Concatenates [S1x256, S1x256, S1x256] S3x256 0
  shapeCasts_S3x256_S3x256x1 : S3x256.ShapeCasts S3x256x1
  inb_S4x128x1024_S1x128x1024_0_0_0 : ∀ a, (![0, 0, 0] : Fin 3 → Nat) a + S1x128x1024.size a ≤ S4x128x1024.size a
  h_S1x128x1024 : 0 < S1x128x1024.numel
  shapeCasts_S1x128x1024_S128x1024 : S1x128x1024.ShapeCasts S128x1024
  inb_S4x256x128_S1x256x128_2_0_0 : ∀ a, (![2, 0, 0] : Fin 3 → Nat) a + S1x256x128.size a ≤ S4x256x128.size a
  h_S1x256x128 : 0 < S1x256x128.numel
  shapeCasts_S1x256x128_S256x128 : S1x256x128.ShapeCasts S256x128
  inb_S4x256x128_S1x256x128_0_0_0 : ∀ a, (![0, 0, 0] : Fin 3 → Nat) a + S1x256x128.size a ≤ S4x256x128.size a
  slices_S128x1024_o0_0_S128x1020 : S128x1024.Slices ![0, 0] S128x1020
  concatenates_S128x4_S128x1020_S128x1024_d1 : Shape.Concatenates [S128x4, S128x1020] S128x1024 1
  inb_S4x256x128_S1x256x128_1_0_0 : ∀ a, (![1, 0, 0] : Fin 3 → Nat) a + S1x256x128.size a ≤ S4x256x128.size a
  slices_S128x1024_o0_0_S128x1022 : S128x1024.Slices ![0, 0] S128x1022
  concatenates_S128x2_S128x1022_S128x1024_d1 : Shape.Concatenates [S128x2, S128x1022] S128x1024 1
  inb_S3x256x1_S1x256x1_0_0_0 : ∀ a, (![0, 0, 0] : Fin 3 → Nat) a + S1x256x1.size a ≤ S3x256x1.size a
  h_S1x256x1 : 0 < S1x256x1.numel
  shapeCasts_S1x256x1_S256x1 : S1x256x1.ShapeCasts S256x1
  broadcasts_S256x1_S256x1024 : S256x1.Broadcasts S256x1024
  inb_S3x256x256_S1x256x256_2_0_0 : ∀ a, (![2, 0, 0] : Fin 3 → Nat) a + S1x256x256.size a ≤ S3x256x256.size a
  h_S1x256x256 : 0 < S1x256x256.numel
  shapeCasts_S1x256x256_S256x256 : S1x256x256.ShapeCasts S256x256
  inb_S3x256x256_S1x256x256_0_0_0 : ∀ a, (![0, 0, 0] : Fin 3 → Nat) a + S1x256x256.size a ≤ S3x256x256.size a
  slices_S256x1024_o0_0_S256x1020 : S256x1024.Slices ![0, 0] S256x1020
  concatenates_S256x4_S256x1020_S256x1024_d1 : Shape.Concatenates [S256x4, S256x1020] S256x1024 1
  inb_S3x256x256_S1x256x256_1_0_0 : ∀ a, (![1, 0, 0] : Fin 3 → Nat) a + S1x256x256.size a ≤ S3x256x256.size a
  slices_S256x1024_o0_0_S256x1022 : S256x1024.Slices ![0, 0] S256x1022
  concatenates_S256x2_S256x1022_S256x1024_d1 : Shape.Concatenates [S256x2, S256x1022] S256x1024 1
  inb_S3x256x1_S1x256x1_1_0_0 : ∀ a, (![1, 0, 0] : Fin 3 → Nat) a + S1x256x1.size a ≤ S3x256x1.size a
  inb_S4x256x128_S1x256x128_3_0_0 : ∀ a, (![3, 0, 0] : Fin 3 → Nat) a + S1x256x128.size a ≤ S4x256x128.size a
  inb_S3x256x1_S1x256x1_2_0_0 : ∀ a, (![2, 0, 0] : Fin 3 → Nat) a + S1x256x1.size a ≤ S3x256x1.size a
  inb_S4x256x1024_S1x256x1024_0_0_0 : ∀ a, (![0, 0, 0] : Fin 3 → Nat) a + S1x256x1024.size a ≤ S4x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  inb_S4x128x1024_S1x128x1024_1_0_0 : ∀ a, (![1, 0, 0] : Fin 3 → Nat) a + S1x128x1024.size a ≤ S4x128x1024.size a
  inb_S4x256x1024_S1x256x1024_1_0_0 : ∀ a, (![1, 0, 0] : Fin 3 → Nat) a + S1x256x1024.size a ≤ S4x256x1024.size a
  inb_S4x128x1024_S1x128x1024_2_0_0 : ∀ a, (![2, 0, 0] : Fin 3 → Nat) a + S1x128x1024.size a ≤ S4x128x1024.size a
  inb_S4x256x1024_S1x256x1024_2_0_0 : ∀ a, (![2, 0, 0] : Fin 3 → Nat) a + S1x256x1024.size a ≤ S4x256x1024.size a
  inb_S4x128x1024_S1x128x1024_3_0_0 : ∀ a, (![3, 0, 0] : Fin 3 → Nat) a + S1x128x1024.size a ≤ S4x128x1024.size a
  inb_S4x256x1024_S1x256x1024_3_0_0 : ∀ a, (![3, 0, 0] : Fin 3 → Nat) a + S1x256x1024.size a ≤ S4x256x1024.size a
  dot_S256x128_S128x1024_S256x1024_1_0_0_1_n_n_wf : DotDims.WF S256x128 S128x1024 S256x1024 [1] [0] [0] [1] [] []
  dot_S256x256_S256x1024_S256x1024_1_0_0_1_n_n_wf : DotDims.WF S256x256 S256x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x128x1024.size a ≤ S32x128x1024.size a
  hwx0_0 : ∀ i : grid0.Coords, EltTy.bits .f32 = 32 ∨ (Rect.block (s := S32x128x1024) S4x128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x256x128.size a ≤ S4x256x128.size a
  hwx0_1 : ∀ i : grid0.Coords, EltTy.bits .bf16 = 32 ∨ (Rect.block (s := S4x256x128) S4x256x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x256x256.size a ≤ S3x256x256.size a
  hwx0_2 : ∀ i : grid0.Coords, EltTy.bits .bf16 = 32 ∨ (Rect.block (s := S3x256x256) S3x256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x256x1.size a ≤ S3x256x1.size a
  hwx0_3 : ∀ i : grid0.Coords, EltTy.bits .f32 = 32 ∨ (Rect.block (s := S3x256x1) S3x256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x256x1024.size a ≤ S32x256x1024.size a
  hwx0_4 : ∀ i : grid0.Coords, EltTy.bits .f32 = 32 ∨ (Rect.block (s := S32x256x1024) S4x256x1024.size (cc0_transform_4 i) (hinb0_4 i)).WholeWords (EltTy.packing .f32)

variable [Facts₀]

def dot_S256x128_S128x1024_S256x1024_1_0_0_1_n_n : DotDims S256x128 S128x1024 S256x1024 where
  lhsContracting := [1]
  rhsContracting := [0]
  lhsNonContracting := [0]
  rhsNonContracting := [1]
  lhsBatch := []
  rhsBatch := []
  wf := dot_S256x128_S128x1024_S256x1024_1_0_0_1_n_n_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf

abbrev win0_0 : Pipeline.Window sig grid0 :=
  Pipeline.Window.ofSpec (Memref.whole main_arg0) S4x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S4x256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S3x256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S3x256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S4x256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x128x1024 : Shape := ⟨3, ![32, 128, 1024]⟩
abbrev S256x128x3 : Shape := ⟨3, ![256, 128, 3]⟩
abbrev S256x1x1 : Shape := ⟨3, ![256, 1, 1]⟩
abbrev S256 : Shape := ⟨1, ![256]⟩
abbrev S256x256x3 : Shape := ⟨3, ![256, 256, 3]⟩
abbrev S256x128x1 : Shape := ⟨3, ![256, 128, 1]⟩
abbrev S_ : Shape := ⟨0, ![]⟩
abbrev S32x128x1028 : Shape := ⟨3, ![32, 128, 1028]⟩
abbrev S3x256x128 : Shape := ⟨3, ![3, 256, 128]⟩
abbrev S256x1 : Shape := ⟨2, ![256, 1]⟩
abbrev S32x256x1024 : Shape := ⟨3, ![32, 256, 1024]⟩
abbrev S1x128x1028 : Shape := ⟨3, ![1, 128, 1028]⟩
abbrev S1x256x1024 : Shape := ⟨3, ![1, 256, 1024]⟩
abbrev S256x1024 : Shape := ⟨2, ![256, 1024]⟩
abbrev S1x128x1024 : Shape := ⟨3, ![1, 128, 1024]⟩
abbrev S128x1024 : Shape := ⟨2, ![128, 1024]⟩
abbrev S1x256x128 : Shape := ⟨3, ![1, 256, 128]⟩
abbrev S256x128 : Shape := ⟨2, ![256, 128]⟩
abbrev S32x256x1028 : Shape := ⟨3, ![32, 256, 1028]⟩
abbrev S3x256x256 : Shape := ⟨3, ![3, 256, 256]⟩
abbrev S1x256x1028 : Shape := ⟨3, ![1, 256, 1028]⟩
abbrev S1x256x256 : Shape := ⟨3, ![1, 256, 256]⟩
abbrev S256x256 : Shape := ⟨2, ![256, 256]⟩

abbrev nBuf : Space → Nat
  | .hbm => 41
  | .vmem => 16
  | .smem => 0
  | _ => 0

abbrev bufTy : (tb : Table) → Fin (tcTables nBuf tb) → BufTy
  | .hbm, ⟨0, _⟩ => ⟨S32x128x1024, .f32⟩
  | .hbm, ⟨1, _⟩ => ⟨S256x128x3, .f32⟩
  | .hbm, ⟨2, _⟩ => ⟨S256x1x1, .f32⟩
  | .hbm, ⟨3, _⟩ => ⟨S256, .f32⟩
  | .hbm, ⟨4, _⟩ => ⟨S256x256x3, .f32⟩
  | .hbm, ⟨5, _⟩ => ⟨S256x1x1, .f32⟩
  | .hbm, ⟨6, _⟩ => ⟨S256, .f32⟩
  | .hbm, ⟨7, _⟩ => ⟨S256x128x1, .f32⟩
  | .hbm, ⟨8, _⟩ => ⟨S256, .f32⟩
  | .hbm, ⟨9, _⟩ => ⟨S256x128x3, .f32⟩
  | .hbm, ⟨10, _⟩ => ⟨S_, .f32⟩
  | .hbm, ⟨11, _⟩ => ⟨S256, .f32⟩
  | .hbm, ⟨12, _⟩ => ⟨S256x1x1, .f32⟩
  | .hbm, ⟨13, _⟩ => ⟨S256x1x1, .f32⟩
  | .hbm, ⟨14, _⟩ => ⟨S256x128x3, .f32⟩
  | .hbm, ⟨15, _⟩ => ⟨S256x128x3, .f32⟩
  | .hbm, ⟨16, _⟩ => ⟨S256x128x3, .f32⟩
  | .hbm, ⟨17, _⟩ => ⟨S256x128x3, .f32⟩
  | .hbm, ⟨18, _⟩ => ⟨S256x256x3, .f32⟩
  | .hbm, ⟨19, _⟩ => ⟨S_, .f32⟩
  | .hbm, ⟨20, _⟩ => ⟨S256, .f32⟩
  | .hbm, ⟨21, _⟩ => ⟨S256x1x1, .f32⟩
  | .hbm, ⟨22, _⟩ => ⟨S256x1x1, .f32⟩
  | .hbm, ⟨23, _⟩ => ⟨S256x256x3, .f32⟩
  | .hbm, ⟨24, _⟩ => ⟨S256x256x3, .f32⟩
  | .hbm, ⟨25, _⟩ => ⟨S256x256x3, .f32⟩
  | .hbm, ⟨26, _⟩ => ⟨S256x256x3, .f32⟩
  | .hbm, ⟨27, _⟩ => ⟨S_, .i32⟩
  | .hbm, ⟨28, _⟩ => ⟨S_, .f32⟩
  | .hbm, ⟨29, _⟩ => ⟨S32x128x1028, .f32⟩
  | .hbm, ⟨30, _⟩ => ⟨S3x256x128, .f32⟩
  | .hbm, ⟨31, _⟩ => ⟨S256x1, .f32⟩
  | .hbm, ⟨32, _⟩ => ⟨S32x256x1024, .f32⟩
  | .hbm, ⟨33, _⟩ => ⟨S_, .i32⟩
  | .hbm, ⟨34, _⟩ => ⟨S_, .f32⟩
  | .hbm, ⟨35, _⟩ => ⟨S32x256x1028, .f32⟩
  | .hbm, ⟨36, _⟩ => ⟨S3x256x256, .f32⟩
  | .hbm, ⟨37, _⟩ => ⟨S256x1, .f32⟩
  | .hbm, ⟨38, _⟩ => ⟨S256x128, .f32⟩
  | .hbm, ⟨39, _⟩ => ⟨S256x1, .f32⟩
  | .hbm, ⟨40, _⟩ => ⟨S32x256x1024, .f32⟩
  | .local _ .vmem, ⟨0, _⟩ => ⟨S1x128x1028, .f32⟩
  | .local _ .vmem, ⟨1, _⟩ => ⟨S1x128x1028, .f32⟩
  | .local _ .vmem, ⟨2, _⟩ => ⟨S3x256x128, .f32⟩
  | .local _ .vmem, ⟨3, _⟩ => ⟨S256x1, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1028, .f32⟩
  | .local _ .vmem, ⟨7, _⟩ => ⟨S1x256x1028, .f32⟩
  | .local _ .vmem, ⟨8, _⟩ => ⟨S3x256x256, .f32⟩
  | .local _ .vmem, ⟨9, _⟩ => ⟨S256x1, .f32⟩
  | .local _ .vmem, ⟨10, _⟩ => ⟨S1x128x1024, .f32⟩
  | .local _ .vmem, ⟨11, _⟩ => ⟨S1x128x1024, .f32⟩
  | .local _ .vmem, ⟨12, _⟩ => ⟨S256x128, .f32⟩
  | .local _ .vmem, ⟨13, _⟩ => ⟨S256x1, .f32⟩
  | .local _ .vmem, ⟨14, _⟩ => ⟨S1x256x1024, .f32⟩
  | .local _ .vmem, ⟨15, _⟩ => ⟨S1x256x1024, .f32⟩
  | _, _ => ⟨S32x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_call0_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_call1_v0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x1028 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x128x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  reducesTo_S256x128x3_S256_d1_2 : S256x128x3.ReducesTo [1, 2] S256
  h_S_ : 0 < S_.numel
  bcast_S256_S256x1x1_0 : S256.BroadcastsInDim S256x1x1 (![0] : Fin 1 → Fin S256x1x1.rank)
  bcast_S256x1x1_S256x128x3_0_1_2 : S256x1x1.BroadcastsInDim S256x128x3 (![0, 1, 2] : Fin 3 → Fin S256x128x3.rank)
  reducesTo_S256x256x3_S256_d1_2 : S256x256x3.ReducesTo [1, 2] S256
  bcast_S256x1x1_S256x256x3_0_1_2 : S256x1x1.BroadcastsInDim S256x256x3 (![0, 1, 2] : Fin 3 → Fin S256x256x3.rank)
  pads_S32x128x1024_S32x128x1028_000_000_400 : S32x128x1024.Pads (![0, 0, 4] : Fin 3 → Nat) ![0, 0, 0] ![0, 0, 0] S32x128x1028
  transposes_S256x128x3_S3x256x128_2_0_1 : S256x128x3.Transposes [2, 0, 1] S3x256x128
  shapeCasts_S256_S256x1 : S256.ShapeCasts S256x1
  inb_S1x128x1028_S1x128x1024_0_0_0 : ∀ a, (![0, 0, 0] : Fin 3 → Nat) a + S1x128x1024.size a ≤ S1x128x1028.size a
  h_S1x128x1024 : 0 < S1x128x1024.numel
  shapeCasts_S1x128x1024_S128x1024 : S1x128x1024.ShapeCasts S128x1024
  inb_S3x256x128_S1x256x128_0_0_0 : ∀ a, (![0, 0, 0] : Fin 3 → Nat) a + S1x256x128.size a ≤ S3x256x128.size a
  h_S1x256x128 : 0 < S1x256x128.numel
  shapeCasts_S1x256x128_S256x128 : S1x256x128.ShapeCasts S256x128
  inb_S1x128x1028_S1x128x1024_0_0_2 : ∀ a, (![0, 0, 2] : Fin 3 → Nat) a + S1x128x1024.size a ≤ S1x128x1028.size a
  inb_S3x256x128_S1x256x128_1_0_0 : ∀ a, (![1, 0, 0] : Fin 3 → Nat) a + S1x256x128.size a ≤ S3x256x128.size a
  inb_S1x128x1028_S1x128x1024_0_0_4 : ∀ a, (![0, 0, 4] : Fin 3 → Nat) a + S1x128x1024.size a ≤ S1x128x1028.size a
  inb_S3x256x128_S1x256x128_2_0_0 : ∀ a, (![2, 0, 0] : Fin 3 → Nat) a + S1x256x128.size a ≤ S3x256x128.size a
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x1024 : S256x1.Broadcasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  pads_S32x256x1024_S32x256x1028_000_000_400 : S32x256x1024.Pads (![0, 0, 4] : Fin 3 → Nat) ![0, 0, 0] ![0, 0, 0] S32x256x1028
  transposes_S256x256x3_S3x256x256_2_0_1 : S256x256x3.Transposes [2, 0, 1] S3x256x256
  shapeCasts_S256x128x1_S256x128 : S256x128x1.ShapeCasts S256x128
  inb_S1x256x1028_S1x256x1024_0_0_0 : ∀ a, (![0, 0, 0] : Fin 3 → Nat) a + S1x256x1024.size a ≤ S1x256x1028.size a
  inb_S3x256x256_S1x256x256_0_0_0 : ∀ a, (![0, 0, 0] : Fin 3 → Nat) a + S1x256x256.size a ≤ S3x256x256.size a
  h_S1x256x256 : 0 < S1x256x256.numel
  shapeCasts_S1x256x256_S256x256 : S1x256x256.ShapeCasts S256x256
  inb_S1x256x1028_S1x256x1024_0_0_2 : ∀ a, (![0, 0, 2] : Fin 3 → Nat) a + S1x256x1024.size a ≤ S1x256x1028.size a
  inb_S3x256x256_S1x256x256_1_0_0 : ∀ a, (![1, 0, 0] : Fin 3 → Nat) a + S1x256x256.size a ≤ S3x256x256.size a
  inb_S1x256x1028_S1x256x1024_0_0_4 : ∀ a, (![0, 0, 4] : Fin 3 → Nat) a + S1x256x1024.size a ≤ S1x256x1028.size a
  inb_S3x256x256_S1x256x256_2_0_0 : ∀ a, (![2, 0, 0] : Fin 3 → Nat) a + S1x256x256.size a ≤ S3x256x256.size a
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128x1024_S1x128x1024_0_0_0 : ∀ a, (![0, 0, 0] : Fin 3 → Nat) a + S1x128x1024.size a ≤ S1x128x1024.size a
  dot_S256x128_S128x1024_S256x1024_1_0_0_1_n_n_wf : DotDims.WF S256x128 S128x1024 S256x1024 [1] [0] [0] [1] [] []
  dot_S256x256_S256x1024_S256x1024_1_0_0_1_n_n_wf : DotDims.WF S256x256 S256x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1028.size a ≤ S32x128x1028.size a
  hwx0_0 : ∀ i : grid0.Coords, EltTy.bits .f32 = 32 ∨ (Rect.block (s := S32x128x1028) S1x128x1028.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x256x128.size a ≤ S3x256x128.size a
  hwx0_1 : ∀ i : grid0.Coords, EltTy.bits .f32 = 32 ∨ (Rect.block (s := S3x256x128) S3x256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S32x256x1024.size a
  hwx0_3 : ∀ i : grid0.Coords, EltTy.bits .f32 = 32 ∨ (Rect.block (s := S32x256x1024) S1x256x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1028.size a ≤ S32x256x1028.size a
  hwx1_0 : ∀ i : grid1.Coords, EltTy.bits .f32 = 32 ∨ (Rect.block (s := S32x256x1028) S1x256x1028.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x256x256.size a ≤ S3x256x256.size a
  hwx1_1 : ∀ i : grid1.Coords, EltTy.bits .f32 = 32 ∨ (Rect.block (s := S3x256x256) S3x256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S256x1.size a
  hwx1_2 : ∀ i : grid1.Coords, EltTy.bits .f32 = 32 ∨ (Rect.block (s := S256x1) S256x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x1024.size a ≤ S32x128x1024.size a
  hwx1_3 : ∀ i : grid1.Coords, EltTy.bits .f32 = 32 ∨ (Rect.block (s := S32x128x1024) S1x128x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x1.size a ≤ S256x1.size a
  hwx1_5 : ∀ i : grid1.Coords, EltTy.bits .f32 = 32 ∨ (Rect.block (s := S256x1) S256x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256x1024.size a ≤ S32x256x1024.size a
  hwx1_6 : ∀ i : grid1.Coords, EltTy.bits .f32 = 32 ∨ (Rect.block (s := S32x256x1024) S1x256x1024.size (cc1_transform_6 i) (hinb1_6 i)).WholeWords (EltTy.packing .f32)

variable [Facts₀]

def dot_S256x128_S128x1024_S256x1024_1_0_0_1_n_n : DotDims S256x128 S128x1024 S256x1024 where
  lhsContracting := [1]
  rhsContracting := [0]
  lhsNonContracting := [0]
  rhsNonContracting := [1]
  lhsBatch := []
  rhsBatch := []
  wf := dot_S256x128_S128x1024_S256x1024_1_0_0_1_n_n_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf

abbrev win0_0 : Pipeline.Window sig grid0 :=
  Pipeline.Window.ofSpec (Memref.whole main_v16) S1x128x1028.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S3x256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v20) S1x256x1028.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S3x256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S256x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S1x128x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v23) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S256x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S1x256x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== Proof.KernelOut.lean ====
/-
  What the fused kernel's body leaves in its output block, as a function of the four input blocks: the body handles
  the block's four batch elements one after the other, each stored through its own slab of the output buffer, so the
  buffer ends as the canon of four pieces, one per batch element, each piece the body's arithmetic on that element's
  slab of the input and on the weight and bias slabs.
-/
import proofs.«153267_g2000506556625611_pallasbulk_77_11_alg».proof.Proof.Gen.Kernel.Skeleton
import Idealize.ShloMosaic.Lib.Pipeline.FrameBody

set_option maxRecDepth 16384

noncomputable section

namespace Cert.Kernel.Out

open Idealize.ShloMosaic Idealize.ShloMosaic.TcCoe Cert.Kernel Cert.Kernel.Gen

variable {F : FTy → Type} [FloatOps F]

/-! ## The body's rectangles: slab `b` of the input, tap `k` of the weights, row `j` of the biases, slab `b` of the output -/

abbrev rX0 : Rect S4x128x1024 := Rect.unit (s := S4x128x1024) ![0, 0, 0] S1x128x1024.size inb_S4x128x1024_S1x128x1024_0_0_0
abbrev rX1 : Rect S4x128x1024 := Rect.unit (s := S4x128x1024) ![1, 0, 0] S1x128x1024.size inb_S4x128x1024_S1x128x1024_1_0_0
abbrev rX2 : Rect S4x128x1024 := Rect.unit (s := S4x128x1024) ![2, 0, 0] S1x128x1024.size inb_S4x128x1024_S1x128x1024_2_0_0
abbrev rX3 : Rect S4x128x1024 := Rect.unit (s := S4x128x1024) ![3, 0, 0] S1x128x1024.size inb_S4x128x1024_S1x128x1024_3_0_0
abbrev rW0 : Rect S4x256x128 := Rect.unit (s := S4x256x128) ![0, 0, 0] S1x256x128.size inb_S4x256x128_S1x256x128_0_0_0
abbrev rW1 : Rect S4x256x128 := Rect.unit (s := S4x256x128) ![1, 0, 0] S1x256x128.size inb_S4x256x128_S1x256x128_1_0_0
abbrev rW2 : Rect S4x256x128 := Rect.unit (s := S4x256x128) ![2, 0, 0] S1x256x128.size inb_S4x256x128_S1x256x128_2_0_0
abbrev rW3 : Rect S4x256x128 := Rect.unit (s := S4x256x128) ![3, 0, 0] S1x256x128.size inb_S4x256x128_S1x256x128_3_0_0
abbrev rU0 : Rect S3x256x256 := Rect.unit (s := S3x256x256) ![0, 0, 0] S1x256x256.size inb_S3x256x256_S1x256x256_0_0_0
abbrev rU1 : Rect S3x256x256 := Rect.unit (s := S3x256x256) ![1, 0, 0] S1x256x256.size inb_S3x256x256_S1x256x256_1_0_0
abbrev rU2 : Rect S3x256x256 := Rect.unit (s := S3x256x256) ![2, 0, 0] S1x256x256.size inb_S3x256x256_S1x256x256_2_0_0
abbrev rB0 : Rect S3x256x1 := Rect.unit (s := S3x256x1) ![0, 0, 0] S1x256x1.size inb_S3x256x1_S1x256x1_0_0_0
abbrev rB1 : Rect S3x256x1 := Rect.unit (s := S3x256x1) ![1, 0, 0] S1x256x1.size inb_S3x256x1_S1x256x1_1_0_0
abbrev rB2 : Rect S3x256x1 := Rect.unit (s := S3x256x1) ![2, 0, 0] S1x256x1.size inb_S3x256x1_S1x256x1_2_0_0
abbrev rO0 : Rect S4x256x1024 := Rect.unit (s := S4x256x1024) ![0, 0, 0] S1x256x1024.size inb_S4x256x1024_S1x256x1024_0_0_0
abbrev rO1 : Rect S4x256x1024 := Rect.unit (s := S4x256x1024) ![1, 0, 0] S1x256x1024.size inb_S4x256x1024_S1x256x1024_1_0_0
abbrev rO2 : Rect S4x256x1024 := Rect.unit (s := S4x256x1024) ![2, 0, 0] S1x256x1024.size inb_S4x256x1024_S1x256x1024_2_0_0
abbrev rO3 : Rect S4x256x1024 := Rect.unit (s := S4x256x1024) ![3, 0, 0] S1x256x1024.size inb_S4x256x1024_S1x256x1024_3_0_0

/-! ## What is stored for each batch element, from the input blocks -/

/-- Batch element 0 of the block. -/
def store0 (x0 : Vec F S4x128x1024 .f32) (x1 : Vec F S4x256x128 .bf16) (x2 : Vec F S3x256x256 .bf16) (x3 : Vec F S3x256x1 .f32) : FVec F S1x256x1024 .f32 :=
  k0_pay5 (k0_pay2 (View.ld x0 rX0))
    (k0_pay3 (View.ld x0 rX0) (View.ld x1 rW2) (View.ld x1 rW0) (View.ld x1 rW1) (View.ld x3 rB0))
    (k0_pay4 (View.ld x0 rX0) (View.ld x1 rW2) (View.ld x1 rW0) (View.ld x1 rW1) (View.ld x3 rB0) (View.ld x2 rU2))
    (View.ld x2 rU0) (View.ld x2 rU1) (View.ld x3 rB1) (View.ld x1 rW3) (View.ld x3 rB2)

/-- Batch element 1 of the block. -/
def store1 (x0 : Vec F S4x128x1024 .f32) (x1 : Vec F S4x256x128 .bf16) (x2 : Vec F S3x256x256 .bf16) (x3 : Vec F S3x256x1 .f32) : FVec F S1x256x1024 .f32 :=
  k0_pay12 (k0_pay7 (k0_pay6 (View.ld x0 rX1)))
    (k0_pay8 (k0_pay6 (View.ld x0 rX1)) (View.ld x1 rW2) (View.ld x1 rW0) (View.ld x1 rW1) (View.ld x3 rB0))
    (k0_pay9 (k0_pay6 (View.ld x0 rX1)) (View.ld x1 rW2) (View.ld x1 rW0) (View.ld x1 rW1) (View.ld x3 rB0) (View.ld x2 rU2))
    (k0_pay10 (View.ld x2 rU0))
    (k0_pay11 (k0_pay6 (View.ld x0 rX1)) (View.ld x1 rW2) (View.ld x1 rW0) (View.ld x1 rW1) (View.ld x3 rB0))
    (constant S256x1024 .f32 0x00000000#32)
    (View.ld x2 rU1) (View.ld x3 rB1) (View.ld x1 rW3) (View.ld x3 rB2)

/-- Batch element 2 of the block. -/
def store2 (x0 : Vec F S4x128x1024 .f32) (x1 : Vec F S4x256x128 .bf16) (x2 : Vec F S3x256x256 .bf16) (x3 : Vec F S3x256x1 .f32) : FVec F S1x256x1024 .f32 :=
  k0_pay17 (k0_pay13 (View.ld x0 rX2))
    (k0_pay15 (k0_pay13 (View.ld x0 rX2)) (k0_pay14 (View.ld x1 rW2)) (View.ld x1 rW0) (View.ld x1 rW1) (View.ld x3 rB0))
    (k0_pay16 (k0_pay13 (View.ld x0 rX2)) (k0_pay14 (View.ld x1 rW2)) (View.ld x1 rW0) (View.ld x1 rW1) (View.ld x3 rB0) (View.ld x2 rU2) (View.ld x2 rU0))
    (View.ld x2 rU1) (View.ld x3 rB1) (View.ld x1 rW3) (View.ld x3 rB2)

/-- Batch element 3 of the block. -/
def store3 (x0 : Vec F S4x128x1024 .f32) (x1 : Vec F S4x256x128 .bf16) (x2 : Vec F S3x256x256 .bf16) (x3 : Vec F S3x256x1 .f32) : FVec F S1x256x1024 .f32 :=
  k0_pay1 (k0_pay18 (View.ld x0 rX3))
    (k0_pay21 (k0_pay18 (View.ld x0 rX3)) (k0_pay19 (View.ld x0 rX3) (View.ld x1 rW2)) (View.ld x1 rW0) (View.ld x1 rW1) (View.ld x3 rB0) (View.ld x2 rU2) (View.ld x2 rU0))
    (k0_pay22 (View.ld x2 rU1))
    (k0_pay23 (k0_pay18 (View.ld x0 rX3)) (k0_pay19 (View.ld x0 rX3) (View.ld x1 rW2)) (View.ld x1 rW0) (View.ld x1 rW1) (View.ld x3 rB0))
    (constant S256x1024 .f32 0x00000000#32)
    (View.ld x3 rB1) (View.ld x1 rW3) (View.ld x3 rB2)

/-- The output window's staging buffer after the body: its four stores as pieces, the last one first. -/
def out0_4 (x0 : Vec F S4x128x1024 .f32) (x1 : Vec F S4x256x128 .bf16) (x2 : Vec F S3x256x256 .bf16) (x3 : Vec F S3x256x1 .f32) : Vec F S4x256x1024 .f32 :=
  View.canon [⟨rO3, store3 x0 x1 x2 x3⟩, ⟨rO2, store2 x0 x1 x2 x3⟩, ⟨rO1, store1 x0 x1 x2 x3⟩, ⟨rO0, store0 x0 x1 x2 x3⟩]

/-- The four slabs tile the buffer, so they cover it. -/
theorem cover0_4 (p3 p2 p1 p0 : Vec F S1x256x1024 .f32) (y : S4x256x1024.Idx) :
    ∃ pc ∈ ([⟨rO3, p3⟩, ⟨rO2, p2⟩, ⟨rO1, p1⟩, ⟨rO0, p0⟩] : List (View.Piece (Elt F) S4x256x1024 .f32)), y ∈ pc.1.set :=
  View.cover_of_tiled [⟨rO3, p3⟩, ⟨rO2, p2⟩, ⟨rO1, p1⟩, ⟨rO0, p0⟩] S1x256x1024.size (by rfl) y

end Cert.Kernel.Out

end
-- ==== Proof.KernelDat.lean ====
/-
  The fused program up to its one pallas_call, and the data its frame proof runs on: the buffer contents the call
  finds (the host operations before it — the weight normalisation, the packing of the 1×1 projection as a fourth
  tap and of the three biases as one array — folded over the launch memory), each window's block at a grid point,
  and what every window's staging buffer holds after the body at a point: an input's buffer its block, the
  output's the canon of the body's four stores over the input blocks.
-/
import proofs.«153267_g2000506556625611_pallasbulk_77_11_alg».proof.Proof.Gen.Kernel.Launch
import proofs.«153267_g2000506556625611_pallasbulk_77_11_alg».proof.Proof.Gen.Kernel.Skeleton
import proofs.«153267_g2000506556625611_pallasbulk_77_11_alg».proof.Proof.Gen.Kernel.Points
import proofs.«153267_g2000506556625611_pallasbulk_77_11_alg».proof.Proof.KernelOut
import Idealize.ShloMosaic.Lib.Pipeline.FrameBody
import Idealize.ShloMosaic.Lib.Ring
import Idealize.ShloMosaic.Lib.Tactic

set_option maxRecDepth 16384

noncomputable section

namespace Cert.Kernel.HFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Out

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations before it. -/
abbrev V (c : Dev nD) (b : Ref sig .tc) : Buf (Elt F) ((c : Thread nD τ).loc b) := StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the region-entry contents, a run to the library's frame post, read at the
    argument arrays — the staged input by the library's lemma on input windows, an array no window stages by the
    post's second clause —, has every argument array as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).2 main_arg1 (by decide)).trans (V_main_arg1 m c),
      ((h c).2 main_arg2 (by decide)).trans (V_main_arg2 m c),
      ((h c).2 main_arg3 (by decide)).trans (V_main_arg3 m c),
      ((h c).2 main_arg4 (by decide)).trans (V_main_arg4 m c),
      ((h c).2 main_arg5 (by decide)).trans (V_main_arg5 m c),
      ((h c).2 main_arg6 (by decide)).trans (V_main_arg6 m c),
      ((h c).2 main_arg7 (by decide)).trans (V_main_arg7 m c),
      ((h c).2 main_arg8 (by decide)).trans (V_main_arg8 m c)⟩) h

/-! ## The pipeline's proof data -/

/-- The proof data of the one pipeline on core `c`: the arrays as the region finds them; after the body at point `t`
    each input's buffer at its block and the output's at the canon of the four stores over the input blocks; the
    invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

end Cert.Kernel.HFrame

end
-- ==== Proof.KernelFrame.lean ====
/-
  The frame of the fused program: its one pallas_call's body, run on whole staging buffers holding the four input
  blocks, leaves the inputs as they were and the output buffer at the canon of the four stored slabs; from that the
  body obligation of the pipeline at every grid point, the run of the whole program to the library's frame post,
  and the frame claim: every argument array is, at the end, as launched.
-/
import proofs.«153267_g2000506556625611_pallasbulk_77_11_alg».proof.Proof.KernelDat

set_option maxRecDepth 16384

noncomputable section

namespace Cert.Kernel.HFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Out

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 1000000 in
/-- The body on whole staging buffers, the inputs' holding `x0 … x3` and the output's anything, runs to the
    continuation with the inputs' as they were and the output's at `out0_4` of the inputs: every load reads a literal
    slab of an input block, the four stores write the four slabs of the output block, and what is read back after
    the writes is the canon of the written pieces because the slabs cover the block. -/
theorem sound_kernel (c : Dev nD) (E : Set ℕ) (i : grid0.Coords) (arg1 : Memref sig .tc .vmem S4x128x1024 .f32) (harg1 : arg1.IsWhole) (arg2 : Memref sig .tc .vmem S4x256x128 .bf16) (harg2 : arg2.IsWhole) (arg3 : Memref sig .tc .vmem S3x256x256 .bf16) (harg3 : arg3.IsWhole) (arg4 : Memref sig .tc .vmem S3x256x1 .f32) (harg4 : arg4.IsWhole) (arg5 : Memref sig .tc .vmem S4x256x1024 .f32) (harg5 : arg5.IsWhole)
    (x0 : Vec F S4x128x1024 .f32) (x1 : Vec F S4x256x128 .bf16) (x2 : Vec F S3x256x256 .bf16) (x3 : Vec F S3x256x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__fused_block_kernel i arg1 harg1 arg2 harg2 arg3 harg3 arg4 harg4 arg5 harg5) K := by
  simp only [cc0__fused_block_kernel_eq_skeleton]; unfold cc0__fused_block_kernel_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover0_4 _ _ _ _)

/-! ## The body obligation, at a generic point -/

/-- What the body is called with at point `t`: the invariant, what the core owes, and each window's current staging
    buffer at its contents before the body, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run lemma's implicit arguments are found by unifying its conclusion with this one, which takes unfolding plain
-- definitions in a metavariable's type
set_option backward.isDefEq.respectTransparency.types false in
/-- For any values, from any memory with zero counters: every weakly fair execution of the program on the TensorCores
    terminates, and every final state has every array of the pipeline at what the proof data gives and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.Kernel.HFrame.run_main' depends on axioms: [propext, Classical.choice, Quot.sound] -/
#guard_msgs in #print axioms run_main

/-- The frame: every argument array is, at the end of every run, as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.HFrame

end
-- ==== Proof.KernelIdealOut.lean ====
/-
  What the fused kernel's body leaves in its output block, as a function of the four input blocks: the body handles
  the block's four batch elements one after the other, each stored through its own slab of the output buffer, so the
  buffer ends as the canon of four pieces, one per batch element, each piece the body's arithmetic on that element's
  slab of the input and on the weight and bias slabs.
-/
import proofs.«153267_g2000506556625611_pallasbulk_77_11_alg».proof.Proof.Gen.KernelIdeal.Skeleton
import Idealize.ShloMosaic.Lib.Pipeline.FrameBody

set_option maxRecDepth 16384

noncomputable section

namespace Cert.KernelIdeal.Out

open Idealize.ShloMosaic Idealize.ShloMosaic.TcCoe Cert.KernelIdeal Cert.KernelIdeal.Gen

variable {F : FTy → Type} [FloatOps F]

/-! ## The body's rectangles: slab `b` of the input, tap `k` of the weights, row `j` of the biases, slab `b` of the output -/

abbrev rX0 : Rect S4x128x1024 := Rect.unit (s := S4x128x1024) ![0, 0, 0] S1x128x1024.size inb_S4x128x1024_S1x128x1024_0_0_0
abbrev rX1 : Rect S4x128x1024 := Rect.unit (s := S4x128x1024) ![1, 0, 0] S1x128x1024.size inb_S4x128x1024_S1x128x1024_1_0_0
abbrev rX2 : Rect S4x128x1024 := Rect.unit (s := S4x128x1024) ![2, 0, 0] S1x128x1024.size inb_S4x128x1024_S1x128x1024_2_0_0
abbrev rX3 : Rect S4x128x1024 := Rect.unit (s := S4x128x1024) ![3, 0, 0] S1x128x1024.size inb_S4x128x1024_S1x128x1024_3_0_0
abbrev rW0 : Rect S4x256x128 := Rect.unit (s := S4x256x128) ![0, 0, 0] S1x256x128.size inb_S4x256x128_S1x256x128_0_0_0
abbrev rW1 : Rect S4x256x128 := Rect.unit (s := S4x256x128) ![1, 0, 0] S1x256x128.size inb_S4x256x128_S1x256x128_1_0_0
abbrev rW2 : Rect S4x256x128 := Rect.unit (s := S4x256x128) ![2, 0, 0] S1x256x128.size inb_S4x256x128_S1x256x128_2_0_0
abbrev rW3 : Rect S4x256x128 := Rect.unit (s := S4x256x128) ![3, 0, 0] S1x256x128.size inb_S4x256x128_S1x256x128_3_0_0
abbrev rU0 : Rect S3x256x256 := Rect.unit (s := S3x256x256) ![0, 0, 0] S1x256x256.size inb_S3x256x256_S1x256x256_0_0_0
abbrev rU1 : Rect S3x256x256 := Rect.unit (s := S3x256x256) ![1, 0, 0] S1x256x256.size inb_S3x256x256_S1x256x256_1_0_0
abbrev rU2 : Rect S3x256x256 := Rect.unit (s := S3x256x256) ![2, 0, 0] S1x256x256.size inb_S3x256x256_S1x256x256_2_0_0
abbrev rB0 : Rect S3x256x1 := Rect.unit (s := S3x256x1) ![0, 0, 0] S1x256x1.size inb_S3x256x1_S1x256x1_0_0_0
abbrev rB1 : Rect S3x256x1 := Rect.unit (s := S3x256x1) ![1, 0, 0] S1x256x1.size inb_S3x256x1_S1x256x1_1_0_0
abbrev rB2 : Rect S3x256x1 := Rect.unit (s := S3x256x1) ![2, 0, 0] S1x256x1.size inb_S3x256x1_S1x256x1_2_0_0
abbrev rO0 : Rect S4x256x1024 := Rect.unit (s := S4x256x1024) ![0, 0, 0] S1x256x1024.size inb_S4x256x1024_S1x256x1024_0_0_0
abbrev rO1 : Rect S4x256x1024 := Rect.unit (s := S4x256x1024) ![1, 0, 0] S1x256x1024.size inb_S4x256x1024_S1x256x1024_1_0_0
abbrev rO2 : Rect S4x256x1024 := Rect.unit (s := S4x256x1024) ![2, 0, 0] S1x256x1024.size inb_S4x256x1024_S1x256x1024_2_0_0
abbrev rO3 : Rect S4x256x1024 := Rect.unit (s := S4x256x1024) ![3, 0, 0] S1x256x1024.size inb_S4x256x1024_S1x256x1024_3_0_0

/-! ## What is stored for each batch element, from the input blocks -/

/-- Batch element 0 of the block. -/
def store0 (x0 : Vec F S4x128x1024 .f32) (x1 : Vec F S4x256x128 .bf16) (x2 : Vec F S3x256x256 .bf16) (x3 : Vec F S3x256x1 .f32) : FVec F S1x256x1024 .f32 :=
  k0_pay5 (k0_pay2 (View.ld x0 rX0))
    (k0_pay3 (View.ld x0 rX0) (View.ld x1 rW2) (View.ld x1 rW0) (View.ld x1 rW1) (View.ld x3 rB0))
    (k0_pay4 (View.ld x0 rX0) (View.ld x1 rW2) (View.ld x1 rW0) (View.ld x1 rW1) (View.ld x3 rB0) (View.ld x2 rU2))
    (View.ld x2 rU0) (View.ld x2 rU1) (View.ld x3 rB1) (View.ld x1 rW3) (View.ld x3 rB2)

/-- Batch element 1 of the block. -/
def store1 (x0 : Vec F S4x128x1024 .f32) (x1 : Vec F S4x256x128 .bf16) (x2 : Vec F S3x256x256 .bf16) (x3 : Vec F S3x256x1 .f32) : FVec F S1x256x1024 .f32 :=
  k0_pay12 (k0_pay7 (k0_pay6 (View.ld x0 rX1)))
    (k0_pay8 (k0_pay6 (View.ld x0 rX1)) (View.ld x1 rW2) (View.ld x1 rW0) (View.ld x1 rW1) (View.ld x3 rB0))
    (k0_pay9 (k0_pay6 (View.ld x0 rX1)) (View.ld x1 rW2) (View.ld x1 rW0) (View.ld x1 rW1) (View.ld x3 rB0) (View.ld x2 rU2))
    (k0_pay10 (View.ld x2 rU0))
    (k0_pay11 (k0_pay6 (View.ld x0 rX1)) (View.ld x1 rW2) (View.ld x1 rW0) (View.ld x1 rW1) (View.ld x3 rB0))
    (constant S256x1024 .f32 0x00000000#32)
    (View.ld x2 rU1) (View.ld x3 rB1) (View.ld x1 rW3) (View.ld x3 rB2)

/-- Batch element 2 of the block. -/
def store2 (x0 : Vec F S4x128x1024 .f32) (x1 : Vec F S4x256x128 .bf16) (x2 : Vec F S3x256x256 .bf16) (x3 : Vec F S3x256x1 .f32) : FVec F S1x256x1024 .f32 :=
  k0_pay17 (k0_pay13 (View.ld x0 rX2))
    (k0_pay15 (k0_pay13 (View.ld x0 rX2)) (k0_pay14 (View.ld x1 rW2)) (View.ld x1 rW0) (View.ld x1 rW1) (View.ld x3 rB0))
    (k0_pay16 (k0_pay13 (View.ld x0 rX2)) (k0_pay14 (View.ld x1 rW2)) (View.ld x1 rW0) (View.ld x1 rW1) (View.ld x3 rB0) (View.ld x2 rU2) (View.ld x2 rU0))
    (View.ld x2 rU1) (View.ld x3 rB1) (View.ld x1 rW3) (View.ld x3 rB2)

/-- Batch element 3 of the block. -/
def store3 (x0 : Vec F S4x128x1024 .f32) (x1 : Vec F S4x256x128 .bf16) (x2 : Vec F S3x256x256 .bf16) (x3 : Vec F S3x256x1 .f32) : FVec F S1x256x1024 .f32 :=
  k0_pay1 (k0_pay18 (View.ld x0 rX3))
    (k0_pay21 (k0_pay18 (View.ld x0 rX3)) (k0_pay19 (View.ld x0 rX3) (View.ld x1 rW2)) (View.ld x1 rW0) (View.ld x1 rW1) (View.ld x3 rB0) (View.ld x2 rU2) (View.ld x2 rU0))
    (k0_pay22 (View.ld x2 rU1))
    (k0_pay23 (k0_pay18 (View.ld x0 rX3)) (k0_pay19 (View.ld x0 rX3) (View.ld x1 rW2)) (View.ld x1 rW0) (View.ld x1 rW1) (View.ld x3 rB0))
    (constant S256x1024 .f32 0x00000000#32)
    (View.ld x3 rB1) (View.ld x1 rW3) (View.ld x3 rB2)

/-- The output window's staging buffer after the body: its four stores as pieces, the last one first. -/
def out0_4 (x0 : Vec F S4x128x1024 .f32) (x1 : Vec F S4x256x128 .bf16) (x2 : Vec F S3x256x256 .bf16) (x3 : Vec F S3x256x1 .f32) : Vec F S4x256x1024 .f32 :=
  View.canon [⟨rO3, store3 x0 x1 x2 x3⟩, ⟨rO2, store2 x0 x1 x2 x3⟩, ⟨rO1, store1 x0 x1 x2 x3⟩, ⟨rO0, store0 x0 x1 x2 x3⟩]

/-- The four slabs tile the buffer, so they cover it. -/
theorem cover0_4 (p3 p2 p1 p0 : Vec F S1x256x1024 .f32) (y : S4x256x1024.Idx) :
    ∃ pc ∈ ([⟨rO3, p3⟩, ⟨rO2, p2⟩, ⟨rO1, p1⟩, ⟨rO0, p0⟩] : List (View.Piece (Elt F) S4x256x1024 .f32)), y ∈ pc.1.set :=
  View.cover_of_tiled [⟨rO3, p3⟩, ⟨rO2, p2⟩, ⟨rO1, p1⟩, ⟨rO0, p0⟩] S1x256x1024.size (by rfl) y

end Cert.KernelIdeal.Out

end
-- ==== Proof.KernelIdealDat.lean ====
/-
  The fused program up to its one pallas_call, and the data its frame proof runs on: the buffer contents the call
  finds (the host operations before it — the weight normalisation, the packing of the 1×1 projection as a fourth
  tap and of the three biases as one array — folded over the launch memory), each window's block at a grid point,
  and what every window's staging buffer holds after the body at a point: an input's buffer its block, the
  output's the canon of the body's four stores over the input blocks.
-/
import proofs.«153267_g2000506556625611_pallasbulk_77_11_alg».proof.Proof.Gen.KernelIdeal.Launch
import proofs.«153267_g2000506556625611_pallasbulk_77_11_alg».proof.Proof.Gen.KernelIdeal.Skeleton
import proofs.«153267_g2000506556625611_pallasbulk_77_11_alg».proof.Proof.Gen.KernelIdeal.Points
import proofs.«153267_g2000506556625611_pallasbulk_77_11_alg».proof.Proof.KernelIdealOut
import Idealize.ShloMosaic.Lib.Pipeline.FrameBody
import Idealize.ShloMosaic.Lib.Ring
import Idealize.ShloMosaic.Lib.Tactic

set_option maxRecDepth 16384

noncomputable section

namespace Cert.KernelIdeal.HFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Out

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations before it. -/
abbrev V (c : Dev nD) (b : Ref sig .tc) : Buf (Elt F) ((c : Thread nD τ).loc b) := StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the region-entry contents, a run to the library's frame post, read at the
    argument arrays — the staged input by the library's lemma on input windows, an array no window stages by the
    post's second clause —, has every argument array as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).2 main_arg1 (by decide)).trans (V_main_arg1 m c),
      ((h c).2 main_arg2 (by decide)).trans (V_main_arg2 m c),
      ((h c).2 main_arg3 (by decide)).trans (V_main_arg3 m c),
      ((h c).2 main_arg4 (by decide)).trans (V_main_arg4 m c),
      ((h c).2 main_arg5 (by decide)).trans (V_main_arg5 m c),
      ((h c).2 main_arg6 (by decide)).trans (V_main_arg6 m c),
      ((h c).2 main_arg7 (by decide)).trans (V_main_arg7 m c),
      ((h c).2 main_arg8 (by decide)).trans (V_main_arg8 m c)⟩) h

/-! ## The pipeline's proof data -/

/-- The proof data of the one pipeline on core `c`: the arrays as the region finds them; after the body at point `t`
    each input's buffer at its block and the output's at the canon of the four stores over the input blocks; the
    invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

end Cert.KernelIdeal.HFrame

end
-- ==== Proof.KernelIdealFrame.lean ====
/-
  The frame of the fused program: its one pallas_call's body, run on whole staging buffers holding the four input
  blocks, leaves the inputs as they were and the output buffer at the canon of the four stored slabs; from that the
  body obligation of the pipeline at every grid point, the run of the whole program to the library's frame post,
  and the frame claim: every argument array is, at the end, as launched.
-/
import proofs.«153267_g2000506556625611_pallasbulk_77_11_alg».proof.Proof.KernelIdealDat

set_option maxRecDepth 16384

noncomputable section

namespace Cert.KernelIdeal.HFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Out

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 1000000 in
/-- The body on whole staging buffers, the inputs' holding `x0 … x3` and the output's anything, runs to the
    continuation with the inputs' as they were and the output's at `out0_4` of the inputs: every load reads a literal
    slab of an input block, the four stores write the four slabs of the output block, and what is read back after
    the writes is the canon of the written pieces because the slabs cover the block. -/
theorem sound_kernel (c : Dev nD) (E : Set ℕ) (i : grid0.Coords) (arg1 : Memref sig .tc .vmem S4x128x1024 .f32) (harg1 : arg1.IsWhole) (arg2 : Memref sig .tc .vmem S4x256x128 .bf16) (harg2 : arg2.IsWhole) (arg3 : Memref sig .tc .vmem S3x256x256 .bf16) (harg3 : arg3.IsWhole) (arg4 : Memref sig .tc .vmem S3x256x1 .f32) (harg4 : arg4.IsWhole) (arg5 : Memref sig .tc .vmem S4x256x1024 .f32) (harg5 : arg5.IsWhole)
    (x0 : Vec F S4x128x1024 .f32) (x1 : Vec F S4x256x128 .bf16) (x2 : Vec F S3x256x256 .bf16) (x3 : Vec F S3x256x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__fused_block_kernel i arg1 harg1 arg2 harg2 arg3 harg3 arg4 harg4 arg5 harg5) K := by
  simp only [cc0__fused_block_kernel_eq_skeleton]; unfold cc0__fused_block_kernel_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover0_4 _ _ _ _)

/-! ## The body obligation, at a generic point -/

/-- What the body is called with at point `t`: the invariant, what the core owes, and each window's current staging
    buffer at its contents before the body, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run lemma's implicit arguments are found by unifying its conclusion with this one, which takes unfolding plain
-- definitions in a metavariable's type
set_option backward.isDefEq.respectTransparency.types false in
/-- For any values, from any memory with zero counters: every weakly fair execution of the program on the TensorCores
    terminates, and every final state has every array of the pipeline at what the proof data gives and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.KernelIdeal.HFrame.run_main' depends on axioms: [propext, Classical.choice, Quot.sound] -/
#guard_msgs in #print axioms run_main

/-- The frame: every argument array is, at the end of every run, as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.HFrame

end
-- ==== Proof.KernelIdealBlockDef.lean ====
/-
  One batch element of the fused temporal block, spelt once: the signal is the slab cast to a matrix and narrowed;
  a causal shift puts zero columns in front of the signal's first columns; each tap is a matrix product into the zero
  accumulator; the first layer adds the three taps (present, farthest, middle), the bias column, and takes the
  positive part; the second layer does the same over the first layer's narrowed result, then adds the 1×1 projection
  of the signal and its bias and takes the positive part again. Each of the four stored payloads is this arithmetic
  on its own slab of the input: the payload functions only bracket the same operations differently.
-/
import proofs.«153267_g2000506556625611_pallasbulk_77_11_alg».proof.Proof.KernelIdealOut

set_option maxRecDepth 16384

noncomputable section

namespace Cert.KernelIdeal.Block

open Cert.KernelIdeal Cert.KernelIdeal.Gen Cert.KernelIdeal.Out Idealize.ShloMosaic

variable {F : FTy → Type} [FloatOps F]

/-- The slab as a matrix of narrowed entries. -/
def slab (xs : Vec F S1x128x1024 .f32) : FVec F S128x1024 .bf16 :=
  truncf .bf16 (shapeCast S128x1024 xs shapeCasts_S1x128x1024_S128x1024) bitsLt_bf16_f32

/-- The 128-row signal four steps in the past: four zero columns, then its first 1020 columns. -/
def sh4a (v : FVec F S128x1024 .bf16) : FVec F S128x1024 .bf16 :=
  concatenate S128x1024 1 [⟨S128x4, broadcast S128x4 (Scalar.ofBits .bf16 0x0000#16)⟩,
    ⟨S128x1020, extractStridedSlice S128x1020 ![0, 0] v slices_S128x1024_o0_0_S128x1020⟩] concatenates_S128x4_S128x1020_S128x1024_d1

/-- The 128-row signal two steps in the past. -/
def sh2a (v : FVec F S128x1024 .bf16) : FVec F S128x1024 .bf16 :=
  concatenate S128x1024 1 [⟨S128x2, broadcast S128x2 (Scalar.ofBits .bf16 0x0000#16)⟩,
    ⟨S128x1022, extractStridedSlice S128x1022 ![0, 0] v slices_S128x1024_o0_0_S128x1022⟩] concatenates_S128x2_S128x1022_S128x1024_d1

/-- The 256-row signal four steps in the past. -/
def sh4b (h : FVec F S256x1024 .bf16) : FVec F S256x1024 .bf16 :=
  concatenate S256x1024 1 [⟨S256x4, broadcast S256x4 (Scalar.ofBits .bf16 0x0000#16)⟩,
    ⟨S256x1020, extractStridedSlice S256x1020 ![0, 0] h slices_S256x1024_o0_0_S256x1020⟩] concatenates_S256x4_S256x1020_S256x1024_d1

/-- The 256-row signal two steps in the past. -/
def sh2b (h : FVec F S256x1024 .bf16) : FVec F S256x1024 .bf16 :=
  concatenate S256x1024 1 [⟨S256x2, broadcast S256x2 (Scalar.ofBits .bf16 0x0000#16)⟩,
    ⟨S256x1022, extractStridedSlice S256x1022 ![0, 0] h slices_S256x1024_o0_0_S256x1022⟩] concatenates_S256x2_S256x1022_S256x1024_d1

/-- A weight slab of the first layer (or the projection) times a 128-row signal, into the zero accumulator. -/
def mmA (w : Vec F S1x256x128 .bf16) (v : FVec F S128x1024 .bf16) : FVec F S256x1024 .f32 :=
  matmul dot_S256x128_S128x1024_S256x1024_1_0_0_1_n_n none (shapeCast S256x128 w shapeCasts_S1x256x128_S256x128) v
    (constant S256x1024 .f32 0x00000000#32)

/-- A weight slab of the second layer times a 256-row signal, into the zero accumulator. -/
def mmB (u : Vec F S1x256x256 .bf16) (h : FVec F S256x1024 .bf16) : FVec F S256x1024 .f32 :=
  matmul dot_S256x256_S256x1024_S256x1024_1_0_0_1_n_n none (shapeCast S256x256 u shapeCasts_S1x256x256_S256x256) h
    (constant S256x1024 .f32 0x00000000#32)

/-- A bias slab as a column repeated over the 1024 time steps. -/
def biasCol (b : Vec F S1x256x1 .f32) : FVec F S256x1024 .f32 :=
  broadcastTo S256x1024 (shapeCast S256x1 b shapeCasts_S1x256x1_S256x1) broadcasts_S256x1_S256x1024

/-- The zero matrix a positive part is taken against. -/
def zero32 : FVec F S256x1024 .f32 := broadcast S256x1024 (Scalar.ofBits .f32 0x00000000#32)

/-- The first layer, narrowed: positive part of the three taps plus the bias. -/
def hid (v : FVec F S128x1024 .bf16) (w2 w0 w1 : Vec F S1x256x128 .bf16) (b1 : Vec F S1x256x1 .f32) : FVec F S256x1024 .bf16 :=
  truncf .bf16 (maximumf (addf (addf (addf (mmA w2 v) (mmA w0 (sh4a v))) (mmA w1 (sh2a v))) (biasCol b1)) zero32) bitsLt_bf16_f32

/-- The second layer's three taps over a first layer `h`. -/
def conv2 (h : FVec F S256x1024 .bf16) (u2 u0 u1 : Vec F S1x256x256 .bf16) : FVec F S256x1024 .f32 :=
  addf (addf (mmB u2 h) (mmB u0 (sh4b h))) (mmB u1 (sh2b h))

/-- What is stored for one batch element, from its slab of the input and the weight and bias slabs. -/
def blk (xs : Vec F S1x128x1024 .f32) (w2 w0 w1 : Vec F S1x256x128 .bf16) (b1 : Vec F S1x256x1 .f32)
    (u2 u0 u1 : Vec F S1x256x256 .bf16) (b2 : Vec F S1x256x1 .f32) (wd : Vec F S1x256x128 .bf16) (bd : Vec F S1x256x1 .f32) :
    FVec F S1x256x1024 .f32 :=
  shapeCast S1x256x1024
    (maximumf (addf (addf (maximumf (addf (conv2 (hid (slab xs) w2 w0 w1 b1) u2 u0 u1) (biasCol b2)) zero32) (mmA wd (slab xs))) (biasCol bd)) zero32)
    shapeCasts_S256x1024_S1x256x1024

/-- Batch element 0's payload is the block's arithmetic on slab 0. -/
theorem store0_eq (x0 : Vec F S4x128x1024 .f32) (x1 : Vec F S4x256x128 .bf16) (x2 : Vec F S3x256x256 .bf16) (x3 : Vec F S3x256x1 .f32) :
    store0 x0 x1 x2 x3 = blk (View.ld x0 rX0) (View.ld x1 rW2) (View.ld x1 rW0) (View.ld x1 rW1) (View.ld x3 rB0)
      (View.ld x2 rU2) (View.ld x2 rU0) (View.ld x2 rU1) (View.ld x3 rB1) (View.ld x1 rW3) (View.ld x3 rB2) := rfl

/-- Batch element 1's payload is the block's arithmetic on slab 1. -/
theorem store1_eq (x0 : Vec F S4x128x1024 .f32) (x1 : Vec F S4x256x128 .bf16) (x2 : Vec F S3x256x256 .bf16) (x3 : Vec F S3x256x1 .f32) :
    store1 x0 x1 x2 x3 = blk (View.ld x0 rX1) (View.ld x1 rW2) (View.ld x1 rW0) (View.ld x1 rW1) (View.ld x3 rB0)
      (View.ld x2 rU2) (View.ld x2 rU0) (View.ld x2 rU1) (View.ld x3 rB1) (View.ld x1 rW3) (View.ld x3 rB2) := rfl

/-- Batch element 2's payload is the block's arithmetic on slab 2. -/
theorem store2_eq (x0 : Vec F S4x128x1024 .f32) (x1 : Vec F S4x256x128 .bf16) (x2 : Vec F S3x256x256 .bf16) (x3 : Vec F S3x256x1 .f32) :
    store2 x0 x1 x2 x3 = blk (View.ld x0 rX2) (View.ld x1 rW2) (View.ld x1 rW0) (View.ld x1 rW1) (View.ld x3 rB0)
      (View.ld x2 rU2) (View.ld x2 rU0) (View.ld x2 rU1) (View.ld x3 rB1) (View.ld x1 rW3) (View.ld x3 rB2) := rfl

/-- Batch element 3's payload is the block's arithmetic on slab 3. -/
theorem store3_eq (x0 : Vec F S4x128x1024 .f32) (x1 : Vec F S4x256x128 .bf16) (x2 : Vec F S3x256x256 .bf16) (x3 : Vec F S3x256x1 .f32) :
    store3 x0 x1 x2 x3 = blk (View.ld x0 rX3) (View.ld x1 rW2) (View.ld x1 rW0) (View.ld x1 rW1) (View.ld x3 rB0)
      (View.ld x2 rU2) (View.ld x2 rU0) (View.ld x2 rU1) (View.ld x3 rB1) (View.ld x1 rW3) (View.ld x3 rB2) := rfl

end Cert.KernelIdeal.Block

end
-- ==== Proof.Spec.lean ====
/-
  The mathematics both programs compute, on the extended reals: a temporal block of two causal, dilated
  convolutions (three taps, dilation two) with a 1×1 residual projection,
      out = relu (relu (conv₂ (relu (conv₁ x + b₁)) + b₂) + Wd·x + bd),
  one batch element at a time. A causal tap reads the signal `s` steps in the past and reads zero before
  the start (`tap`); the same numbers are read off a signal that has been padded on the left with four
  zeros (`padl`), at the offsets 0, 2 and 4 (`convPad`). The two arrangements add the same three matrix
  products in a different order; addition on the extended reals is commutative and associative, so they
  agree (`convPad_padl`), with no finiteness needed.
-/
import Mathlib

noncomputable section

namespace Cert.Tcn

/-- One matrix product entry: row `o` of `w` against column `t` of `a`. -/
def mm {C : ℕ} (w : Fin 256 → Fin C → EReal) (a : Fin C → Fin 1024 → EReal) (o : Fin 256) (t : Fin 1024) : EReal :=
  ∑ c : Fin C, w o c * a c t

/-- The signal `s` steps in the past; zero before the start. -/
def tap {C : ℕ} (a : Fin C → Fin 1024 → EReal) (s : ℕ) (c : Fin C) (t : Fin 1024) : EReal :=
  if h : s ≤ t.val then a c ⟨t.val - s, by omega⟩ else 0

/-- Three causal taps at distances 4, 2, 0 (weights `w0`, `w1`, `w2`), added in the order: present tap, then the
    farthest, then the middle one. -/
def conv3 {C : ℕ} (w0 w1 w2 : Fin 256 → Fin C → EReal) (a : Fin C → Fin 1024 → EReal) (o : Fin 256) (t : Fin 1024) : EReal :=
  (mm w2 a o t + mm w0 (tap a 4) o t) + mm w1 (tap a 2) o t

/-- The signal padded with four zeros on the left. -/
def padl {C : ℕ} (a : Fin C → Fin 1024 → EReal) (c : Fin C) (j : Fin 1028) : EReal :=
  if h : 4 ≤ j.val then a c ⟨j.val - 4, by omega⟩ else 0

/-- The three taps read off a padded signal at the offsets 0, 2, 4, added in that order. -/
def convPad {C : ℕ} (w0 w1 w2 : Fin 256 → Fin C → EReal) (p : Fin C → Fin 1028 → EReal) (o : Fin 256) (t : Fin 1024) : EReal :=
  ((∑ c : Fin C, w0 o c * p c ⟨t.val, by omega⟩) + (∑ c : Fin C, w1 o c * p c ⟨t.val + 2, by omega⟩))
    + (∑ c : Fin C, w2 o c * p c ⟨t.val + 4, by omega⟩)

theorem padl_at0 {C : ℕ} (a : Fin C → Fin 1024 → EReal) (c : Fin C) (t : Fin 1024) :
    padl a c ⟨t.val, by omega⟩ = tap a 4 c t := rfl

theorem padl_at2 {C : ℕ} (a : Fin C → Fin 1024 → EReal) (c : Fin C) (t : Fin 1024) :
    padl a c ⟨t.val + 2, by omega⟩ = tap a 2 c t := by
  unfold padl tap
  by_cases h : 2 ≤ t.val
  · have h' : 4 ≤ t.val + 2 := by omega
    simp only [h, h', dif_pos]
    congr 1 <;> (try (apply Fin.ext; simp only []; omega))
  · have h' : ¬ 4 ≤ t.val + 2 := by omega
    simp only [h, h', dif_neg, not_false_eq_true]

theorem padl_at4 {C : ℕ} (a : Fin C → Fin 1024 → EReal) (c : Fin C) (t : Fin 1024) :
    padl a c ⟨t.val + 4, by omega⟩ = a c t := by
  unfold padl
  have h' : 4 ≤ t.val + 4 := by omega
  simp only [h', dif_pos]
  try (congr 1 <;> (try (apply Fin.ext; simp only []; omega)))

/-- Reading the padded signal at the offsets 0, 2, 4 is the three causal taps. -/
theorem convPad_padl {C : ℕ} (w0 w1 w2 : Fin 256 → Fin C → EReal) (a : Fin C → Fin 1024 → EReal) (o : Fin 256) (t : Fin 1024) :
    convPad w0 w1 w2 (padl a) o t = conv3 w0 w1 w2 a o t := by
  unfold convPad conv3 mm
  simp only [padl_at0, padl_at2, padl_at4]
  rw [add_comm (∑ c : Fin C, w0 o c * tap a 4 c t + ∑ c : Fin C, w1 o c * tap a 2 c t), ← add_assoc]

/-- The first layer: relu of the convolution plus the bias. -/
def hidden (w0 w1 w2 : Fin 256 → Fin 128 → EReal) (b : Fin 256 → EReal) (x : Fin 128 → Fin 1024 → EReal)
    (o : Fin 256) (t : Fin 1024) : EReal :=
  max (conv3 w0 w1 w2 x o t + b o) 0

/-- The whole block for one batch element, in the order the fused program adds the residual and its bias. -/
def block (w0 w1 w2 : Fin 256 → Fin 128 → EReal) (b1 : Fin 256 → EReal) (u0 u1 u2 : Fin 256 → Fin 256 → EReal)
    (b2 : Fin 256 → EReal) (wd : Fin 256 → Fin 128 → EReal) (bd : Fin 256 → EReal)
    (x : Fin 128 → Fin 1024 → EReal) (o : Fin 256) (t : Fin 1024) : EReal :=
  max ((max (conv3 u0 u1 u2 (hidden w0 w1 w2 b1 x) o t + b2 o) 0 + mm wd x o t) + bd o) 0

/-- The first layer as the two-call program computes it: off the padded input. -/
def hiddenPad (w0 w1 w2 : Fin 256 → Fin 128 → EReal) (b : Fin 256 → EReal) (p : Fin 128 → Fin 1028 → EReal)
    (o : Fin 256) (t : Fin 1024) : EReal :=
  max (convPad w0 w1 w2 p o t + b o) 0

/-- The second call of the two-call program: off the padded first layer `q`, the residual and its bias added together
    before they join the convolution. -/
def blockPad (u0 u1 u2 : Fin 256 → Fin 256 → EReal) (b2 : Fin 256 → EReal) (wd : Fin 256 → Fin 128 → EReal)
    (bd : Fin 256 → EReal) (q : Fin 256 → Fin 1028 → EReal) (x : Fin 128 → Fin 1024 → EReal)
    (o : Fin 256) (t : Fin 1024) : EReal :=
  max (max (convPad u0 u1 u2 q o t + b2 o) 0 + (mm wd x o t + bd o)) 0

theorem hiddenPad_padl (w0 w1 w2 : Fin 256 → Fin 128 → EReal) (b : Fin 256 → EReal) (x : Fin 128 → Fin 1024 → EReal) :
    hiddenPad w0 w1 w2 b (padl x) = hidden w0 w1 w2 b x := by
  funext o t; unfold hiddenPad hidden; rw [convPad_padl]

/-- The two-call program's block is the fused program's. -/
theorem blockPad_eq (w0 w1 w2 : Fin 256 → Fin 128 → EReal) (b1 : Fin 256 → EReal) (u0 u1 u2 : Fin 256 → Fin 256 → EReal)
    (b2 : Fin 256 → EReal) (wd : Fin 256 → Fin 128 → EReal) (bd : Fin 256 → EReal)
    (x : Fin 128 → Fin 1024 → EReal) (o : Fin 256) (t : Fin 1024) :
    blockPad u0 u1 u2 b2 wd bd (padl (hiddenPad w0 w1 w2 b1 (padl x))) x o t
      = block w0 w1 w2 b1 u0 u1 u2 b2 wd bd x o t := by
  unfold blockPad block
  rw [convPad_padl, hiddenPad_padl, add_assoc]

end Cert.Tcn

end
-- ==== Proof.LibPlainDot.lean ====
/-
  A plain matrix product read at an entry. For the dimension numbers of `M×K` by `K×N` with no batch axis
  (`DotDims.plain M K N`: the left operand contracted on its columns, the right on its rows), the sum over
  the one-axis contraction index of any function of the two operand indices is the sum over `k : Fin K` of
  that function at `(p, k)` and `(k, c)` (`sum_plain`). Hence, on the extended reals, a `tpu.matmul` into
  the zero accumulator and a host `dot_general`, read at `(p, c)`, are both `∑ k, A (p, k) * B (k, c)`
  (`matmul_plain_zero_apply`, `dotGeneral_plain_apply`), for every `M`, `K`, `N`.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat}

/-- The left operand's index at output `(p, c)` and contraction coordinate `k` is `(p, k)`. -/
theorem lhsIdx_plain (p : Fin M) (c : Fin N) (k : Fin K) :
    (DotDims.plain M K N).lhsIdx (ix2 p c) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p c) _).trans hk

/-- The right operand's index at output `(p, c)` and contraction coordinate `k` is `(k, c)`. -/
theorem rhsIdx_plain (p : Fin M) (c : Fin N) (k : Fin K) :
    (DotDims.plain M K N).rhsIdx (ix2 p c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 p c) _).trans hk
  | ⟨1, _⟩ => rfl

/-- A sum over the contraction index of a plain product's dimension numbers, of any function of the two
    operand indices, is the sum over the shared axis's coordinate. -/
theorem sum_plain {β : Type*} [AddCommMonoid β]
    (f : (⟨2, ![M, K]⟩ : Shape).Idx → (⟨2, ![K, N]⟩ : Shape).Idx → β) (p : Fin M) (c : Fin N) :
    ∑ q : (DotDims.plain M K N).contr.Idx,
        f ((DotDims.plain M K N).lhsIdx (ix2 p c) q) ((DotDims.plain M K N).rhsIdx (ix2 p c) q)
      = ∑ k : Fin K, f (ix2 p k) (ix2 k c) := by
  rw [← Equiv.sum_comp (contrEquiv1 (DotDims.plain M K N) K rfl rfl).symm]
  refine Finset.sum_congr rfl fun k _ => ?_
  rw [lhsIdx_plain, rhsIdx_plain]

/-- On the extended reals a `tpu.matmul` of `A : M×K` and `B : K×N` into the zero accumulator, read at
    `(p, c)`, is `∑ k, A (p, k) * B (k, c)`. -/
theorem matmul_plain_zero_apply {φ₁ φ₂ : FTy} (prec : Option ContractPrecision)
    (A : FVec Ideal ⟨2, ![M, K]⟩ φ₁) (B : FVec Ideal ⟨2, ![K, N]⟩ φ₂) (p : Fin M) (c : Fin N) :
    FloatOps.matmul (DotDims.plain M K N) prec A B (constant ⟨2, ![M, N]⟩ .f32 0x00000000#32) (ix2 p c)
      = ∑ k : Fin K, A (ix2 p k) * B (ix2 k c) :=
  (Ideal.matmul_constant_zero_apply (DotDims.plain M K N) prec A B (ix2 p c)).trans
    (sum_plain (fun i j => A i * B j) p c)

/-- On the extended reals a host `dot_general` of `A : M×K` and `B : K×N`, read at `(p, c)`, is the
    same sum, whatever the schedule. -/
theorem dotGeneral_plain_apply {φ₁ φ₂ : FTy} (prec : Option ContractPrecision) (sched : HostSchedule)
    (A : FVec Ideal ⟨2, ![M, K]⟩ φ₁) (B : FVec Ideal ⟨2, ![K, N]⟩ φ₂) (p : Fin M) (c : Fin N) :
    FloatOps.dotGeneral (DotDims.plain M K N) prec sched A B (ix2 p c)
      = ∑ k : Fin K, A (ix2 p k) * B (ix2 k c) :=
  (Ideal.dotGeneral_apply (DotDims.plain M K N) prec sched A B (ix2 p c)).trans
    (sum_plain (fun i j => A i * B j) p c)

end Cert.Lib.PlainDot

end
-- ==== Proof.LibKeepdims.lean ====
/-
  Layout operations of a row reduction that keeps its axis, read at an index given by coordinates: a vector
  [a] cast to a column [a, 1]; a column [a, 1] broadcast over b lanes to [a, b]; the index a reduction over the
  last axis of a matrix puts back; and the float sum over a matrix's last axis, at exact arithmetic, as the sum
  of a row. Each is the library's general lemma with the per-axis arithmetic discharged for these shapes.
-/
import Idealize.ShloMosaic.Lib.ValueLayout
import Idealize.ShloMosaic.PureOps.Ideal.Laws

namespace Cert.Lib.Keepdims

open Idealize.ShloMosaic Idealize.ShloMosaic.ValueIdx

variable {α : Type}

/-- An [a] array cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast over b lanes to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over a matrix's last axis puts back over row p, at coordinate k, is (p, k). -/
theorem lift_lastAxis {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over a matrix's last axis from the zero word, at exact arithmetic, is at row p the sum of that
    row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lastAxis h p k)

end Cert.Lib.Keepdims
-- ==== Proof.KernelIdealBlockVal.lean ====
/-
  The block's arithmetic read at an entry, on the extended reals, where every float operation is exact: the narrowed
  slab reads the slab; a shifted signal reads the signal `s` steps in the past and zero before the start; a product
  into the zero accumulator reads the sum over the shared axis; a bias column reads the bias of its row; the first
  layer reads the specification's hidden layer and the stored payload reads the specification's block.
-/
import proofs.«153267_g2000506556625611_pallasbulk_77_11_alg».proof.Proof.KernelIdealBlockDef
import proofs.«153267_g2000506556625611_pallasbulk_77_11_alg».proof.Proof.Spec
import proofs.«153267_g2000506556625611_pallasbulk_77_11_alg».proof.Proof.LibPlainDot
import proofs.«153267_g2000506556625611_pallasbulk_77_11_alg».proof.Proof.LibKeepdims
import Idealize.ShloMosaic.Lib.ValueLayout

set_option maxRecDepth 16384

noncomputable section

namespace Cert.KernelIdeal.Block

open Cert.KernelIdeal Cert.KernelIdeal.Gen Cert.KernelIdeal.Out Idealize.ShloMosaic Idealize.ShloMosaic.ValueIdx

/-- The sixteen-bit zero word reads the extended real zero. -/
theorem ofBits_zero_bf16 : Ideal.ofBits .bf16 0x0000#16 = 0 := by simp [Ideal.ofBits, Ideal.ieee]

/-- Zero columns in front of the first `m` columns of a signal of 1024 steps: at `(c, t)` the signal `s` steps in
    the past, zero before the start. -/
theorem shift_apply {C s m : Nat} {φ : FTy} (v : FVec Ideal ⟨2, ![C, 1024]⟩ φ) (z : Ideal φ) (hz : z = 0)
    (hs : (⟨2, ![C, 1024]⟩ : Shape).Slices ![0, 0] ⟨2, ![C, m]⟩)
    (hc : Shape.Concatenates [⟨2, ![C, s]⟩, ⟨2, ![C, m]⟩] ⟨2, ![C, 1024]⟩ 1) (hm : s + m = 1024)
    (c : Fin C) (t : Fin 1024) :
    concatenate ⟨2, ![C, 1024]⟩ 1 [⟨⟨2, ![C, s]⟩, broadcast ⟨2, ![C, s]⟩ z⟩,
        ⟨⟨2, ![C, m]⟩, extractStridedSlice ⟨2, ![C, m]⟩ ![0, 0] v hs⟩] hc (ix2 c t)
      = Cert.Tcn.tap (fun c t => v (ix2 c t)) s c t := by
  unfold Cert.Tcn.tap
  by_cases h : s ≤ t.val
  · rw [dif_pos h]
    have hlt : t.val - s < m := by have := t.isLt; omega
    refine (concatenate_pair_apply_right 1 _ _ hc (ix2 c t) rfl rfl (ix2 c (⟨t.val - s, hlt⟩ : Fin m)) ?_ ?_).trans ?_
    · intro b hb
      match b with
      | ⟨0, _⟩ => rfl
      | ⟨1, _⟩ => exact absurd rfl hb
    · show (t.val - s) + s = t.val
      omega
    · exact slice2_axis1_apply 0 v hs c ⟨t.val - s, hlt⟩ ⟨t.val - s, by have := t.isLt; omega⟩ (Nat.zero_add _).symm
  · rw [dif_neg h]
    have hlt : t.val < s := by omega
    refine (concatenate_pair_apply_left 1 _ _ hc (ix2 c t) rfl (ix2 c (⟨t.val, hlt⟩ : Fin s)) ?_).trans hz
    intro b
    match b with
    | ⟨0, _⟩ => rfl
    | ⟨1, _⟩ => rfl

theorem sh4a_eq (v : FVec Ideal S128x1024 .bf16) :
    (fun (c : Fin 128) (t : Fin 1024) => sh4a v (ix2 c t)) = Cert.Tcn.tap (fun c t => v (ix2 c t)) 4 :=
  funext fun c => funext fun t =>
    shift_apply v _ ofBits_zero_bf16 slices_S128x1024_o0_0_S128x1020 concatenates_S128x4_S128x1020_S128x1024_d1 rfl c t

theorem sh2a_eq (v : FVec Ideal S128x1024 .bf16) :
    (fun (c : Fin 128) (t : Fin 1024) => sh2a v (ix2 c t)) = Cert.Tcn.tap (fun c t => v (ix2 c t)) 2 :=
  funext fun c => funext fun t =>
    shift_apply v _ ofBits_zero_bf16 slices_S128x1024_o0_0_S128x1022 concatenates_S128x2_S128x1022_S128x1024_d1 rfl c t

theorem sh4b_eq (h : FVec Ideal S256x1024 .bf16) :
    (fun (c : Fin 256) (t : Fin 1024) => sh4b h (ix2 c t)) = Cert.Tcn.tap (fun c t => h (ix2 c t)) 4 :=
  funext fun c => funext fun t =>
    shift_apply h _ ofBits_zero_bf16 slices_S256x1024_o0_0_S256x1020 concatenates_S256x4_S256x1020_S256x1024_d1 rfl c t

theorem sh2b_eq (h : FVec Ideal S256x1024 .bf16) :
    (fun (c : Fin 256) (t : Fin 1024) => sh2b h (ix2 c t)) = Cert.Tcn.tap (fun c t => h (ix2 c t)) 2 :=
  funext fun c => funext fun t =>
    shift_apply h _ ofBits_zero_bf16 slices_S256x1024_o0_0_S256x1022 concatenates_S256x2_S256x1022_S256x1024_d1 rfl c t

/-- A first-layer weight slab times a signal, at `(o, t)`: row `o` of the slab against column `t` of the signal. -/
theorem mmA_apply (w : Vec Ideal S1x256x128 .bf16) (v : FVec Ideal S128x1024 .bf16) (o : Fin 256) (t : Fin 1024) :
    mmA w v (ix2 o t) = Cert.Tcn.mm (fun o c => w (ix3 (0 : Fin 1) o c)) (fun c t => v (ix2 c t)) o t :=
  (Cert.Lib.PlainDot.matmul_plain_zero_apply (M := 256) (K := 128) (N := 1024) none
      (shapeCast S256x128 w shapeCasts_S1x256x128_S256x128) v o t).trans
    (Finset.sum_congr rfl fun c _ => congrArg (· * v (ix2 c t)) (shapeCast_1ab_ab_apply w shapeCasts_S1x256x128_S256x128 o c))

/-- A second-layer weight slab times a signal, at `(o, t)`. -/
theorem mmB_apply (u : Vec Ideal S1x256x256 .bf16) (h : FVec Ideal S256x1024 .bf16) (o : Fin 256) (t : Fin 1024) :
    mmB u h (ix2 o t) = Cert.Tcn.mm (fun o c => u (ix3 (0 : Fin 1) o c)) (fun c t => h (ix2 c t)) o t :=
  (Cert.Lib.PlainDot.matmul_plain_zero_apply (M := 256) (K := 256) (N := 1024) none
      (shapeCast S256x256 u shapeCasts_S1x256x256_S256x256) h o t).trans
    (Finset.sum_congr rfl fun c _ => congrArg (· * h (ix2 c t)) (shapeCast_1ab_ab_apply u shapeCasts_S1x256x256_S256x256 o c))

/-- A bias column at `(o, t)` is the bias of row `o`. -/
theorem biasCol_apply (b : Vec Ideal S1x256x1 .f32) (o : Fin 256) (t : Fin 1024) :
    biasCol b (ix2 o t) = b (ix3 (0 : Fin 1) o (0 : Fin 1)) :=
  (Cert.Lib.Keepdims.broadcastTo_a1_ab_apply (shapeCast S256x1 b shapeCasts_S1x256x1_S256x1) broadcasts_S256x1_S256x1024 o t).trans
    (shapeCast_1ab_ab_apply b shapeCasts_S1x256x1_S256x1 o (0 : Fin 1))

/-- The zero matrix reads zero. -/
theorem zero32_apply (j : S256x1024.Idx) : zero32 (F := Ideal) j = 0 := Ideal.ofBits_zero_f32

/-- The narrowed slab reads the slab: narrowing is the identity on the extended reals. -/
theorem slab_eq (xs : Vec Ideal S1x128x1024 .f32) :
    (fun (c : Fin 128) (t : Fin 1024) => slab xs (ix2 c t)) = fun c t => xs (ix3 (0 : Fin 1) c t) :=
  funext fun c => funext fun t => shapeCast_1ab_ab_apply xs shapeCasts_S1x128x1024_S128x1024 c t

/-- The first layer reads the specification's hidden layer. -/
theorem hid_apply (v : FVec Ideal S128x1024 .bf16) (w2 w0 w1 : Vec Ideal S1x256x128 .bf16) (b1 : Vec Ideal S1x256x1 .f32)
    (o : Fin 256) (t : Fin 1024) :
    hid v w2 w0 w1 b1 (ix2 o t)
      = Cert.Tcn.hidden (fun o c => w0 (ix3 (0 : Fin 1) o c)) (fun o c => w1 (ix3 (0 : Fin 1) o c)) (fun o c => w2 (ix3 (0 : Fin 1) o c))
          (fun o => b1 (ix3 (0 : Fin 1) o (0 : Fin 1))) (fun c t => v (ix2 c t)) o t := by
  show max (((mmA w2 v (ix2 o t) + mmA w0 (sh4a v) (ix2 o t)) + mmA w1 (sh2a v) (ix2 o t)) + biasCol b1 (ix2 o t)) (zero32 (ix2 o t)) = _
  rw [mmA_apply, mmA_apply, mmA_apply, biasCol_apply, zero32_apply, sh4a_eq, sh2a_eq]
  rfl

/-- The second layer's three taps read the specification's three-tap convolution. -/
theorem conv2_apply (h : FVec Ideal S256x1024 .bf16) (u2 u0 u1 : Vec Ideal S1x256x256 .bf16) (o : Fin 256) (t : Fin 1024) :
    conv2 h u2 u0 u1 (ix2 o t)
      = Cert.Tcn.conv3 (fun o c => u0 (ix3 (0 : Fin 1) o c)) (fun o c => u1 (ix3 (0 : Fin 1) o c)) (fun o c => u2 (ix3 (0 : Fin 1) o c))
          (fun c t => h (ix2 c t)) o t := by
  show (mmB u2 h (ix2 o t) + mmB u0 (sh4b h) (ix2 o t)) + mmB u1 (sh2b h) (ix2 o t) = _
  rw [mmB_apply, mmB_apply, mmB_apply, sh4b_eq, sh2b_eq]
  rfl

/-- The stored payload of a batch element reads the specification's block of its slab. -/
theorem blk_apply (xs : Vec Ideal S1x128x1024 .f32) (w2 w0 w1 : Vec Ideal S1x256x128 .bf16) (b1 : Vec Ideal S1x256x1 .f32)
    (u2 u0 u1 : Vec Ideal S1x256x256 .bf16) (b2 : Vec Ideal S1x256x1 .f32) (wd : Vec Ideal S1x256x128 .bf16) (bd : Vec Ideal S1x256x1 .f32)
    (u : Fin 1) (o : Fin 256) (t : Fin 1024) :
    blk xs w2 w0 w1 b1 u2 u0 u1 b2 wd bd (ix3 u o t)
      = Cert.Tcn.block (fun o c => w0 (ix3 (0 : Fin 1) o c)) (fun o c => w1 (ix3 (0 : Fin 1) o c)) (fun o c => w2 (ix3 (0 : Fin 1) o c))
          (fun o => b1 (ix3 (0 : Fin 1) o (0 : Fin 1)))
          (fun o c => u0 (ix3 (0 : Fin 1) o c)) (fun o c => u1 (ix3 (0 : Fin 1) o c)) (fun o c => u2 (ix3 (0 : Fin 1) o c))
          (fun o => b2 (ix3 (0 : Fin 1) o (0 : Fin 1)))
          (fun o c => wd (ix3 (0 : Fin 1) o c)) (fun o => bd (ix3 (0 : Fin 1) o (0 : Fin 1)))
          (fun c t => xs (ix3 (0 : Fin 1) c t)) o t := by
  have hH : (fun (c : Fin 256) (t : Fin 1024) => hid (slab xs) w2 w0 w1 b1 (ix2 c t))
      = Cert.Tcn.hidden (fun o c => w0 (ix3 (0 : Fin 1) o c)) (fun o c => w1 (ix3 (0 : Fin 1) o c)) (fun o c => w2 (ix3 (0 : Fin 1) o c))
          (fun o => b1 (ix3 (0 : Fin 1) o (0 : Fin 1))) (fun c t => xs (ix3 (0 : Fin 1) c t)) := by
    funext c t
    rw [hid_apply, slab_eq]
  refine (shapeCast_ab_1ab_apply _ shapeCasts_S256x1024_S1x256x1024 u o t).trans ?_
  show max ((max (conv2 (hid (slab xs) w2 w0 w1 b1) u2 u0 u1 (ix2 o t) + biasCol b2 (ix2 o t)) (zero32 (ix2 o t))
      + mmA wd (slab xs) (ix2 o t)) + biasCol bd (ix2 o t)) (zero32 (ix2 o t)) = _
  rw [conv2_apply, mmA_apply, biasCol_apply, biasCol_apply, zero32_apply, hH, slab_eq]
  rfl

end Cert.KernelIdeal.Block

end
-- ==== Proof.KernelIdealBlock.lean ====
/-
  The fused kernel's output block at an entry, on the extended reals. The block is the canon of four pieces, one per
  batch element; piece `b` covers exactly the entries whose first coordinate is `b`, and its payload is the block's
  arithmetic on slab `b` of the input. A load through the rectangle of slab `k` reads the array at first coordinate
  `k`; so every piece is the restriction of ONE function of the output index — the specification's block of the
  batch element the index names — and the canon is that function wherever a piece covers, which is everywhere.
-/
import proofs.«153267_g2000506556625611_pallasbulk_77_11_alg».proof.Proof.KernelIdealBlockVal

set_option maxRecDepth 16384

noncomputable section

namespace Cert.KernelIdeal.Block

open Cert.KernelIdeal Cert.KernelIdeal.Gen Cert.KernelIdeal.Out Idealize.ShloMosaic Idealize.ShloMosaic.ValueIdx

/-- The rectangle of slab `k` of a rank-three array places its own index `(u, i, j)` at `(k, i, j)`. -/
theorem idx_slab {n0 n1 n2 : Nat} (k : Fin n0)
    (inb : ∀ a, (![k.val, 0, 0] : Fin 3 → Nat) a + (⟨3, ![1, n1, n2]⟩ : Shape).size a ≤ (⟨3, ![n0, n1, n2]⟩ : Shape).size a)
    (u : Fin 1) (i : Fin n1) (j : Fin n2) :
    (Rect.unit (s := ⟨3, ![n0, n1, n2]⟩) ![k.val, 0, 0] (⟨3, ![1, n1, n2]⟩ : Shape).size inb).idx (ix3 u i j) = ix3 k i j := by
  funext a
  apply Fin.ext
  have hu : u.val = 0 := by omega
  match a with
  | ⟨0, _⟩ => show k.val + 1 * u.val = k.val; omega
  | ⟨1, _⟩ => show 0 + 1 * i.val = i.val; omega
  | ⟨2, _⟩ => show 0 + 1 * j.val = j.val; omega

/-- A load through the rectangle of slab `k` reads the array at first coordinate `k`. -/
theorem ld_slab {Val : EltTy → Type} {e : EltTy} {n0 n1 n2 : Nat} (x : (⟨3, ![n0, n1, n2]⟩ : Shape).Idx → Val e) (k : Fin n0)
    (inb : ∀ a, (![k.val, 0, 0] : Fin 3 → Nat) a + (⟨3, ![1, n1, n2]⟩ : Shape).size a ≤ (⟨3, ![n0, n1, n2]⟩ : Shape).size a) :
    (fun (i : Fin n1) (j : Fin n2) =>
        View.ld x (Rect.unit (s := ⟨3, ![n0, n1, n2]⟩) ![k.val, 0, 0] (⟨3, ![1, n1, n2]⟩ : Shape).size inb) (ix3 (0 : Fin 1) i j))
      = fun i j => x (ix3 k i j) :=
  funext fun i => funext fun j => congrArg x (idx_slab k inb 0 i j)

/-- The same for a slab that is one column. -/
theorem ld_col {Val : EltTy → Type} {e : EltTy} {n0 n1 : Nat} (x : (⟨3, ![n0, n1, 1]⟩ : Shape).Idx → Val e) (k : Fin n0)
    (inb : ∀ a, (![k.val, 0, 0] : Fin 3 → Nat) a + (⟨3, ![1, n1, 1]⟩ : Shape).size a ≤ (⟨3, ![n0, n1, 1]⟩ : Shape).size a) :
    (fun (o : Fin n1) =>
        View.ld x (Rect.unit (s := ⟨3, ![n0, n1, 1]⟩) ![k.val, 0, 0] (⟨3, ![1, n1, 1]⟩ : Shape).size inb) (ix3 (0 : Fin 1) o (0 : Fin 1)))
      = fun o => x (ix3 k o (0 : Fin 1)) :=
  funext fun o => congrArg x (idx_slab k inb 0 o 0)

theorem ld_rX0 (x : Vec Ideal S4x128x1024 .f32) :
    (fun i j => View.ld x rX0 (ix3 (0 : Fin 1) i j)) = fun i j => x (ix3 (0 : Fin 4) i j) :=
  ld_slab x (0 : Fin 4) inb_S4x128x1024_S1x128x1024_0_0_0

theorem ld_rX1 (x : Vec Ideal S4x128x1024 .f32) :
    (fun i j => View.ld x rX1 (ix3 (0 : Fin 1) i j)) = fun i j => x (ix3 (1 : Fin 4) i j) :=
  ld_slab x (1 : Fin 4) inb_S4x128x1024_S1x128x1024_1_0_0

theorem ld_rX2 (x : Vec Ideal S4x128x1024 .f32) :
    (fun i j => View.ld x rX2 (ix3 (0 : Fin 1) i j)) = fun i j => x (ix3 (2 : Fin 4) i j) :=
  ld_slab x (2 : Fin 4) inb_S4x128x1024_S1x128x1024_2_0_0

theorem ld_rX3 (x : Vec Ideal S4x128x1024 .f32) :
    (fun i j => View.ld x rX3 (ix3 (0 : Fin 1) i j)) = fun i j => x (ix3 (3 : Fin 4) i j) :=
  ld_slab x (3 : Fin 4) inb_S4x128x1024_S1x128x1024_3_0_0

theorem ld_rW0 (x : Vec Ideal S4x256x128 .bf16) :
    (fun i j => View.ld x rW0 (ix3 (0 : Fin 1) i j)) = fun i j => x (ix3 (0 : Fin 4) i j) :=
  ld_slab x (0 : Fin 4) inb_S4x256x128_S1x256x128_0_0_0

theorem ld_rW1 (x : Vec Ideal S4x256x128 .bf16) :
    (fun i j => View.ld x rW1 (ix3 (0 : Fin 1) i j)) = fun i j => x (ix3 (1 : Fin 4) i j) :=
  ld_slab x (1 : Fin 4) inb_S4x256x128_S1x256x128_1_0_0

theorem ld_rW2 (x : Vec Ideal S4x256x128 .bf16) :
    (fun i j => View.ld x rW2 (ix3 (0 : Fin 1) i j)) = fun i j => x (ix3 (2 : Fin 4) i j) :=
  ld_slab x (2 : Fin 4) inb_S4x256x128_S1x256x128_2_0_0

theorem ld_rW3 (x : Vec Ideal S4x256x128 .bf16) :
    (fun i j => View.ld x rW3 (ix3 (0 : Fin 1) i j)) = fun i j => x (ix3 (3 : Fin 4) i j) :=
  ld_slab x (3 : Fin 4) inb_S4x256x128_S1x256x128_3_0_0

theorem ld_rU0 (x : Vec Ideal S3x256x256 .bf16) :
    (fun i j => View.ld x rU0 (ix3 (0 : Fin 1) i j)) = fun i j => x (ix3 (0 : Fin 3) i j) :=
  ld_slab x (0 : Fin 3) inb_S3x256x256_S1x256x256_0_0_0

theorem ld_rU1 (x : Vec Ideal S3x256x256 .bf16) :
    (fun i j => View.ld x rU1 (ix3 (0 : Fin 1) i j)) = fun i j => x (ix3 (1 : Fin 3) i j) :=
  ld_slab x (1 : Fin 3) inb_S3x256x256_S1x256x256_1_0_0

theorem ld_rU2 (x : Vec Ideal S3x256x256 .bf16) :
    (fun i j => View.ld x rU2 (ix3 (0 : Fin 1) i j)) = fun i j => x (ix3 (2 : Fin 3) i j) :=
  ld_slab x (2 : Fin 3) inb_S3x256x256_S1x256x256_2_0_0

theorem ld_rB0 (x : Vec Ideal S3x256x1 .f32) :
    (fun o => View.ld x rB0 (ix3 (0 : Fin 1) o (0 : Fin 1))) = fun o => x (ix3 (0 : Fin 3) o (0 : Fin 1)) :=
  ld_col x (0 : Fin 3) inb_S3x256x1_S1x256x1_0_0_0

theorem ld_rB1 (x : Vec Ideal S3x256x1 .f32) :
    (fun o => View.ld x rB1 (ix3 (0 : Fin 1) o (0 : Fin 1))) = fun o => x (ix3 (1 : Fin 3) o (0 : Fin 1)) :=
  ld_col x (1 : Fin 3) inb_S3x256x1_S1x256x1_1_0_0

theorem ld_rB2 (x : Vec Ideal S3x256x1 .f32) :
    (fun o => View.ld x rB2 (ix3 (0 : Fin 1) o (0 : Fin 1))) = fun o => x (ix3 (2 : Fin 3) o (0 : Fin 1)) :=
  ld_col x (2 : Fin 3) inb_S3x256x1_S1x256x1_2_0_0

/-- The one function of the output index every piece restricts: the specification's block of the batch element the
    index names, at the index's row and time step. -/
def G (x0 : Vec Ideal S4x128x1024 .f32) (x1 : Vec Ideal S4x256x128 .bf16) (x2 : Vec Ideal S3x256x256 .bf16) (x3 : Vec Ideal S3x256x1 .f32) (y : (⟨3, ![4, 256, 1024]⟩ : Shape).Idx) : EReal :=
  Cert.Tcn.block (fun o c => x1 (ix3 (0 : Fin 4) o c)) (fun o c => x1 (ix3 (1 : Fin 4) o c)) (fun o c => x1 (ix3 (2 : Fin 4) o c)) (fun o => x3 (ix3 (0 : Fin 3) o (0 : Fin 1)))
          (fun o c => x2 (ix3 (0 : Fin 3) o c)) (fun o c => x2 (ix3 (1 : Fin 3) o c)) (fun o c => x2 (ix3 (2 : Fin 3) o c)) (fun o => x3 (ix3 (1 : Fin 3) o (0 : Fin 1)))
          (fun o c => x1 (ix3 (3 : Fin 4) o c)) (fun o => x3 (ix3 (2 : Fin 3) o (0 : Fin 1))) (fun c t => x0 (ix3 (y 0 : Fin 4) c t)) (y 1 : Fin 256) (y 2 : Fin 1024)

/-- Batch element 0's payload at `(u, o, t)` is the block of slab 0 of the input at `(o, t)`. -/
theorem piece0 (x0 : Vec Ideal S4x128x1024 .f32) (x1 : Vec Ideal S4x256x128 .bf16) (x2 : Vec Ideal S3x256x256 .bf16) (x3 : Vec Ideal S3x256x1 .f32) (u : Fin 1) (o : Fin 256) (t : Fin 1024) :
    store0 x0 x1 x2 x3 (ix3 u o t) = G x0 x1 x2 x3 (ix3 (0 : Fin 4) o t) := by
  rw [store0_eq, blk_apply, ld_rX0, ld_rW0, ld_rW1, ld_rW2, ld_rW3, ld_rU0, ld_rU1, ld_rU2, ld_rB0, ld_rB1, ld_rB2]
  rfl

/-- Batch element 1's payload at `(u, o, t)` is the block of slab 1 of the input at `(o, t)`. -/
theorem piece1 (x0 : Vec Ideal S4x128x1024 .f32) (x1 : Vec Ideal S4x256x128 .bf16) (x2 : Vec Ideal S3x256x256 .bf16) (x3 : Vec Ideal S3x256x1 .f32) (u : Fin 1) (o : Fin 256) (t : Fin 1024) :
    store1 x0 x1 x2 x3 (ix3 u o t) = G x0 x1 x2 x3 (ix3 (1 : Fin 4) o t) := by
  rw [store1_eq, blk_apply, ld_rX1, ld_rW0, ld_rW1, ld_rW2, ld_rW3, ld_rU0, ld_rU1, ld_rU2, ld_rB0, ld_rB1, ld_rB2]
  rfl

/-- Batch element 2's payload at `(u, o, t)` is the block of slab 2 of the input at `(o, t)`. -/
theorem piece2 (x0 : Vec Ideal S4x128x1024 .f32) (x1 : Vec Ideal S4x256x128 .bf16) (x2 : Vec Ideal S3x256x256 .bf16) (x3 : Vec Ideal S3x256x1 .f32) (u : Fin 1) (o : Fin 256) (t : Fin 1024) :
    store2 x0 x1 x2 x3 (ix3 u o t) = G x0 x1 x2 x3 (ix3 (2 : Fin 4) o t) := by
  rw [store2_eq, blk_apply, ld_rX2, ld_rW0, ld_rW1, ld_rW2, ld_rW3, ld_rU0, ld_rU1, ld_rU2, ld_rB0, ld_rB1, ld_rB2]
  rfl

/-- Batch element 3's payload at `(u, o, t)` is the block of slab 3 of the input at `(o, t)`. -/
theorem piece3 (x0 : Vec Ideal S4x128x1024 .f32) (x1 : Vec Ideal S4x256x128 .bf16) (x2 : Vec Ideal S3x256x256 .bf16) (x3 : Vec Ideal S3x256x1 .f32) (u : Fin 1) (o : Fin 256) (t : Fin 1024) :
    store3 x0 x1 x2 x3 (ix3 u o t) = G x0 x1 x2 x3 (ix3 (3 : Fin 4) o t) := by
  rw [store3_eq, blk_apply, ld_rX3, ld_rW0, ld_rW1, ld_rW2, ld_rW3, ld_rU0, ld_rU1, ld_rU2, ld_rB0, ld_rB1, ld_rB2]
  rfl

/-- THE OUTPUT BLOCK AT AN ENTRY: batch element `b`, row `o`, time step `t` of what the body leaves is the
    specification's block of slab `b` of the input, with the weights and biases read off their packed arrays. -/
theorem out0_4_apply (x0 : Vec Ideal S4x128x1024 .f32) (x1 : Vec Ideal S4x256x128 .bf16) (x2 : Vec Ideal S3x256x256 .bf16) (x3 : Vec Ideal S3x256x1 .f32) (b : Fin 4) (o : Fin 256) (t : Fin 1024) :
    out0_4 (F := Ideal) x0 x1 x2 x3 (ix3 b o t)
      = Cert.Tcn.block (fun o c => x1 (ix3 (0 : Fin 4) o c)) (fun o c => x1 (ix3 (1 : Fin 4) o c)) (fun o c => x1 (ix3 (2 : Fin 4) o c)) (fun o => x3 (ix3 (0 : Fin 3) o (0 : Fin 1)))
          (fun o c => x2 (ix3 (0 : Fin 3) o c)) (fun o c => x2 (ix3 (1 : Fin 3) o c)) (fun o c => x2 (ix3 (2 : Fin 3) o c)) (fun o => x3 (ix3 (1 : Fin 3) o (0 : Fin 1)))
          (fun o c => x1 (ix3 (3 : Fin 4) o c)) (fun o => x3 (ix3 (2 : Fin 3) o (0 : Fin 1))) (fun c t => x0 (ix3 b c t)) o t := by
  have hL : ∀ p ∈ ([⟨rO3, store3 x0 x1 x2 x3⟩, ⟨rO2, store2 x0 x1 x2 x3⟩, ⟨rO1, store1 x0 x1 x2 x3⟩, ⟨rO0, store0 x0 x1 x2 x3⟩] :
        List (View.Piece (Elt Ideal) S4x256x1024 .f32)),
      ∀ x : p.1.shape.Idx, p.2 x = G x0 x1 x2 x3 (p.1.emb x) := by
    intro p hp
    rcases List.mem_cons.mp hp with rfl | hp
    · intro x
      obtain ⟨u, o, t, rfl⟩ : ∃ (u : Fin 1) (o : Fin 256) (t : Fin 1024), x = ix3 u o t := ⟨x 0, x 1, x 2, eq_ix3 x⟩
      exact (piece3 x0 x1 x2 x3 u o t).trans
        (congrArg (G x0 x1 x2 x3) (idx_slab (3 : Fin 4) inb_S4x256x1024_S1x256x1024_3_0_0 u o t).symm)
    rcases List.mem_cons.mp hp with rfl | hp
    · intro x
      obtain ⟨u, o, t, rfl⟩ : ∃ (u : Fin 1) (o : Fin 256) (t : Fin 1024), x = ix3 u o t := ⟨x 0, x 1, x 2, eq_ix3 x⟩
      exact (piece2 x0 x1 x2 x3 u o t).trans
        (congrArg (G x0 x1 x2 x3) (idx_slab (2 : Fin 4) inb_S4x256x1024_S1x256x1024_2_0_0 u o t).symm)
    rcases List.mem_cons.mp hp with rfl | hp
    · intro x
      obtain ⟨u, o, t, rfl⟩ : ∃ (u : Fin 1) (o : Fin 256) (t : Fin 1024), x = ix3 u o t := ⟨x 0, x 1, x 2, eq_ix3 x⟩
      exact (piece1 x0 x1 x2 x3 u o t).trans
        (congrArg (G x0 x1 x2 x3) (idx_slab (1 : Fin 4) inb_S4x256x1024_S1x256x1024_1_0_0 u o t).symm)
    rcases List.mem_cons.mp hp with rfl | hp
    · intro x
      obtain ⟨u, o, t, rfl⟩ : ∃ (u : Fin 1) (o : Fin 256) (t : Fin 1024), x = ix3 u o t := ⟨x 0, x 1, x 2, eq_ix3 x⟩
      exact (piece0 x0 x1 x2 x3 u o t).trans
        (congrArg (G x0 x1 x2 x3) (idx_slab (0 : Fin 4) inb_S4x256x1024_S1x256x1024_0_0_0 u o t).symm)
    exact absurd hp List.not_mem_nil
  have h := View.canon_apply_of_pieces (G x0 x1 x2 x3)
    ([⟨rO3, store3 x0 x1 x2 x3⟩, ⟨rO2, store2 x0 x1 x2 x3⟩, ⟨rO1, store1 x0 x1 x2 x3⟩, ⟨rO0, store0 x0 x1 x2 x3⟩] :
        List (View.Piece (Elt Ideal) S4x256x1024 .f32))
    hL (ix3 b o t) (cover0_4 (store3 x0 x1 x2 x3) (store2 x0 x1 x2 x3) (store1 x0 x1 x2 x3) (store0 x0 x1 x2 x3) (ix3 b o t))
  exact h

end Cert.KernelIdeal.Block

end
-- ==== Proof.KernelIdealArray.lean ====
/-
  From the fused program's blocks to its result array. At grid point `t` the call writes back, for the four batch
  elements `4 t … 4 t + 3`, the temporal block of that batch element of the input with the weights and biases the call
  finds; the weights' and biases' windows are their whole arrays at every point and the input's block at point `t`
  is batch elements `4 t … 4 t + 3` of the input, so what point `t` writes back is block `t` of ONE function `G` of the
  result's index; the eight blocks tile the result array (batch element `n` lies in the block of point `n / 4`), so
  after the call the array is `G`.
-/
import proofs.«153267_g2000506556625611_pallasbulk_77_11_alg».proof.Proof.KernelIdealDat
import proofs.«153267_g2000506556625611_pallasbulk_77_11_alg».proof.Proof.KernelIdealBlock
import proofs.«153267_g2000506556625611_pallasbulk_77_11_alg».proof.Proof.Spec
import Idealize.ShloMosaic.Lib.Pipeline.Value
import Idealize.ShloMosaic.Lib.ValueIdx

set_option maxRecDepth 16384

noncomputable section

namespace Cert.KernelIdeal.Array

open Cert.KernelIdeal Cert.KernelIdeal.Gen Cert.KernelIdeal.Out Cert.KernelIdeal.HFrame Idealize.ShloMosaic Idealize.ShloMosaic.TcCoe Idealize.ShloMosaic.ValueIdx
open Idealize.ShloMosaic.Pipeline (Dat)

variable (m : (ℓ : Loc nD τ sig) → Buf (Elt Ideal) ℓ)

/-- The printed index maps over the grid: the input's and the output's block index on the batch axis is the point,
    every other block index is zero. -/
theorem idx_facts : ∀ t : Fin cfg0.N, win0_0.index t (0 : Fin 3) = t.val
    ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- The first-layer weights' window is its whole array at every point. -/
theorem read_w (c : Dev nD) (t : Fin cfg0.N) (k : Fin 4) (o : Fin 256) (j : Fin 128) :
    (iblk m c 1 t : S4x256x128.Idx → EReal) (ix3 k o j) = (V m c main_v21 : S4x256x128.Idx → EReal) (ix3 k o j) := by
  obtain ⟨-, -, -, e0, e1, e2, -⟩ := idx_facts t
  unfold iblk
  rw [View.read_apply]
  show V m c main_v21 (((cfg0.win 1).blk t).view.emb (ix3 k o j)) = V m c main_v21 (ix3 k o j)
  refine congrArg _ ?_
  funext a; apply Fin.ext
  match a with
  | ⟨0, _⟩ => show win0_1.index t (0 : Fin 3) * 4 + 1 * k.val = k.val; omega
  | ⟨1, _⟩ => show win0_1.index t (1 : Fin 3) * 256 + 1 * o.val = o.val; omega
  | ⟨2, _⟩ => show win0_1.index t (2 : Fin 3) * 128 + 1 * j.val = j.val; omega

/-- The second-layer weights' window is its whole array at every point. -/
theorem read_u (c : Dev nD) (t : Fin cfg0.N) (k : Fin 3) (o : Fin 256) (j : Fin 256) :
    (iblk m c 2 t : S3x256x256.Idx → EReal) (ix3 k o j) = (V m c main_v18 : S3x256x256.Idx → EReal) (ix3 k o j) := by
  obtain ⟨-, -, -, -, -, -, e0, e1, e2, -⟩ := idx_facts t
  unfold iblk
  rw [View.read_apply]
  show V m c main_v18 (((cfg0.win 2).blk t).view.emb (ix3 k o j)) = V m c main_v18 (ix3 k o j)
  refine congrArg _ ?_
  funext a; apply Fin.ext
  match a with
  | ⟨0, _⟩ => show win0_2.index t (0 : Fin 3) * 3 + 1 * k.val = k.val; omega
  | ⟨1, _⟩ => show win0_2.index t (1 : Fin 3) * 256 + 1 * o.val = o.val; omega
  | ⟨2, _⟩ => show win0_2.index t (2 : Fin 3) * 256 + 1 * j.val = j.val; omega

/-- The biases' window is its whole array at every point. -/
theorem read_b (c : Dev nD) (t : Fin cfg0.N) (k : Fin 3) (o : Fin 256) (j : Fin 1) :
    (iblk m c 3 t : S3x256x1.Idx → EReal) (ix3 k o j) = (V m c main_v26 : S3x256x1.Idx → EReal) (ix3 k o j) := by
  obtain ⟨-, -, -, -, -, -, -, -, -, e0, e1, e2, -⟩ := idx_facts t
  unfold iblk
  rw [View.read_apply]
  show V m c main_v26 (((cfg0.win 3).blk t).view.emb (ix3 k o j)) = V m c main_v26 (ix3 k o j)
  refine congrArg _ ?_
  funext a; apply Fin.ext
  match a with
  | ⟨0, _⟩ => show win0_3.index t (0 : Fin 3) * 3 + 1 * k.val = k.val; omega
  | ⟨1, _⟩ => show win0_3.index t (1 : Fin 3) * 256 + 1 * o.val = o.val; omega
  | ⟨2, _⟩ => show win0_3.index t (2 : Fin 3) * 1 + 1 * j.val = j.val; omega

/-- The input's block at point `t` is batch elements `4 t … 4 t + 3` of the array. -/
theorem read_x (c : Dev nD) (t : Fin cfg0.N) (b : Fin 4) (k : Fin 128) (s : Fin 1024) (n : Fin 32) (hn : n.val = 4 * t.val + b.val) :
    (iblk m c 0 t : S4x128x1024.Idx → EReal) (ix3 b k s) = (V m c main_arg0 : S32x128x1024.Idx → EReal) (ix3 n k s) := by
  obtain ⟨e0, e1, e2, -⟩ := idx_facts t
  unfold iblk
  rw [View.read_apply]
  show V m c main_arg0 (((cfg0.win 0).blk t).view.emb (ix3 b k s)) = V m c main_arg0 (ix3 n k s)
  refine congrArg _ ?_
  funext a; apply Fin.ext
  match a with
  | ⟨0, _⟩ => show win0_0.index t (0 : Fin 3) * 4 + 1 * b.val = n.val; omega
  | ⟨1, _⟩ => show win0_0.index t (1 : Fin 3) * 128 + 1 * k.val = k.val; omega
  | ⟨2, _⟩ => show win0_0.index t (2 : Fin 3) * 1024 + 1 * s.val = s.val; omega

/-- The block depends on its weights, biases and signal only through their entries. -/
theorem block_congr {w0 w1 w2 w0' w1' w2' : Fin 256 → Fin 128 → EReal} {b1 b1' : Fin 256 → EReal}
    {u0 u1 u2 u0' u1' u2' : Fin 256 → Fin 256 → EReal} {b2 b2' : Fin 256 → EReal}
    {wd wd' : Fin 256 → Fin 128 → EReal} {bd bd' : Fin 256 → EReal} {x x' : Fin 128 → Fin 1024 → EReal}
    (h0 : ∀ o k, w0 o k = w0' o k) (h1 : ∀ o k, w1 o k = w1' o k) (h2 : ∀ o k, w2 o k = w2' o k) (hb1 : ∀ o, b1 o = b1' o)
    (g0 : ∀ o k, u0 o k = u0' o k) (g1 : ∀ o k, u1 o k = u1' o k) (g2 : ∀ o k, u2 o k = u2' o k) (hb2 : ∀ o, b2 o = b2' o)
    (hd : ∀ o k, wd o k = wd' o k) (hbd : ∀ o, bd o = bd' o) (hx : ∀ k s, x k s = x' k s) (o : Fin 256) (t : Fin 1024) :
    Cert.Tcn.block w0 w1 w2 b1 u0 u1 u2 b2 wd bd x o t = Cert.Tcn.block w0' w1' w2' b1' u0' u1' u2' b2' wd' bd' x' o t := by
  obtain rfl : w0 = w0' := funext fun o => funext fun k => h0 o k
  obtain rfl : w1 = w1' := funext fun o => funext fun k => h1 o k
  obtain rfl : w2 = w2' := funext fun o => funext fun k => h2 o k
  obtain rfl : b1 = b1' := funext fun o => hb1 o
  obtain rfl : u0 = u0' := funext fun o => funext fun k => g0 o k
  obtain rfl : u1 = u1' := funext fun o => funext fun k => g1 o k
  obtain rfl : u2 = u2' := funext fun o => funext fun k => g2 o k
  obtain rfl : b2 = b2' := funext fun o => hb2 o
  obtain rfl : wd = wd' := funext fun o => funext fun k => hd o k
  obtain rfl : bd = bd' := funext fun o => hbd o
  obtain rfl : x = x' := funext fun k => funext fun s => hx k s
  rfl

/-- Batch element `n` of the result: the temporal block of batch element `n` of the input, with the weights and
    biases the call finds. -/
def Gf (c : Dev nD) (n : Fin 32) (o : Fin 256) (t : Fin 1024) : EReal :=
  Cert.Tcn.block (fun o k => (V m c main_v21 : S4x256x128.Idx → EReal) (ix3 (0 : Fin 4) o k)) (fun o k => (V m c main_v21 : S4x256x128.Idx → EReal) (ix3 (1 : Fin 4) o k)) (fun o k => (V m c main_v21 : S4x256x128.Idx → EReal) (ix3 (2 : Fin 4) o k)) (fun o => (V m c main_v26 : S3x256x1.Idx → EReal) (ix3 (0 : Fin 3) o (0 : Fin 1)))
      (fun o k => (V m c main_v18 : S3x256x256.Idx → EReal) (ix3 (0 : Fin 3) o k)) (fun o k => (V m c main_v18 : S3x256x256.Idx → EReal) (ix3 (1 : Fin 3) o k)) (fun o k => (V m c main_v18 : S3x256x256.Idx → EReal) (ix3 (2 : Fin 3) o k)) (fun o => (V m c main_v26 : S3x256x1.Idx → EReal) (ix3 (1 : Fin 3) o (0 : Fin 1)))
      (fun o k => (V m c main_v21 : S4x256x128.Idx → EReal) (ix3 (3 : Fin 4) o k)) (fun o => (V m c main_v26 : S3x256x1.Idx → EReal) (ix3 (2 : Fin 3) o (0 : Fin 1))) (fun k t => (V m c main_arg0 : S32x128x1024.Idx → EReal) (ix3 n k t)) o t

/-- The whole result array as one function of its index. -/
def G (c : Dev nD) : S32x256x1024.Idx → EReal := fun i => Gf m c (i 0) (i 1) (i 2)

/-- What point `t` writes back is block `t` of `G`. -/
theorem flushed_eq (c : Dev nD) (t : Fin cfg0.N) :
    (dats (F := Ideal) m 0 c).flushed 4 t = ((cfg0.win 4).blk t).view.read (Elt Ideal) (G m c) := by
  show (cfg0.win 4).cut (grid0.coords t) ((dats (F := Ideal) m 0 c).after 4 t) = _
  rw [after0_4]
  funext j
  obtain ⟨-, -, -, -, -, -, -, -, -, -, -, -, e0, e1, e2⟩ := idx_facts t
  have ht : t.val < 8 := t.isLt
  show out0_4 (iblk m c 0 t) (iblk m c 1 t) (iblk m c 2 t) (iblk m c 3 t) j = G m c (((cfg0.win 4).blk t).view.emb j)
  obtain ⟨b, o, s, rfl⟩ : ∃ (b : Fin 4) (o : Fin 256) (s : Fin 1024), j = ix3 b o s := ⟨j 0, j 1, j 2, eq_ix3 (n0 := 4) (n1 := 256) (n2 := 1024) j⟩
  have hi : (((cfg0.win 4).blk t).view.emb (ix3 b o s) : S32x256x1024.Idx) = ix3 (⟨4 * t.val + b.val, by omega⟩ : Fin 32) o s := by
    funext a; apply Fin.ext
    match a with
    | ⟨0, _⟩ => show win0_4.index t (0 : Fin 3) * 4 + 1 * b.val = 4 * t.val + b.val; omega
    | ⟨1, _⟩ => show win0_4.index t (1 : Fin 3) * 256 + 1 * o.val = o.val; omega
    | ⟨2, _⟩ => show win0_4.index t (2 : Fin 3) * 1024 + 1 * s.val = s.val; omega
  refine (Cert.KernelIdeal.Block.out0_4_apply (iblk m c 0 t) (iblk m c 1 t) (iblk m c 2 t) (iblk m c 3 t) b o s).trans ?_
  refine Eq.trans ?_ (congrArg (G m c) hi).symm
  show _ = Gf m c (⟨4 * t.val + b.val, by omega⟩ : Fin 32) o s
  unfold Gf
  exact block_congr (fun o k => read_w m c t 0 o k) (fun o k => read_w m c t 1 o k) (fun o k => read_w m c t 2 o k) (fun o => read_b m c t 0 o 0)
    (fun o k => read_u m c t 0 o k) (fun o k => read_u m c t 1 o k) (fun o k => read_u m c t 2 o k) (fun o => read_b m c t 1 o 0)
    (fun o k => read_w m c t 3 o k) (fun o => read_b m c t 2 o 0) (fun k s => read_x m c t b k s _ rfl) o s

/-- An index of the array is in point `t`'s block iff each coordinate is in the block's range on its axis. -/
theorem mem_blk (t : Fin cfg0.N) (i : S32x256x1024.Idx) :
    i ∈ ((cfg0.win 4).blk t).view.set ↔ ∀ a : Fin 3, win0_4.index t a * S4x256x1024.size a ≤ (i a).val ∧ (i a).val < win0_4.index t a * S4x256x1024.size a + S4x256x1024.size a := by
  show i ∈ ((View.whole main_v27).slice (win0_4.rect t)).set ↔ _
  rw [View.set_slice_whole, Rect.mem_set_unit]
  exact Iff.rfl

/-- Every index of the array is in the block of the point its batch coordinate names: point `n / 4` writes batch element `n`. -/
theorem cover (i : S32x256x1024.Idx) : ∃ t : Fin cfg0.N, (cfg0.win 4).flush t = true ∧ i ∈ ((cfg0.win 4).blk t).view.set := by
  have hi0 : (i 0).val < 32 := (i 0).isLt
  have hi1 : (i 1).val < 256 := (i 1).isLt
  have hi2 : (i 2).val < 1024 := (i 2).isLt
  obtain ⟨t, ht⟩ : ∃ t : Fin cfg0.N, t.val = (i 0).val / 4 := ⟨⟨(i 0).val / 4, show (i 0).val / 4 < 8 by omega⟩, rfl⟩
  obtain ⟨-, -, -, -, -, -, -, -, -, -, -, -, e0, e1, e2⟩ := idx_facts t
  refine ⟨t, flush0_4 t, ?_⟩
  rw [mem_blk]
  intro a
  match a with
  | ⟨0, _⟩ => show win0_4.index t (0 : Fin 3) * 4 ≤ (i 0).val ∧ (i 0).val < win0_4.index t (0 : Fin 3) * 4 + 4; omega
  | ⟨1, _⟩ => show win0_4.index t (1 : Fin 3) * 256 ≤ (i 1).val ∧ (i 1).val < win0_4.index t (1 : Fin 3) * 256 + 256; omega
  | ⟨2, _⟩ => show win0_4.index t (2 : Fin 3) * 1024 ≤ (i 2).val ∧ (i 2).val < win0_4.index t (2 : Fin 3) * 1024 + 1024; omega

/-- The result array after the call is `G`. -/
theorem final (c : Dev nD) : (dats (F := Ideal) m 0 c).arrAt 4 cfg0.N = G m c :=
  (dats (F := Ideal) m 0 c).arrAt_eq_of_cover 4 (G m c) (fun t _ => flushed_eq m c t) cover

/-- The result array after the call, read at batch element `n`, channel `o`, time `t`: the temporal block of batch
    element `n` of the input. -/
theorem kernel_array (c : Dev nD) (n : Fin 32) (o : Fin 256) (t : Fin 1024) :
    ((dats (F := Ideal) m 0 c).arrAt 4 cfg0.N : S32x256x1024.Idx → EReal) (ix3 n o t)
      = Cert.Tcn.block (fun o k => (V m c main_v21 : S4x256x128.Idx → EReal) (ix3 (0 : Fin 4) o k)) (fun o k => (V m c main_v21 : S4x256x128.Idx → EReal) (ix3 (1 : Fin 4) o k)) (fun o k => (V m c main_v21 : S4x256x128.Idx → EReal) (ix3 (2 : Fin 4) o k)) (fun o => (V m c main_v26 : S3x256x1.Idx → EReal) (ix3 (0 : Fin 3) o (0 : Fin 1)))
      (fun o k => (V m c main_v18 : S3x256x256.Idx → EReal) (ix3 (0 : Fin 3) o k)) (fun o k => (V m c main_v18 : S3x256x256.Idx → EReal) (ix3 (1 : Fin 3) o k)) (fun o k => (V m c main_v18 : S3x256x256.Idx → EReal) (ix3 (2 : Fin 3) o k)) (fun o => (V m c main_v26 : S3x256x1.Idx → EReal) (ix3 (1 : Fin 3) o (0 : Fin 1)))
      (fun o k => (V m c main_v21 : S4x256x128.Idx → EReal) (ix3 (3 : Fin 4) o k)) (fun o => (V m c main_v26 : S3x256x1.Idx → EReal) (ix3 (2 : Fin 3) o (0 : Fin 1))) (fun k t => (V m c main_arg0 : S32x128x1024.Idx → EReal) (ix3 n k t)) o t := by
  refine (congrFun (final m c) (ix3 n o t)).trans ?_
  show Gf m c n o t = _
  unfold Gf
  rfl

end Cert.KernelIdeal.Array
end
-- ==== Proof.KernelIdealHost.lean ====
/-
  What the fused program's pallas_call finds in its three weight and bias arrays, read at an index, from the launch
  arguments: taps 0–2 of the packed first-convolution array are the weight-normalised taps (the normalisation kept
  as ONE function of the raw weights and gains) and its row 3 is the 1×1 projection; the second array is the
  weight-normalised taps of the second convolution; the three rows of the bias array are the three biases.
-/
import proofs.«153267_g2000506556625611_pallasbulk_77_11_alg».proof.Proof.KernelIdealDat
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Host

open Idealize.ShloMosaic Idealize.ShloMosaic.TcCoe Idealize.ShloMosaic.ValueIdx Idealize.SL.Sem
open Cert.KernelIdeal Cert.KernelIdeal.Gen Cert.KernelIdeal.Out Cert.KernelIdeal.HFrame

variable (m : (ℓ : Loc nD τ sig) → Buf (Elt Ideal) ℓ) (c : Dev nD)

/-! ## The weight normalisation, as one function -/

/-- Taps of the first convolution: gain times direction over the direction's norm, taps first. -/
def wn1 (v : Vec Ideal S256x128x3 .f32) (g : Vec Ideal S256x1x1 .f32) : Vec Ideal S3x256x128 .f32 :=
  transpose S3x256x128 [2, 0, 1] (Host.divf (F := Ideal) (mulf (F := Ideal) (broadcastInDim S256x128x3 ![0, 1, 2] bcast_S256x1x1_S256x128x3_0_1_2 g) v)
    (broadcastInDim S256x128x3 ![0, 1, 2] bcast_S256x1x1_S256x128x3_0_1_2 (Host.sqrt (F := Ideal) (broadcastInDim S256x1x1 ![0] bcast_S256_S256x1x1_0
      (Host.reduceAdd (F := Ideal) (mulf (F := Ideal) v v) (constant (F := Ideal) S_ .f32 0x00000000#32) reducesTo_S256x128x3_S256_d1_2 h_S_)))))
    transposes_S256x128x3_S3x256x128_2_0_1

/-- Taps of the second convolution. -/
def wn2 (v : Vec Ideal S256x256x3 .f32) (g : Vec Ideal S256x1x1 .f32) : Vec Ideal S3x256x256 .f32 :=
  transpose S3x256x256 [2, 0, 1] (Host.divf (F := Ideal) (mulf (F := Ideal) (broadcastInDim S256x256x3 ![0, 1, 2] bcast_S256x1x1_S256x256x3_0_1_2 g) v)
    (broadcastInDim S256x256x3 ![0, 1, 2] bcast_S256x1x1_S256x256x3_0_1_2 (Host.sqrt (F := Ideal) (broadcastInDim S256x1x1 ![0] bcast_S256_S256x1x1_0
      (Host.reduceAdd (F := Ideal) (mulf (F := Ideal) v v) (constant (F := Ideal) S_ .f32 0x00000000#32) reducesTo_S256x256x3_S256_d1_2 h_S_)))))
    transposes_S256x256x3_S3x256x256_2_0_1

/-! ## The three arrays as the region finds them, as terms over the arguments -/

/-- The packed first-convolution array: the normalised taps and, as a fourth tap, the 1×1 projection. -/
theorem V_v21 : (V m c main_v21 : S4x256x128.Idx → EReal)
    = truncf (F := Ideal) .bf16 (concatenate S4x256x128 0 [⟨S3x256x128, wn1 (m ((c : Thread nD τ).loc main_arg1)) (m ((c : Thread nD τ).loc main_arg2))⟩,
        ⟨S1x256x128, shapeCast S1x256x128 (m ((c : Thread nD τ).loc main_arg7) : S256x128x1.Idx → EReal) shapeCasts_S256x128x1_S1x256x128⟩]
        concatenates_S3x256x128_S1x256x128_S4x256x128_d0) bitsLt_bf16_f32 := by
  show StableHlo.after hostOps0 (fun b => m (c, b)) (Proc.devRef .tc main_v21) = _
  simp only [hostOps0]
  after_results
  rfl

/-- The second convolution's taps. -/
theorem V_v18 : (V m c main_v18 : S3x256x256.Idx → EReal)
    = truncf (F := Ideal) .bf16 (wn2 (m ((c : Thread nD τ).loc main_arg4)) (m ((c : Thread nD τ).loc main_arg5))) bitsLt_bf16_f32 := by
  show StableHlo.after hostOps0 (fun b => m (c, b)) (Proc.devRef .tc main_v18) = _
  simp only [hostOps0]
  after_results
  rfl

/-- The three biases, one row each. -/
theorem V_v26 : (V m c main_v26 : S3x256x1.Idx → EReal)
    = shapeCast S3x256x1 (concatenate S3x256 0 [⟨S1x256, broadcastInDim S1x256 ![1] bcast_S256_S1x256_1 (m ((c : Thread nD τ).loc main_arg3) : S256.Idx → EReal)⟩,
        ⟨S1x256, broadcastInDim S1x256 ![1] bcast_S256_S1x256_1 (m ((c : Thread nD τ).loc main_arg6) : S256.Idx → EReal)⟩,
        ⟨S1x256, broadcastInDim S1x256 ![1] bcast_S256_S1x256_1 (m ((c : Thread nD τ).loc main_arg8) : S256.Idx → EReal)⟩]
        concatenates_S1x256_S1x256_S1x256_S3x256_d0) shapeCasts_S3x256_S3x256x1 := by
  show StableHlo.after hostOps0 (fun b => m (c, b)) (Proc.devRef .tc main_v26) = _
  simp only [hostOps0]
  after_results
  rfl

/-! ## The arrays read at an index -/

/-- Rows 0–2 of the packed array are the normalised taps of the first convolution. -/
theorem v21_tap (k : Fin 3) (o : Fin 256) (j : Fin 128) :
    (V m c main_v21 : S4x256x128.Idx → EReal) (ix3 (⟨k.val, by omega⟩ : Fin 4) o j)
      = wn1 (m ((c : Thread nD τ).loc main_arg1)) (m ((c : Thread nD τ).loc main_arg2)) (ix3 k o j) := by
  refine ((congrFun (V_v21 m c) _).trans (truncf_apply _ _ _)).trans ?_
  exact concatenate_pair_apply_left (t := S4x256x128) (s₁ := S3x256x128) (s₂ := S1x256x128) 0 _ _ _ _ rfl (ix3 k o j)
    (fun b => match b with | ⟨0, _⟩ => rfl | ⟨1, _⟩ => rfl | ⟨2, _⟩ => rfl)

/-- Row 3 of the packed array is the 1×1 projection. -/
theorem v21_proj (o : Fin 256) (j : Fin 128) :
    (V m c main_v21 : S4x256x128.Idx → EReal) (ix3 (3 : Fin 4) o j)
      = (m ((c : Thread nD τ).loc main_arg7) : S256x128x1.Idx → EReal) (ix3 o j (0 : Fin 1)) := by
  refine ((congrFun (V_v21 m c) _).trans (truncf_apply _ _ _)).trans ?_
  refine (concatenate_pair_apply_right (t := S4x256x128) (s₁ := S3x256x128) (s₂ := S1x256x128) 0 _ _ _ (ix3 (3 : Fin 4) o j) rfl rfl
    (ix3 (0 : Fin 1) o j) (fun b hb => match b, hb with | ⟨0, _⟩, hb => absurd rfl hb | ⟨1, _⟩, _ => rfl | ⟨2, _⟩, _ => rfl) rfl).trans ?_
  refine shapeCast_apply _ _ _ (ix3 o j (0 : Fin 1)) ?_
  rw [Shape.rowMajor_val_three, Shape.rowMajor_val_three]
  show (o.val * 128 + j.val) * 1 + 0 = (0 * 256 + o.val) * 128 + j.val
  omega

/-- The second array is the normalised taps of the second convolution. -/
theorem v18_tap (k : Fin 3) (o : Fin 256) (j : Fin 256) :
    (V m c main_v18 : S3x256x256.Idx → EReal) (ix3 k o j)
      = wn2 (m ((c : Thread nD τ).loc main_arg4)) (m ((c : Thread nD τ).loc main_arg5)) (ix3 k o j) :=
  (congrFun (V_v18 m c) _).trans (truncf_apply _ _ _)

/-- A bias broadcast to one row reads the bias at the column. -/
theorem bias_row (x : S256.Idx → EReal) (u : Fin 1) (o : Fin 256) :
    broadcastInDim S1x256 ![1] bcast_S256_S1x256_1 x (ix2 u o) = x (ix1 o) :=
  broadcastInDim_apply _ _ x _ (ix1 o) (fun a => match a with | ⟨0, _⟩ => rfl)

/-- The bias array's position `(r, o, 0)` is position `(r, o)` of the three rows laid one under the other. -/
theorem v26_cast (x : S3x256.Idx → EReal) (r : Fin 3) (o : Fin 256) :
    shapeCast S3x256x1 x shapeCasts_S3x256_S3x256x1 (ix3 r o (0 : Fin 1)) = x (ix2 r o) := by
  refine shapeCast_apply _ _ _ (ix2 r o) ?_
  rw [Shape.rowMajor_val_three, Shape.rowMajor_val_two]
  show r.val * 256 + o.val = (r.val * 256 + o.val) * 1 + 0
  omega

/-- Row 0 of the bias array is the first convolution's bias. -/
theorem v26_b1 (o : Fin 256) :
    (V m c main_v26 : S3x256x1.Idx → EReal) (ix3 (0 : Fin 3) o (0 : Fin 1)) = (m ((c : Thread nD τ).loc main_arg3) : S256.Idx → EReal) (ix1 o) := by
  refine ((congrFun (V_v26 m c) _).trans (v26_cast _ 0 o)).trans ?_
  refine (concatenate_apply_piece (t := S3x256) 0 _ _ (ix2 (0 : Fin 3) o) 0 (by simp) S1x256 _ rfl rfl 0 rfl (ix2 (0 : Fin 1) o)
    (fun b hb => match b, hb with | ⟨0, _⟩, hb => absurd rfl hb | ⟨1, _⟩, _ => rfl) rfl).trans ?_
  exact bias_row _ 0 o

/-- Row 1 of the bias array is the second convolution's bias. -/
theorem v26_b2 (o : Fin 256) :
    (V m c main_v26 : S3x256x1.Idx → EReal) (ix3 (1 : Fin 3) o (0 : Fin 1)) = (m ((c : Thread nD τ).loc main_arg6) : S256.Idx → EReal) (ix1 o) := by
  refine ((congrFun (V_v26 m c) _).trans (v26_cast _ 1 o)).trans ?_
  refine (concatenate_apply_piece (t := S3x256) 0 _ _ (ix2 (1 : Fin 3) o) 1 (by simp) S1x256 _ rfl rfl 1 rfl (ix2 (0 : Fin 1) o)
    (fun b hb => match b, hb with | ⟨0, _⟩, hb => absurd rfl hb | ⟨1, _⟩, _ => rfl) rfl).trans ?_
  exact bias_row _ 0 o

/-- Row 2 of the bias array is the projection's bias. -/
theorem v26_bd (o : Fin 256) :
    (V m c main_v26 : S3x256x1.Idx → EReal) (ix3 (2 : Fin 3) o (0 : Fin 1)) = (m ((c : Thread nD τ).loc main_arg8) : S256.Idx → EReal) (ix1 o) := by
  refine ((congrFun (V_v26 m c) _).trans (v26_cast _ 2 o)).trans ?_
  refine (concatenate_apply_piece (t := S3x256) 0 _ _ (ix2 (2 : Fin 3) o) 2 (by simp) S1x256 _ rfl rfl 2 rfl (ix2 (0 : Fin 1) o)
    (fun b hb => match b, hb with | ⟨0, _⟩, hb => absurd rfl hb | ⟨1, _⟩, _ => rfl) rfl).trans ?_
  exact bias_row _ 0 o

end Cert.KernelIdeal.Host

end
-- ==== Proof.KernelIdealValue.lean ====
/-
  The fused program's result, at an index, as the specification's block of the argument arrays: the array after the
  run is, row by row, the body's block of the operand arrays the call finds, and those are the weight-normalised
  taps with the 1×1 projection packed behind them, the second layer's taps, and the three biases packed as rows.
-/
import proofs.«153267_g2000506556625611_pallasbulk_77_11_alg».proof.Proof.KernelIdealArray
import proofs.«153267_g2000506556625611_pallasbulk_77_11_alg».proof.Proof.KernelIdealHost

set_option maxRecDepth 16384

noncomputable section

namespace Cert.KernelIdeal.Value

open Idealize.ShloMosaic Idealize.ShloMosaic.TcCoe Idealize.ShloMosaic.ValueIdx Idealize.SL.Sem
open Cert.KernelIdeal Cert.KernelIdeal.Gen Cert.KernelIdeal.HFrame Cert.KernelIdeal.Host

variable (m : (ℓ : Loc nD τ sig) → Buf (Elt Ideal) ℓ) (c : Dev nD)

/-- The taps, biases and projection the fused program uses, as functions of the argument arrays. -/
abbrev W1k (k : Fin 3) : Fin 256 → Fin 128 → EReal := fun o j => wn1 (m ((c : Thread nD τ).loc main_arg1)) (m ((c : Thread nD τ).loc main_arg2)) (ix3 k o j)
abbrev W2k (k : Fin 3) : Fin 256 → Fin 256 → EReal := fun o j => wn2 (m ((c : Thread nD τ).loc main_arg4)) (m ((c : Thread nD τ).loc main_arg5)) (ix3 k o j)
abbrev B1 : Fin 256 → EReal := fun o => (m ((c : Thread nD τ).loc main_arg3) : S256.Idx → EReal) (ix1 o)
abbrev B2 : Fin 256 → EReal := fun o => (m ((c : Thread nD τ).loc main_arg6) : S256.Idx → EReal) (ix1 o)
abbrev BD : Fin 256 → EReal := fun o => (m ((c : Thread nD τ).loc main_arg8) : S256.Idx → EReal) (ix1 o)
abbrev WD : Fin 256 → Fin 128 → EReal := fun o j => (m ((c : Thread nD τ).loc main_arg7) : S256x128x1.Idx → EReal) (ix3 o j (0 : Fin 1))
abbrev X (n : Fin 32) : Fin 128 → Fin 1024 → EReal := fun k t => (m ((c : Thread nD τ).loc main_arg0) : S32x128x1024.Idx → EReal) (ix3 n k t)

/-- The result array of the fused program, at an index, is the block of the specification. -/
theorem result_apply (n : Fin 32) (o : Fin 256) (t : Fin 1024) :
    ((dats (F := Ideal) m 0 c).arrAt 4 cfg0.N : S32x256x1024.Idx → EReal) (ix3 n o t)
      = Cert.Tcn.block (W1k m c 0) (W1k m c 1) (W1k m c 2) (B1 m c) (W2k m c 0) (W2k m c 1) (W2k m c 2) (B2 m c) (WD m c) (BD m c) (X m c n) o t := by
  rw [Cert.KernelIdeal.Array.kernel_array m c n o t]
  have e0 : (fun o k => (V m c main_v21 : S4x256x128.Idx → EReal) (ix3 (0 : Fin 4) o k)) = W1k m c 0 := funext fun o => funext fun k => v21_tap m c 0 o k
  have e1 : (fun o k => (V m c main_v21 : S4x256x128.Idx → EReal) (ix3 (1 : Fin 4) o k)) = W1k m c 1 := funext fun o => funext fun k => v21_tap m c 1 o k
  have e2 : (fun o k => (V m c main_v21 : S4x256x128.Idx → EReal) (ix3 (2 : Fin 4) o k)) = W1k m c 2 := funext fun o => funext fun k => v21_tap m c 2 o k
  have e3 : (fun o k => (V m c main_v21 : S4x256x128.Idx → EReal) (ix3 (3 : Fin 4) o k)) = WD m c := funext fun o => funext fun k => v21_proj m c o k
  have u0 : (fun o k => (V m c main_v18 : S3x256x256.Idx → EReal) (ix3 (0 : Fin 3) o k)) = W2k m c 0 := funext fun o => funext fun k => v18_tap m c 0 o k
  have u1 : (fun o k => (V m c main_v18 : S3x256x256.Idx → EReal) (ix3 (1 : Fin 3) o k)) = W2k m c 1 := funext fun o => funext fun k => v18_tap m c 1 o k
  have u2 : (fun o k => (V m c main_v18 : S3x256x256.Idx → EReal) (ix3 (2 : Fin 3) o k)) = W2k m c 2 := funext fun o => funext fun k => v18_tap m c 2 o k
  have b1 : (fun o => (V m c main_v26 : S3x256x1.Idx → EReal) (ix3 (0 : Fin 3) o (0 : Fin 1))) = B1 m c := funext fun o => v26_b1 m c o
  have b2 : (fun o => (V m c main_v26 : S3x256x1.Idx → EReal) (ix3 (1 : Fin 3) o (0 : Fin 1))) = B2 m c := funext fun o => v26_b2 m c o
  have bd : (fun o => (V m c main_v26 : S3x256x1.Idx → EReal) (ix3 (2 : Fin 3) o (0 : Fin 1))) = BD m c := funext fun o => v26_bd m c o
  have ex : (fun k t => (V m c main_arg0 : S32x128x1024.Idx → EReal) (ix3 n k t)) = X m c n := by
    rw [V_main_arg0 m c]
  rw [e0, e1, e2, e3, u0, u1, u2, b1, b2, bd, ex]

end Cert.KernelIdeal.Value

end
-- ==== Proof.RefRun.lean ====
/-
  The two-call program's run, with every unscoped buffer's final contents named: from any memory with zero counters
  every weakly fair execution of @main terminates, nothing faulting, and every unscoped buffer ends at the contents
  the fold through @main's segments computes (host stretches applied in order, each pallas_call's arrays at what its
  write-backs leave). The frame and the value of the result are both read off this one run.
-/
import proofs.«153267_g2000506556625611_pallasbulk_77_11_alg».proof.Proof.Gen.ReferenceIdeal.Frame

set_option maxRecDepth 16384

noncomputable section

namespace Cert.ReferenceIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.ReferenceIdeal.Run

end
-- ==== Proof.LibPadRead.lean ====
/-
  A `stablehlo.pad` with no interior padding, read at an index. Such a pad lays its operand into the result at the low
  padding's offsets and fills the rest with the padding value: an index whose every coordinate is the low padding plus a
  coordinate of the operand reads the operand there (`pad_inside`); an index with some coordinate below the low padding,
  or at or past the low padding plus the operand's extent, reads the padding value (`pad_outside`). Any rank; the
  interior padding is given as a function with a proof that it is zero on every axis, so a literal `![0, …, 0]` fits.
-/
import Idealize.ShloMosaic.Lib.Pipeline.Value

noncomputable section

open Idealize.ShloMosaic

namespace PadRead

variable {α : Type} {s t u : Shape}

/-- Inside the operand's image: the operand at the index less the low padding. -/
theorem pad_inside (lo hi interior : Fin s.rank → Nat) (h0 : ∀ a, interior a = 0) (x : s.Idx → α) (v : u.Idx → α)
    (h : s.Pads lo hi interior t) (hu : 0 < u.numel) (j : t.Idx) (k : s.Idx)
    (hk : ∀ a : Fin s.rank, (j (a.cast h.1)).val = lo a + (k a).val) :
    pad t lo hi interior x v h hu j = x k := by
  unfold pad
  have hin : ∀ a : Fin s.rank, lo a ≤ (j (a.cast h.1)).val ∧ ((j (a.cast h.1)).val - lo a) % (interior a + 1) = 0
      ∧ ((j (a.cast h.1)).val - lo a) / (interior a + 1) < s.size a := fun a => by
    have := hk a; have hlt := (k a).isLt
    rw [h0 a, Nat.zero_add, Nat.div_one, Nat.mod_one]
    omega
  rw [dif_pos hin]
  refine congrArg x (funext fun a => Fin.ext ?_)
  show ((j (a.cast h.1)).val - lo a) / (interior a + 1) = (k a).val
  have := hk a
  rw [h0 a, Nat.zero_add, Nat.div_one]; omega

/-- Outside it (on some axis the coordinate is below the low padding, or at or past the low padding plus the operand's
    extent): the padding value. -/
theorem pad_outside (lo hi interior : Fin s.rank → Nat) (h0 : ∀ a, interior a = 0) (x : s.Idx → α) (v : u.Idx → α)
    (h : s.Pads lo hi interior t) (hu : 0 < u.numel) (j : t.Idx) (a : Fin s.rank)
    (ha : (j (a.cast h.1)).val < lo a ∨ lo a + s.size a ≤ (j (a.cast h.1)).val) :
    pad t lo hi interior x v h hu j = v (Shape.Idx.first hu) := by
  unfold pad
  rw [dif_neg]
  intro hin
  have := hin a
  rw [h0 a, Nat.zero_add, Nat.div_one] at this
  omega

end PadRead

end
-- ==== Proof.RefHost.lean ====
/-
  What each pallas_call of the two-call program finds in its operand arrays, read back through @main's host
  operations to the arguments: the input padded with four zeros on the left along time; the weight-normalised taps
  (kept as ONE function of the raw weights and gains: the fused program computes the same one); the biases as
  columns; the first call's output, padded the same way, as the second call's input; the 1×1 projection as a matrix.
-/
import proofs.«153267_g2000506556625611_pallasbulk_77_11_alg».proof.Proof.RefRun
import proofs.«153267_g2000506556625611_pallasbulk_77_11_alg».proof.Proof.LibPadRead
import proofs.«153267_g2000506556625611_pallasbulk_77_11_alg».proof.Proof.Spec
import Idealize.ShloMosaic.Lib.ValueIdx
import Idealize.ShloMosaic.Lib.Pipeline.Value
import Idealize.ShloMosaic.Lib.StableHlo.Run
import proofs.«153267_g2000506556625611_pallasbulk_77_11_alg».proof.Proof.LibKeepdims
set_option maxRecDepth 16384

noncomputable section

namespace Cert.ReferenceIdeal.Host

open Idealize.ShloMosaic Idealize.ShloMosaic.TcCoe Idealize.ShloMosaic.ValueIdx Idealize.SL.Sem
open Cert.ReferenceIdeal Cert.ReferenceIdeal.Gen

variable (m : (ℓ : Loc nD τ sig) → Buf (Elt Ideal) ℓ) (ρ : Dev nD → PrngReg) (c : Dev nD)

/-! ## The weight normalisation, as one function -/

/-- Taps of the first convolution: gain times direction over the direction's norm, taps first. -/
def wn1 (v : Vec Ideal S256x128x3 .f32) (g : Vec Ideal S256x1x1 .f32) : Vec Ideal S3x256x128 .f32 :=
  transpose S3x256x128 [2, 0, 1] (Host.divf (F := Ideal) (mulf (F := Ideal) (broadcastInDim S256x128x3 ![0, 1, 2] bcast_S256x1x1_S256x128x3_0_1_2 g) v)
    (broadcastInDim S256x128x3 ![0, 1, 2] bcast_S256x1x1_S256x128x3_0_1_2 (Host.sqrt (F := Ideal) (broadcastInDim S256x1x1 ![0] bcast_S256_S256x1x1_0
      (Host.reduceAdd (F := Ideal) (mulf (F := Ideal) v v) (constant (F := Ideal) S_ .f32 0x00000000#32) reducesTo_S256x128x3_S256_d1_2 h_S_)))))
    transposes_S256x128x3_S3x256x128_2_0_1

/-- Taps of the second convolution. -/
def wn2 (v : Vec Ideal S256x256x3 .f32) (g : Vec Ideal S256x1x1 .f32) : Vec Ideal S3x256x256 .f32 :=
  transpose S3x256x256 [2, 0, 1] (Host.divf (F := Ideal) (mulf (F := Ideal) (broadcastInDim S256x256x3 ![0, 1, 2] bcast_S256x1x1_S256x256x3_0_1_2 g) v)
    (broadcastInDim S256x256x3 ![0, 1, 2] bcast_S256x1x1_S256x256x3_0_1_2 (Host.sqrt (F := Ideal) (broadcastInDim S256x1x1 ![0] bcast_S256_S256x1x1_0
      (Host.reduceAdd (F := Ideal) (mulf (F := Ideal) v v) (constant (F := Ideal) S_ .f32 0x00000000#32) reducesTo_S256x256x3_S256_d1_2 h_S_)))))
    transposes_S256x256x3_S3x256x256_2_0_1

/-! ## The first call's operands -/

theorem V3_v16 : (V3 m ρ c main_v16 : S32x128x1028.Idx → EReal)
    = pad S32x128x1028 ![0, 0, 4] ![0, 0, 0] ![0, 0, 0] (m ((c : Thread nD τ).loc main_arg0) : S32x128x1024.Idx → EReal)
        (sitofp (F := Ideal) .f32 (constantI S_ 32 0#32)) pads_S32x128x1024_S32x128x1028_000_000_400 h_S_ := by
  show StableHlo.after hostOps0_2 (StableHlo.after hostOps0_1 (StableHlo.after hostOps0 (W0 m ρ c))) (Proc.devRef .tc main_v16) = _
  simp only [hostOps0_2, hostOps0_1, hostOps0]
  after_results
  try rfl

theorem V3_v17 : (V3 m ρ c main_v17 : S3x256x128.Idx → EReal)
    = wn1 (m ((c : Thread nD τ).loc main_arg1)) (m ((c : Thread nD τ).loc main_arg2)) := by
  show StableHlo.after hostOps0_2 (StableHlo.after hostOps0_1 (StableHlo.after hostOps0 (W0 m ρ c))) (Proc.devRef .tc main_v17) = _
  simp only [hostOps0_2, hostOps0_1, hostOps0]
  after_results
  try rfl

theorem V3_v18 : (V3 m ρ c main_v18 : S256x1.Idx → EReal)
    = shapeCast S256x1 (m ((c : Thread nD τ).loc main_arg3) : S256.Idx → EReal) shapeCasts_S256_S256x1 := by
  show StableHlo.after hostOps0_2 (StableHlo.after hostOps0_1 (StableHlo.after hostOps0 (W0 m ρ c))) (Proc.devRef .tc main_v18) = _
  simp only [hostOps0_2, hostOps0_1, hostOps0]
  after_results
  try rfl

/-- What the first stretches leave in a buffer the first call does not touch. -/
theorem W3_v15 : (W3 m ρ c (Proc.devRef .tc main_v15) : S256x256x3.Idx → EReal)
    = Host.divf (F := Ideal) (mulf (F := Ideal) (broadcastInDim S256x256x3 ![0, 1, 2] bcast_S256x1x1_S256x256x3_0_1_2 (m ((c : Thread nD τ).loc main_arg5))) (m ((c : Thread nD τ).loc main_arg4)))
        (broadcastInDim S256x256x3 ![0, 1, 2] bcast_S256x1x1_S256x256x3_0_1_2 (Host.sqrt (F := Ideal) (broadcastInDim S256x1x1 ![0] bcast_S256_S256x1x1_0
          (Host.reduceAdd (F := Ideal) (mulf (F := Ideal) (m ((c : Thread nD τ).loc main_arg4)) (m ((c : Thread nD τ).loc main_arg4))) (constant (F := Ideal) S_ .f32 0x00000000#32) reducesTo_S256x256x3_S256_d1_2 h_S_)))) := by
  show StableHlo.after hostOps0_2 (StableHlo.after hostOps0_1 (StableHlo.after hostOps0 (W0 m ρ c))) (Proc.devRef .tc main_v15) = _
  simp only [hostOps0_2, hostOps0_1, hostOps0]
  after_results
  try rfl

theorem W3_arg (b : Ref sig .tc) (hb : b = main_arg0 ∨ b = main_arg6 ∨ b = main_arg7 ∨ b = main_arg8) :
    W3 m ρ c (Proc.devRef .tc b) = m ((c : Thread nD τ).loc b) := by
  rcases hb with rfl | rfl | rfl | rfl
  all_goals
    show StableHlo.after hostOps0_2 (StableHlo.after hostOps0_1 (StableHlo.after hostOps0 (W0 m ρ c))) (Proc.devRef .tc _) = _
    simp only [hostOps0_2, hostOps0_1, hostOps0]
    after_results
    try rfl

/-! ## The second call's operands -/

theorem V7_v20 : (V7 m ρ c main_v20 : S32x256x1028.Idx → EReal)
    = pad S32x256x1028 ![0, 0, 4] ![0, 0, 0] ![0, 0, 0] ((dat0 (V3 m ρ) c).arrAt 3 cfg0.N : S32x256x1024.Idx → EReal)
        (sitofp (F := Ideal) .f32 (constantI S_ 32 0#32)) pads_S32x256x1024_S32x256x1028_000_000_400 h_S_ := by
  show StableHlo.after hostOps1_2 (StableHlo.after hostOps1_1 (StableHlo.after hostOps1 (W4 m ρ c))) (Proc.devRef .tc main_v20) = _
  simp only [hostOps1_2, hostOps1_1, hostOps1]
  after_results
  rw [show W4 m ρ c (Proc.devRef .tc main_v19) = (dat0 (V3 m ρ) c).arrAt 3 cfg0.N from W4_arr m ρ c 3]
  rfl

theorem V7_v21 : (V7 m ρ c main_v21 : S3x256x256.Idx → EReal)
    = wn2 (m ((c : Thread nD τ).loc main_arg4)) (m ((c : Thread nD τ).loc main_arg5)) := by
  show StableHlo.after hostOps1_2 (StableHlo.after hostOps1_1 (StableHlo.after hostOps1 (W4 m ρ c))) (Proc.devRef .tc main_v21) = _
  simp only [hostOps1_2, hostOps1_1, hostOps1]
  after_results
  rw [W4_of_ne m ρ c main_v15 (by decide), W3_v15]
  rfl

theorem V7_v22 : (V7 m ρ c main_v22 : S256x1.Idx → EReal)
    = shapeCast S256x1 (m ((c : Thread nD τ).loc main_arg6) : S256.Idx → EReal) shapeCasts_S256_S256x1 := by
  show StableHlo.after hostOps1_2 (StableHlo.after hostOps1_1 (StableHlo.after hostOps1 (W4 m ρ c))) (Proc.devRef .tc main_v22) = _
  simp only [hostOps1_2, hostOps1_1, hostOps1]
  after_results
  rw [W4_of_ne m ρ c main_arg6 (by decide), W3_arg m ρ c main_arg6 (by simp)]
  rfl

theorem V7_v23 : (V7 m ρ c main_v23 : S256x128.Idx → EReal)
    = shapeCast S256x128 (m ((c : Thread nD τ).loc main_arg7) : S256x128x1.Idx → EReal) shapeCasts_S256x128x1_S256x128 := by
  show StableHlo.after hostOps1_2 (StableHlo.after hostOps1_1 (StableHlo.after hostOps1 (W4 m ρ c))) (Proc.devRef .tc main_v23) = _
  simp only [hostOps1_2, hostOps1_1, hostOps1]
  after_results
  rw [W4_of_ne m ρ c main_arg7 (by decide), W3_arg m ρ c main_arg7 (by simp)]
  rfl

theorem V7_v24 : (V7 m ρ c main_v24 : S256x1.Idx → EReal)
    = shapeCast S256x1 (m ((c : Thread nD τ).loc main_arg8) : S256.Idx → EReal) shapeCasts_S256_S256x1 := by
  show StableHlo.after hostOps1_2 (StableHlo.after hostOps1_1 (StableHlo.after hostOps1 (W4 m ρ c))) (Proc.devRef .tc main_v24) = _
  simp only [hostOps1_2, hostOps1_1, hostOps1]
  after_results
  rw [W4_of_ne m ρ c main_arg8 (by decide), W3_arg m ρ c main_arg8 (by simp)]
  rfl

theorem V7_arg0 : (V7 m ρ c main_arg0 : S32x128x1024.Idx → EReal) = m ((c : Thread nD τ).loc main_arg0) := by
  show StableHlo.after hostOps1_2 (StableHlo.after hostOps1_1 (StableHlo.after hostOps1 (W4 m ρ c))) (Proc.devRef .tc main_arg0) = _
  simp only [hostOps1_2, hostOps1_1, hostOps1]
  after_results
  rw [W4_of_ne m ρ c main_arg0 (by decide), W3_arg m ρ c main_arg0 (by simp)]

/-! ## The operands read at an index -/

/-- A left pad by four along time, read at `(n, k, j)`: the operand four steps earlier, zero in the first four places. -/
theorem pad_left4_apply {C : ℕ} (x : (⟨3, ![32, C, 1024]⟩ : Shape).Idx → EReal)
    (h : (⟨3, ![32, C, 1024]⟩ : Shape).Pads ![0, 0, 4] ![0, 0, 0] ![0, 0, 0] ⟨3, ![32, C, 1028]⟩) (hu : 0 < S_.numel)
    (n : Fin 32) (k : Fin C) (j : Fin 1028) :
    pad ⟨3, ![32, C, 1028]⟩ ![0, 0, 4] ![0, 0, 0] ![0, 0, 0] x (sitofp (F := Ideal) .f32 (constantI S_ 32 0#32)) h hu (ix3 n k j)
      = Cert.Tcn.padl (fun k t => x (ix3 n k t)) k j := by
  unfold Cert.Tcn.padl
  by_cases h4 : 4 ≤ j.val
  · rw [dif_pos h4]
    refine PadRead.pad_inside ![0, 0, 4] ![0, 0, 0] ![0, 0, 0] (fun a => by fin_cases a <;> rfl) x _ h hu (ix3 n k j)
      (ix3 n k ⟨j.val - 4, by omega⟩) (fun a => ?_)
    fin_cases a
    · show n.val = 0 + n.val; omega
    · show k.val = 0 + k.val; omega
    · show j.val = 4 + (j.val - 4); omega
  · rw [dif_neg h4]
    refine (PadRead.pad_outside ![0, 0, 4] ![0, 0, 0] ![0, 0, 0] (fun a => by fin_cases a <;> rfl) x _ h hu (ix3 n k j) (2 : Fin 3)
      (Or.inl (by show j.val < 4; omega))).trans ?_
    show (((0#32 : BitVec 32).toInt : ℝ) : EReal) = 0
    simp

theorem V3_v16_apply (n : Fin 32) (k : Fin 128) (j : Fin 1028) :
    (V3 m ρ c main_v16 : S32x128x1028.Idx → EReal) (ix3 n k j)
      = Cert.Tcn.padl (fun k t => (m ((c : Thread nD τ).loc main_arg0) : S32x128x1024.Idx → EReal) (ix3 n k t)) k j := by
  rw [V3_v16]; exact pad_left4_apply _ _ _ n k j

theorem V7_v20_apply (n : Fin 32) (k : Fin 256) (j : Fin 1028) :
    (V7 m ρ c main_v20 : S32x256x1028.Idx → EReal) (ix3 n k j)
      = Cert.Tcn.padl (fun k t => ((dat0 (V3 m ρ) c).arrAt 3 cfg0.N : S32x256x1024.Idx → EReal) (ix3 n k t)) k j := by
  rw [V7_v20]; exact pad_left4_apply _ _ _ n k j

/-- A vector laid out as a column reads the vector. -/
theorem V3_v18_apply (o : Fin 256) :
    (V3 m ρ c main_v18 : S256x1.Idx → EReal) (ix2 o (0 : Fin 1)) = (m ((c : Thread nD τ).loc main_arg3) : S256.Idx → EReal) (ix1 o) := by
  rw [V3_v18]; exact Cert.Lib.Keepdims.shapeCast_a_a1_apply _ _ o 0

theorem V7_v22_apply (o : Fin 256) :
    (V7 m ρ c main_v22 : S256x1.Idx → EReal) (ix2 o (0 : Fin 1)) = (m ((c : Thread nD τ).loc main_arg6) : S256.Idx → EReal) (ix1 o) := by
  rw [V7_v22]; exact Cert.Lib.Keepdims.shapeCast_a_a1_apply _ _ o 0

theorem V7_v24_apply (o : Fin 256) :
    (V7 m ρ c main_v24 : S256x1.Idx → EReal) (ix2 o (0 : Fin 1)) = (m ((c : Thread nD τ).loc main_arg8) : S256.Idx → EReal) (ix1 o) := by
  rw [V7_v24]; exact Cert.Lib.Keepdims.shapeCast_a_a1_apply _ _ o 0

/-- The 1×1 projection's weights, a trailing unit axis dropped. -/
theorem V7_v23_apply (o : Fin 256) (k : Fin 128) :
    (V7 m ρ c main_v23 : S256x128.Idx → EReal) (ix2 o k) = (m ((c : Thread nD τ).loc main_arg7) : S256x128x1.Idx → EReal) (ix3 o k (0 : Fin 1)) := by
  rw [V7_v23]
  refine shapeCast_apply _ _ (ix2 o k) (ix3 o k (0 : Fin 1)) ?_
  rw [Shape.rowMajor_val_three, Shape.rowMajor_val_two]
  show (o.val * 128 + k.val) * 1 + 0 = o.val * 128 + k.val
  omega

end Cert.ReferenceIdeal.Host

end
-- ==== Proof.RefRegion0Pay.lean ====
/-
  The arithmetic of the first call's body, read entry by entry on the extended reals: three matrix products
  of a tap's weights against a slab of the padded signal, added in the order of the offsets 0, 2, 4 onto a zero
  start, then the bias column added along the lanes and the maximum with zero taken.
-/
import proofs.«153267_g2000506556625611_pallasbulk_77_11_alg».proof.Proof.Gen.ReferenceIdeal.Skeleton
import proofs.«153267_g2000506556625611_pallasbulk_77_11_alg».proof.Proof.LibPlainDot
import proofs.«153267_g2000506556625611_pallasbulk_77_11_alg».proof.Proof.LibKeepdims
import Idealize.ShloMosaic.Lib.ValueIdx
import Idealize.ShloMosaic.Lib.ValueLayout
import Idealize.ShloMosaic.PureOps.Ideal.Laws

noncomputable section

open scoped BigOperators

namespace Cert.ReferenceIdeal.Region0

open Cert.ReferenceIdeal Cert.ReferenceIdeal.Gen Idealize.ShloMosaic Idealize.ShloMosaic.ValueIdx

/-- One tap: the product of a tap's weights (a [1,256,128] slab with its unit axis dropped) and a [1,128,1024] slab
    of the signal (likewise), into the zero accumulator, at row o and column t, is the sum over the input channels. -/
theorem tapProduct_apply (w : Vec Ideal S1x256x128 .f32) (x : Vec Ideal S1x128x1024 .f32) (o : Fin 256) (t : Fin 1024) :
    matmul (F := Ideal) (φ₁ := .f32) (φ₂ := .f32) dot_S256x128_S128x1024_S256x1024_1_0_0_1_n_n none
        (shapeCast S256x128 w shapeCasts_S1x256x128_S256x128 : FVec Ideal S256x128 .f32)
        (shapeCast S128x1024 x shapeCasts_S1x128x1024_S128x1024 : FVec Ideal S128x1024 .f32)
        (constant (F := Ideal) S256x1024 .f32 0x00000000#32) (ix2 o t)
      = ∑ k : Fin 128, w (ix3 (0 : Fin 1) o k) * x (ix3 (0 : Fin 1) k t) := by
  refine (Cert.Lib.PlainDot.matmul_plain_zero_apply (M := 256) (K := 128) (N := 1024) (φ₁ := .f32) (φ₂ := .f32) none
    (shapeCast S256x128 w shapeCasts_S1x256x128_S256x128) (shapeCast S128x1024 x shapeCasts_S1x128x1024_S128x1024) o t).trans ?_
  refine Finset.sum_congr rfl fun k _ => ?_
  rw [shapeCast_1ab_ab_apply, shapeCast_1ab_ab_apply]

/-- The body's value at (0, o, t): the three taps' sums added in the order of the offsets, plus the bias of row o,
    cut at zero from below. -/
theorem k0_pay1_apply (v1 : Vec Ideal S1x128x1024 .f32) (v3 : Vec Ideal S1x256x128 .f32) (v7 : Vec Ideal S1x128x1024 .f32)
    (v9 : Vec Ideal S1x256x128 .f32) (v13 : Vec Ideal S1x128x1024 .f32) (v15 : Vec Ideal S1x256x128 .f32)
    (v19 : Vec Ideal S256x1 .f32) (o : Fin 256) (t : Fin 1024) :
    k0_pay1 (F := Ideal) v1 v3 v7 v9 v13 v15 v19 (ix3 (0 : Fin 1) o t)
      = max ((((∑ k : Fin 128, v3 (ix3 (0 : Fin 1) o k) * v1 (ix3 (0 : Fin 1) k t))
              + (∑ k : Fin 128, v9 (ix3 (0 : Fin 1) o k) * v7 (ix3 (0 : Fin 1) k t)))
              + (∑ k : Fin 128, v15 (ix3 (0 : Fin 1) o k) * v13 (ix3 (0 : Fin 1) k t)))
            + v19 (ix2 o (0 : Fin 1))) 0 := by
  unfold k0_pay1
  refine (shapeCast_ab_1ab_apply _ _ (0 : Fin 1) o t).trans ?_
  refine (maximumf_apply _ _ (ix2 o t)).trans ?_
  refine congrArg₂ max ?_ Ideal.ofBits_zero_f32
  refine (addf_apply _ _ (ix2 o t)).trans ?_
  refine congrArg₂ (· + ·) ?_ ?_
  · refine (addf_apply _ _ (ix2 o t)).trans ?_
    refine congrArg₂ (· + ·) ?_ (tapProduct_apply v15 v13 o t)
    refine (addf_apply _ _ (ix2 o t)).trans ?_
    refine congrArg₂ (· + ·) ?_ (tapProduct_apply v9 v7 o t)
    refine (addf_apply _ _ (ix2 o t)).trans ?_
    refine (congrArg₂ (· + ·) Ideal.ofBits_zero_f32 (tapProduct_apply v3 v1 o t)).trans (zero_add _)
  · refine (Cert.Lib.Keepdims.broadcastTo_a1_ab_apply _ _ o t).trans ?_
    rw [shapeCast_self]

end Cert.ReferenceIdeal.Region0
end
-- ==== Proof.RefRegion0.lean ====
/-
  The first call of the two-call program, read as a value on the extended reals: what its output array holds
  after the call, as a function of the three arrays it is given. The body at one grid point leaves, at row o and
  column t of its block, the first layer off the padded signal (`Cert.Tcn.hiddenPad`); the output's blocks are the
  32 batch elements, each written by its own point, so the array ends holding the first layer of every batch element.
-/
import proofs.«153267_g2000506556625611_pallasbulk_77_11_alg».proof.Proof.Gen.ReferenceIdeal.Frame
import proofs.«153267_g2000506556625611_pallasbulk_77_11_alg».proof.Proof.Spec
import proofs.«153267_g2000506556625611_pallasbulk_77_11_alg».proof.Proof.RefRegion0Pay
import Idealize.ShloMosaic.Lib.ValueIdx
import Idealize.ShloMosaic.Lib.Pipeline.Value

noncomputable section

open scoped BigOperators

namespace Cert.ReferenceIdeal.Region0

open Cert.ReferenceIdeal Cert.ReferenceIdeal.Gen Idealize.ShloMosaic Idealize.ShloMosaic.ValueIdx
open Idealize.ShloMosaic.TcCoe
open Idealize.ShloMosaic.Pipeline (Dat Cfg Window)

/-! ## The body's loads, read at an index -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The slab of the padded signal at column offset 0. -/
theorem ld_slab0 (x0 : Vec Ideal S1x128x1028 .f32) (k : Fin 128) (t : Fin 1024) :
    View.ld x0 r0_0 (ix3 (0 : Fin 1) k t) = x0 (ix3 (0 : Fin 1) k (⟨t.val, by omega⟩ : Fin 1028)) := by
  show x0 (r0_0.idx (ix3 (0 : Fin 1) k t)) = _
  refine congrArg x0 (funext fun a => Fin.ext ?_)
  match a with
  | ⟨0, _⟩ => rfl
  | ⟨1, _⟩ => show 0 + 1 * k.val = k.val; omega
  | ⟨2, _⟩ => show 0 + 1 * t.val = t.val; omega

/-- The slab at column offset 2. -/
theorem ld_slab2 (x0 : Vec Ideal S1x128x1028 .f32) (k : Fin 128) (t : Fin 1024) :
    View.ld x0 r0_2 (ix3 (0 : Fin 1) k t) = x0 (ix3 (0 : Fin 1) k (⟨t.val + 2, by omega⟩ : Fin 1028)) := by
  show x0 (r0_2.idx (ix3 (0 : Fin 1) k t)) = _
  refine congrArg x0 (funext fun a => Fin.ext ?_)
  match a with
  | ⟨0, _⟩ => rfl
  | ⟨1, _⟩ => show 0 + 1 * k.val = k.val; omega
  | ⟨2, _⟩ => show 2 + 1 * t.val = t.val + 2; omega

/-- The slab at column offset 4. -/
theorem ld_slab4 (x0 : Vec Ideal S1x128x1028 .f32) (k : Fin 128) (t : Fin 1024) :
    View.ld x0 r0_4 (ix3 (0 : Fin 1) k t) = x0 (ix3 (0 : Fin 1) k (⟨t.val + 4, by omega⟩ : Fin 1028)) := by
  show x0 (r0_4.idx (ix3 (0 : Fin 1) k t)) = _
  refine congrArg x0 (funext fun a => Fin.ext ?_)
  match a with
  | ⟨0, _⟩ => rfl
  | ⟨1, _⟩ => show 0 + 1 * k.val = k.val; omega
  | ⟨2, _⟩ => show 4 + 1 * t.val = t.val + 4; omega

/-- The first tap's weights. -/
theorem ld_tap0 (x1 : Vec Ideal S3x256x128 .f32) (o : Fin 256) (k : Fin 128) :
    View.ld x1 r0_1 (ix3 (0 : Fin 1) o k) = x1 (ix3 (0 : Fin 3) o k) := by
  show x1 (r0_1.idx (ix3 (0 : Fin 1) o k)) = _
  refine congrArg x1 (funext fun a => Fin.ext ?_)
  match a with
  | ⟨0, _⟩ => rfl
  | ⟨1, _⟩ => show 0 + 1 * o.val = o.val; omega
  | ⟨2, _⟩ => show 0 + 1 * k.val = k.val; omega

/-- The second tap's weights. -/
theorem ld_tap1 (x1 : Vec Ideal S3x256x128 .f32) (o : Fin 256) (k : Fin 128) :
    View.ld x1 r0_3 (ix3 (0 : Fin 1) o k) = x1 (ix3 (1 : Fin 3) o k) := by
  show x1 (r0_3.idx (ix3 (0 : Fin 1) o k)) = _
  refine congrArg x1 (funext fun a => Fin.ext ?_)
  match a with
  | ⟨0, _⟩ => rfl
  | ⟨1, _⟩ => show 0 + 1 * o.val = o.val; omega
  | ⟨2, _⟩ => show 0 + 1 * k.val = k.val; omega

/-- The third tap's weights. -/
theorem ld_tap2 (x1 : Vec Ideal S3x256x128 .f32) (o : Fin 256) (k : Fin 128) :
    View.ld x1 r0_5 (ix3 (0 : Fin 1) o k) = x1 (ix3 (2 : Fin 3) o k) := by
  show x1 (r0_5.idx (ix3 (0 : Fin 1) o k)) = _
  refine congrArg x1 (funext fun a => Fin.ext ?_)
  match a with
  | ⟨0, _⟩ => rfl
  | ⟨1, _⟩ => show 0 + 1 * o.val = o.val; omega
  | ⟨2, _⟩ => show 0 + 1 * k.val = k.val; omega

/-! ## The body's block -/

/-- What the body leaves at row o, column t of its block: the first layer off the padded signal. -/
theorem out0_3_apply (x0 : Vec Ideal S1x128x1028 .f32) (x1 : Vec Ideal S3x256x128 .f32) (x2 : Vec Ideal S256x1 .f32) (o : Fin 256) (t : Fin 1024) :
    out0_3 (F := Ideal) x0 x1 x2 (ix3 (0 : Fin 1) o t)
      = Cert.Tcn.hiddenPad (fun o k => x1 (ix3 (0 : Fin 3) o k)) (fun o k => x1 (ix3 (1 : Fin 3) o k)) (fun o k => x1 (ix3 (2 : Fin 3) o k)) (fun o => x2 (ix2 o (0 : Fin 1))) (fun k j => x0 (ix3 (0 : Fin 1) k j)) o t := by
  unfold out0_3
  rw [View.canon_unit_zero zeros3]
  refine (k0_pay1_apply _ _ _ _ _ _ _ o t).trans ?_
  unfold Cert.Tcn.hiddenPad Cert.Tcn.convPad
  refine congrArg₂ max (congrArg₂ (· + ·) (congrArg₂ (· + ·) (congrArg₂ (· + ·) ?_ ?_) ?_) ?_) rfl
  · exact Finset.sum_congr rfl fun k _ => congrArg₂ (· * ·) (ld_tap0 x1 o k) (ld_slab0 x0 k t)
  · exact Finset.sum_congr rfl fun k _ => congrArg₂ (· * ·) (ld_tap1 x1 o k) (ld_slab2 x0 k t)
  · exact Finset.sum_congr rfl fun k _ => congrArg₂ (· * ·) (ld_tap2 x1 o k) (ld_slab4 x0 k t)
  · exact congrFun (View.ld_unit_zero (S := S256x1) zeros2 _ x2) (ix2 o (0 : Fin 1))

/-- The body's block at any of its indices: the unit batch coordinate is zero. -/
theorem out0_3_block (x0 : Vec Ideal S1x128x1028 .f32) (x1 : Vec Ideal S3x256x128 .f32) (x2 : Vec Ideal S256x1 .f32) (j : S1x256x1024.Idx) :
    out0_3 (F := Ideal) x0 x1 x2 j
      = Cert.Tcn.hiddenPad (fun o k => x1 (ix3 (0 : Fin 3) o k)) (fun o k => x1 (ix3 (1 : Fin 3) o k)) (fun o k => x1 (ix3 (2 : Fin 3) o k)) (fun o => x2 (ix2 o (0 : Fin 1))) (fun k j => x0 (ix3 (0 : Fin 1) k j)) (j 1) (j 2) := by
  obtain ⟨u, o, t, rfl⟩ : ∃ (u : Fin 1) (o : Fin 256) (t : Fin 1024), j = ix3 u o t := ⟨j 0, j 1, j 2, eq_ix3 j⟩
  obtain rfl : u = 0 := Subsingleton.elim _ _
  exact out0_3_apply x0 x1 x2 o t

/-! ## From the blocks to the array -/

/-- The first layer of every batch element, as one function of the three arrays: taps `W`, bias column `B`, padded signal `X`. -/
abbrev firstLayer (W : S3x256x128.Idx → EReal) (B : S256x1.Idx → EReal) (X : S32x128x1028.Idx → EReal) : S32x256x1024.Idx → EReal :=
  fun i => Cert.Tcn.hiddenPad (fun o k => W (ix3 (0 : Fin 3) o k)) (fun o k => W (ix3 (1 : Fin 3) o k)) (fun o k => W (ix3 (2 : Fin 3) o k))
    (fun o => B (ix2 o (0 : Fin 1))) (fun k j => X (ix3 (i 0 : Fin 32) k j)) (i 1 : Fin 256) (i 2 : Fin 1024)

/-- The printed index maps, decided over the grid: the signal's block moves with the output's along the batch axis, the taps and the
    bias stay whole, and the output's block index on the batch axis is its point. -/
theorem index_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) ≤ 31 ∧ win0_3.index t (1 : Fin 3) = 0 ∧ win0_3.index t (2 : Fin 3) = 0 :=
  (by decide +kernel : ∀ t : Fin grid0.N, _)

/-- Every batch element is some point's block. -/
theorem index_onto : ∀ q : Fin 32, ∃ t : Fin cfg0.N, win0_3.index t = ![q.val, 0, 0] :=
  (by decide +kernel : ∀ q : Fin 32, ∃ t : Fin grid0.N, win0_3.index t = ![q.val, 0, 0])

section
variable (V : (c : Dev nD) → (b : Ref sig .tc) → Buf (Elt Ideal) ((c : Thread nD τ).loc b))

/-- The taps' block is the whole array. -/
theorem tapsBlock_apply (c : Dev nD) (t : Fin cfg0.N) (a : Fin 3) (o : Fin 256) (k : Fin 128) :
    (iblk0 (F := Ideal) V c 1 t : S3x256x128.Idx → EReal) (ix3 a o k) = (V c main_v17 : S3x256x128.Idx → EReal) (ix3 a o k) := by
  obtain ⟨-, -, -, e10, e11, e12, -, -, -, -, -⟩ := index_facts t
  show (V c main_v17 : S3x256x128.Idx → EReal) (((cfg0.win 1).blk t).view.emb (ix3 a o k)) = _
  refine congrArg (V c main_v17 : S3x256x128.Idx → EReal) (funext fun b => Fin.ext ?_)
  match b with
  | ⟨0, _⟩ => show win0_1.index t (0 : Fin 3) * 3 + 1 * a.val = a.val; omega
  | ⟨1, _⟩ => show win0_1.index t (1 : Fin 3) * 256 + 1 * o.val = o.val; omega
  | ⟨2, _⟩ => show win0_1.index t (2 : Fin 3) * 128 + 1 * k.val = k.val; omega

/-- The bias column's block is the whole array. -/
theorem biasBlock_apply (c : Dev nD) (t : Fin cfg0.N) (o : Fin 256) (u : Fin 1) :
    (iblk0 (F := Ideal) V c 2 t : S256x1.Idx → EReal) (ix2 o u) = (V c main_v18 : S256x1.Idx → EReal) (ix2 o u) := by
  obtain ⟨-, -, -, -, -, -, e20, e21, -, -, -⟩ := index_facts t
  show (V c main_v18 : S256x1.Idx → EReal) (((cfg0.win 2).blk t).view.emb (ix2 o u)) = _
  refine congrArg (V c main_v18 : S256x1.Idx → EReal) (funext fun b => Fin.ext ?_)
  match b with
  | ⟨0, _⟩ => show win0_2.index t (0 : Fin 2) * 256 + 1 * o.val = o.val; omega
  | ⟨1, _⟩ => show win0_2.index t (1 : Fin 2) * 1 + 1 * u.val = u.val; omega

/-- The signal's block at a point is the batch element of the output's block index. -/
theorem signalBlock_apply (c : Dev nD) (t : Fin cfg0.N) (n : Fin 32) (hn : n.val = win0_3.index t (0 : Fin 3)) (k : Fin 128) (j : Fin 1028) :
    (iblk0 (F := Ideal) V c 0 t : S1x128x1028.Idx → EReal) (ix3 (0 : Fin 1) k j) = (V c main_v16 : S32x128x1028.Idx → EReal) (ix3 n k j) := by
  obtain ⟨e00, e01, e02, -, -, -, -, -, -, -, -⟩ := index_facts t
  show (V c main_v16 : S32x128x1028.Idx → EReal) (((cfg0.win 0).blk t).view.emb (ix3 (0 : Fin 1) k j)) = _
  refine congrArg (V c main_v16 : S32x128x1028.Idx → EReal) (funext fun b => Fin.ext ?_)
  match b with
  | ⟨0, _⟩ => show win0_0.index t (0 : Fin 3) * 1 + 1 * 0 = n.val; omega
  | ⟨1, _⟩ => show win0_0.index t (1 : Fin 3) * 128 + 1 * k.val = k.val; omega
  | ⟨2, _⟩ => show win0_0.index t (2 : Fin 3) * 1028 + 1 * j.val = j.val; omega

/-- What point `t` writes back is block `t` of the first layer of the arrays the call finds. -/
theorem flushed_eq (c : Dev nD) (t : Fin cfg0.N) :
    (dat0 (F := Ideal) V c).flushed 3 t
      = ((cfg0.win 3).blk t).view.read (Elt Ideal) (firstLayer (V c main_v17) (V c main_v18) (V c main_v16)) := by
  show (cfg0.win 3).cut (grid0.coords t) ((dat0 (F := Ideal) V c).after 3 t) = _
  rw [after0_3]
  obtain ⟨-, -, -, -, -, -, -, -, e3le, e31, e32⟩ := index_facts t
  funext j
  show out0_3 (F := Ideal) (iblk0 V c 0 t) (iblk0 V c 1 t) (iblk0 V c 2 t) j
    = firstLayer (V c main_v17) (V c main_v18) (V c main_v16) (((cfg0.win 3).blk t).view.emb j)
  refine (out0_3_block _ _ _ j).trans ?_
  have h0 : ((((cfg0.win 3).blk t).view.emb j : S32x256x1024.Idx) 0 : Fin 32).val = win0_3.index t (0 : Fin 3) := by
    show win0_3.index t (0 : Fin 3) * 1 + 1 * (j 0).val = _
    have hj : (j 0).val < 1 := (j 0).isLt
    omega
  have h1 : (j 1 : Fin 256) = (((cfg0.win 3).blk t).view.emb j : S32x256x1024.Idx) 1 := by
    apply Fin.ext
    show (j 1).val = win0_3.index t (1 : Fin 3) * 256 + 1 * (j 1).val
    omega
  have h2 : (j 2 : Fin 1024) = (((cfg0.win 3).blk t).view.emb j : S32x256x1024.Idx) 2 := by
    apply Fin.ext
    show (j 2).val = win0_3.index t (2 : Fin 3) * 1024 + 1 * (j 2).val
    omega
  show Cert.Tcn.hiddenPad _ _ _ _ _ (j 1 : Fin 256) (j 2 : Fin 1024) = Cert.Tcn.hiddenPad _ _ _ _ _ _ _
  rw [h1, h2]
  congr 1
  · funext o k; exact tapsBlock_apply V c t 0 o k
  · funext o k; exact tapsBlock_apply V c t 1 o k
  · funext o k; exact tapsBlock_apply V c t 2 o k
  · funext o; exact biasBlock_apply V c t o 0
  · funext k i; exact signalBlock_apply V c t _ h0 k i

/-- An index of the array is in point `t`'s block iff each coordinate is in the block's range on its axis. -/
theorem mem_blk (t : Fin cfg0.N) (i : S32x256x1024.Idx) :
    i ∈ ((cfg0.win 3).blk t).view.set ↔ ∀ a : Fin 3, win0_3.index t a * S1x256x1024.size a ≤ (i a).val ∧ (i a).val < win0_3.index t a * S1x256x1024.size a + S1x256x1024.size a := by
  show i ∈ ((View.whole main_v19).slice (win0_3.rect t)).set ↔ _
  rw [View.set_slice_whole, Rect.mem_set_unit]
  exact Iff.rfl

/-- Every index of the array is in the block of the point of its batch coordinate. -/
theorem covered (i : S32x256x1024.Idx) :
    ∃ t : Fin cfg0.N, (cfg0.win 3).flush t = true ∧ i ∈ ((cfg0.win 3).blk t).view.set := by
  have hi0 : (i 0).val < 32 := (i 0).isLt
  have hi1 : (i 1).val < 256 := (i 1).isLt
  have hi2 : (i 2).val < 1024 := (i 2).isLt
  obtain ⟨t, ht⟩ := index_onto ⟨(i 0).val, hi0⟩
  have q0 : win0_3.index t (0 : Fin 3) = (i 0).val := congrFun ht 0
  have q1 : win0_3.index t (1 : Fin 3) = 0 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 1024 ≤ (i 2).val ∧ (i 2).val < win0_3.index t (2 : Fin 3) * 1024 + 1024; omega

/-- The output array after the call: the first layer of the arrays the call finds. -/
theorem region0_final (c : Dev nD) :
    (dat0 (F := Ideal) V c).arrAt 3 cfg0.N = firstLayer (V c main_v17) (V c main_v18) (V c main_v16) :=
  (dat0 (F := Ideal) V c).arrAt_eq_of_cover 3 (firstLayer (V c main_v17) (V c main_v18) (V c main_v16))
    (fun t _ => flushed_eq V c t) covered

end

/-- The output array after the call, entry by entry: batch element n, row o, column t holds the first layer off
    batch element n of the padded signal. -/
theorem region0_array (V : (c : Dev nD) → (b : Ref sig .tc) → Buf (Elt Ideal) ((c : Thread nD τ).loc b)) (c : Dev nD) (n : Fin 32) (o : Fin 256) (t : Fin 1024) :
    ((dat0 (F := Ideal) V c).arrAt 3 cfg0.N : S32x256x1024.Idx → EReal) (ix3 n o t)
      = Cert.Tcn.hiddenPad (fun o k => (V c main_v17 : S3x256x128.Idx → EReal) (ix3 (0 : Fin 3) o k)) (fun o k => (V c main_v17 : S3x256x128.Idx → EReal) (ix3 (1 : Fin 3) o k)) (fun o k => (V c main_v17 : S3x256x128.Idx → EReal) (ix3 (2 : Fin 3) o k))
          (fun o => (V c main_v18 : S256x1.Idx → EReal) (ix2 o (0 : Fin 1))) (fun k j => (V c main_v16 : S32x128x1028.Idx → EReal) (ix3 n k j)) o t :=
  congrFun (region0_final V c) (ix3 n o t)

end Cert.ReferenceIdeal.Region0
end
-- ==== Proof.RefRegion1.lean ====
/-
  The reference's second call, read: what its output array holds after the region, as one function of the six
  arrays the region finds. At a point of the grid the body computes, entry by entry, the second dilated
  convolution off the padded first layer (three matrix products at column offsets 0, 2, 4, added in that order
  into zero), the bias, the ramp, the 1×1 projection of the input with its bias, their sum and the last ramp:
  `Cert.Tcn.blockPad` of the blocks (`out1_6_apply`). Each point's block is one batch element, the points' blocks
  cover the array, so the array is `blockPad` of batch element `n` at `(n, o, t)` (`region1_array`).
-/
import proofs.«153267_g2000506556625611_pallasbulk_77_11_alg».proof.Proof.Gen.ReferenceIdeal.Frame
import proofs.«153267_g2000506556625611_pallasbulk_77_11_alg».proof.Proof.Spec
import proofs.«153267_g2000506556625611_pallasbulk_77_11_alg».proof.Proof.LibPlainDot
import proofs.«153267_g2000506556625611_pallasbulk_77_11_alg».proof.Proof.LibKeepdims

noncomputable section

open scoped BigOperators

namespace Cert.ReferenceIdeal.Region1

open Cert.ReferenceIdeal Cert.ReferenceIdeal.Gen Idealize.ShloMosaic Idealize.ShloMosaic.TcCoe Idealize.ShloMosaic.ValueIdx
open Idealize.ShloMosaic.Pipeline (Dat)

/-! ## The body's loads at an index -/

theorem hz3 : (![0, 0, 0] : Fin 3 → Nat) = fun _ => 0 := funext fun a => by fin_cases a <;> rfl

/-- The slab of the padded signal at column offset 0 reads, at `(0, k, t)`, the signal at column `t`. -/
theorem idx_slab0 (k : Fin 256) (t : Fin 1024) :
    r1_0.idx (ix3 (0 : Fin 1) k t) = ix3 (0 : Fin 1) k (⟨t.val, by omega⟩ : Fin 1028) := by
  refine funext fun a => Fin.ext ?_
  match a with
  | ⟨0, _⟩ => rfl
  | ⟨1, _⟩ => show 0 + 1 * k.val = k.val; omega
  | ⟨2, _⟩ => show 0 + 1 * t.val = t.val; omega

/-- The slab at column offset 2 reads the signal at column `t + 2`. -/
theorem idx_slab2 (k : Fin 256) (t : Fin 1024) :
    r1_2.idx (ix3 (0 : Fin 1) k t) = ix3 (0 : Fin 1) k (⟨t.val + 2, by omega⟩ : Fin 1028) := by
  refine funext fun a => Fin.ext ?_
  match a with
  | ⟨0, _⟩ => rfl
  | ⟨1, _⟩ => show 0 + 1 * k.val = k.val; omega
  | ⟨2, _⟩ => show 2 + 1 * t.val = t.val + 2; omega

/-- The slab at column offset 4 reads the signal at column `t + 4`. -/
theorem idx_slab4 (k : Fin 256) (t : Fin 1024) :
    r1_4.idx (ix3 (0 : Fin 1) k t) = ix3 (0 : Fin 1) k (⟨t.val + 4, by omega⟩ : Fin 1028) := by
  refine funext fun a => Fin.ext ?_
  match a with
  | ⟨0, _⟩ => rfl
  | ⟨1, _⟩ => show 0 + 1 * k.val = k.val; omega
  | ⟨2, _⟩ => show 4 + 1 * t.val = t.val + 4; omega

/-- The three taps' matrices are the three leading slices of the stacked weights. -/
theorem idx_tap0 (o k : Fin 256) : r1_1.idx (ix3 (0 : Fin 1) o k) = ix3 (0 : Fin 3) o k := by
  refine funext fun a => Fin.ext ?_
  match a with
  | ⟨0, _⟩ => rfl
  | ⟨1, _⟩ => show 0 + 1 * o.val = o.val; omega
  | ⟨2, _⟩ => show 0 + 1 * k.val = k.val; omega

theorem idx_tap1 (o k : Fin 256) : r1_3.idx (ix3 (0 : Fin 1) o k) = ix3 (1 : Fin 3) o k := by
  refine funext fun a => Fin.ext ?_
  match a with
  | ⟨0, _⟩ => rfl
  | ⟨1, _⟩ => show 0 + 1 * o.val = o.val; omega
  | ⟨2, _⟩ => show 0 + 1 * k.val = k.val; omega

theorem idx_tap2 (o k : Fin 256) : r1_5.idx (ix3 (0 : Fin 1) o k) = ix3 (2 : Fin 3) o k := by
  refine funext fun a => Fin.ext ?_
  match a with
  | ⟨0, _⟩ => rfl
  | ⟨1, _⟩ => show 0 + 1 * o.val = o.val; omega
  | ⟨2, _⟩ => show 0 + 1 * k.val = k.val; omega

/-- The bias columns, the projection and the input block are read whole. -/
theorem idx_col (o : Fin 256) : r1_6.idx (ix2 o (0 : Fin 1)) = ix2 o (0 : Fin 1) := by
  refine funext fun a => Fin.ext ?_
  match a with
  | ⟨0, _⟩ => show 0 + 1 * o.val = o.val; omega
  | ⟨1, _⟩ => rfl

theorem idx_proj (o : Fin 256) (k : Fin 128) : r1_7.idx (ix2 o k) = ix2 o k := by
  refine funext fun a => Fin.ext ?_
  match a with
  | ⟨0, _⟩ => show 0 + 1 * o.val = o.val; omega
  | ⟨1, _⟩ => show 0 + 1 * k.val = k.val; omega

theorem idx_input (k : Fin 128) (t : Fin 1024) : r1_8.idx (ix3 (0 : Fin 1) k t) = ix3 (0 : Fin 1) k t := by
  refine funext fun a => Fin.ext ?_
  match a with
  | ⟨0, _⟩ => rfl
  | ⟨1, _⟩ => show 0 + 1 * k.val = k.val; omega
  | ⟨2, _⟩ => show 0 + 1 * t.val = t.val; omega

/-! ## The body's matrix products at an entry -/

/-- A 256×256 by 256×1024 product into the zero accumulator. -/
theorem mm256_apply (A : FVec Ideal S256x256 .f32) (B : FVec Ideal S256x1024 .f32) (o : Fin 256) (t : Fin 1024) :
    matmul dot_S256x256_S256x1024_S256x1024_1_0_0_1_n_n none A B (constant S256x1024 .f32 0x00000000#32) (ix2 o t)
      = ∑ k : Fin 256, A (ix2 o k) * B (ix2 k t) :=
  Cert.Lib.PlainDot.matmul_plain_zero_apply (M := 256) (K := 256) (N := 1024) none A B o t

/-- A 256×128 by 128×1024 product into the zero accumulator. -/
theorem mm128_apply (A : FVec Ideal S256x128 .f32) (B : FVec Ideal S128x1024 .f32) (o : Fin 256) (t : Fin 1024) :
    matmul dot_S256x128_S128x1024_S256x1024_1_0_0_1_n_n none A B (constant S256x1024 .f32 0x00000000#32) (ix2 o t)
      = ∑ k : Fin 128, A (ix2 o k) * B (ix2 k t) :=
  Cert.Lib.PlainDot.matmul_plain_zero_apply (M := 256) (K := 128) (N := 1024) none A B o t

/-! ## The body's arithmetic at an entry -/

/-- The projection's matrix passes through a cast to its own shape. -/
theorem pay3_eq (v25 : Vec Ideal S256x128 .f32) : k1_pay3 (F := Ideal) v25 = v25 := by
  unfold k1_pay3
  exact shapeCast_self _ _

/-- The input block with its leading unit axis dropped. -/
theorem pay4_apply (v27 : Vec Ideal S1x128x1024 .f32) (k : Fin 128) (t : Fin 1024) :
    k1_pay4 (F := Ideal) v27 (ix2 k t) = v27 (ix3 (0 : Fin 1) k t) := by
  unfold k1_pay4
  exact shapeCast_1ab_ab_apply _ _ k t

/-- The second convolution: three products added in order into zero, the bias column, and the ramp. -/
theorem pay2_apply (v1 : Vec Ideal S1x256x1024 .f32) (v3 : Vec Ideal S1x256x256 .f32) (v7 : Vec Ideal S1x256x1024 .f32)
    (v9 : Vec Ideal S1x256x256 .f32) (v13 : Vec Ideal S1x256x1024 .f32) (v15 : Vec Ideal S1x256x256 .f32)
    (v19 : Vec Ideal S256x1 .f32) (o : Fin 256) (t : Fin 1024) :
    k1_pay2 (F := Ideal) v1 v3 v7 v9 v13 v15 v19 (ix2 o t)
      = max ((((∑ k : Fin 256, v3 (ix3 (0 : Fin 1) o k) * v1 (ix3 (0 : Fin 1) k t))
              + (∑ k : Fin 256, v9 (ix3 (0 : Fin 1) o k) * v7 (ix3 (0 : Fin 1) k t)))
              + (∑ k : Fin 256, v15 (ix3 (0 : Fin 1) o k) * v13 (ix3 (0 : Fin 1) k t)))
              + v19 (ix2 o (0 : Fin 1))) 0 := by
  unfold k1_pay2
  simp only [maximumf_apply, addf_apply, broadcast_apply]
  rw [mm256_apply, mm256_apply, mm256_apply, Cert.Lib.Keepdims.broadcastTo_a1_ab_apply, shapeCast_self]
  simp only [shapeCast_1ab_ab_apply]
  show max ((((Ideal.ofBits .f32 0x00000000#32 + _) + _) + _) + _) (Ideal.ofBits .f32 0x00000000#32) = _
  rw [Ideal.ofBits_zero_f32, zero_add]

/-- The residual joined to the convolution, and the last ramp. -/
theorem pay1_apply (v24 : FVec Ideal S256x1024 .f32) (v26 : FVec Ideal S256x128 .f32) (v28 : FVec Ideal S128x1024 .f32)
    (v30 : Vec Ideal S256x1 .f32) (o : Fin 256) (t : Fin 1024) :
    k1_pay1 (F := Ideal) v24 v26 v28 v30 (ix3 (0 : Fin 1) o t)
      = max (v24 (ix2 o t) + ((∑ k : Fin 128, v26 (ix2 o k) * v28 (ix2 k t)) + v30 (ix2 o (0 : Fin 1)))) 0 := by
  unfold k1_pay1
  refine (shapeCast_ab_1ab_apply _ _ (0 : Fin 1) o t).trans ?_
  simp only [maximumf_apply, addf_apply, broadcast_apply]
  rw [mm128_apply, Cert.Lib.Keepdims.broadcastTo_a1_ab_apply, shapeCast_self]
  show max _ (Ideal.ofBits .f32 0x00000000#32) = _
  rw [Ideal.ofBits_zero_f32]

/-! ## What the body leaves in the output block -/

theorem out1_6_apply (x0 : Vec Ideal S1x256x1028 .f32) (x1 : Vec Ideal S3x256x256 .f32) (x2 : Vec Ideal S256x1 .f32) (x3 : Vec Ideal S1x128x1024 .f32) (x4 : Vec Ideal S256x128 .f32) (x5 : Vec Ideal S256x1 .f32) (o : Fin 256) (t : Fin 1024) :
    out1_6 (F := Ideal) x0 x1 x2 x3 x4 x5 (ix3 (0 : Fin 1) o t)
      = Cert.Tcn.blockPad (fun o k => x1 (ix3 (0 : Fin 3) o k)) (fun o k => x1 (ix3 (1 : Fin 3) o k)) (fun o k => x1 (ix3 (2 : Fin 3) o k)) (fun o => x2 (ix2 o (0 : Fin 1)))
          (fun o k => x4 (ix2 o k)) (fun o => x5 (ix2 o (0 : Fin 1))) (fun k j => x0 (ix3 (0 : Fin 1) k j)) (fun k t => x3 (ix3 (0 : Fin 1) k t)) o t := by
  unfold out1_6
  rw [View.canon_unit_zero hz3]
  refine (pay1_apply _ _ _ _ o t).trans ?_
  rw [pay2_apply, pay3_eq]
  unfold Cert.Tcn.blockPad Cert.Tcn.convPad Cert.Tcn.mm
  simp only [pay4_apply, View.ld]
  simp only [idx_slab0, idx_slab2, idx_slab4, idx_tap0, idx_tap1, idx_tap2, idx_col, idx_proj, idx_input]

/-! ## From blocks to the array -/

section Array

variable (V : (c : Dev nD) → (b : Ref sig .tc) → Buf (Elt Ideal) ((c : Thread nD τ).loc b))

/-- The printed index maps over the grid: the padded first layer, the input and the output move with the
    point along the batch axis; the weights, the projection and the bias columns stay. -/
theorem idx_facts : ∀ t : Fin cfg1.N,
    win1_0.index t (0 : Fin 3) = t.val ∧ win1_0.index t (1 : Fin 3) = 0 ∧ win1_0.index t (2 : Fin 3) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 3) = t.val ∧ win1_6.index t (1 : Fin 3) = 0 ∧ win1_6.index t (2 : Fin 3) = 0 :=
  (by decide +kernel : ∀ t : Fin grid1.N, _)

theorem lt32 (t : Fin cfg1.N) : t.val < 32 := Nat.lt_of_lt_of_eq t.isLt N_1

/-- The padded first layer's block at point `t` is batch element `t` of its array. -/
theorem iblk_sig (c : Dev nD) (t : Fin cfg1.N) (k : Fin 256) (j : Fin 1028) :
    (iblk1 V c 0 t : Vec Ideal S1x256x1028 .f32) (ix3 (0 : Fin 1) k j)
      = (V c main_v20 : S32x256x1028.Idx → EReal) (ix3 (⟨t.val, lt32 t⟩ : Fin 32) k j) := by
  obtain ⟨e0, e1, e2, -⟩ := idx_facts t
  show (V c main_v20 : S32x256x1028.Idx → EReal) (((cfg1.win 0).blk t).view.emb (ix3 (0 : Fin 1) k j)) = _
  refine congrArg _ (funext fun a => Fin.ext ?_)
  match a with
  | ⟨0, _⟩ => show win1_0.index t (0 : Fin 3) * 1 + 1 * 0 = t.val; omega
  | ⟨1, _⟩ => show win1_0.index t (1 : Fin 3) * 256 + 1 * k.val = k.val; omega
  | ⟨2, _⟩ => show win1_0.index t (2 : Fin 3) * 1028 + 1 * j.val = j.val; omega

/-- The stacked weights, the bias columns and the projection are read whole at every point. -/
theorem iblk_w (c : Dev nD) (t : Fin cfg1.N) (d : Fin 3) (o k : Fin 256) :
    (iblk1 V c 1 t : Vec Ideal S3x256x256 .f32) (ix3 d o k) = (V c main_v21 : S3x256x256.Idx → EReal) (ix3 d o k) := by
  obtain ⟨-, -, -, e0, e1, e2, -⟩ := idx_facts t
  show (V c main_v21 : S3x256x256.Idx → EReal) (((cfg1.win 1).blk t).view.emb (ix3 d o k)) = _
  refine congrArg _ (funext fun a => Fin.ext ?_)
  match a with
  | ⟨0, _⟩ => show win1_1.index t (0 : Fin 3) * 3 + 1 * d.val = d.val; omega
  | ⟨1, _⟩ => show win1_1.index t (1 : Fin 3) * 256 + 1 * o.val = o.val; omega
  | ⟨2, _⟩ => show win1_1.index t (2 : Fin 3) * 256 + 1 * k.val = k.val; omega

theorem iblk_b2 (c : Dev nD) (t : Fin cfg1.N) (o : Fin 256) :
    (iblk1 V c 2 t : Vec Ideal S256x1 .f32) (ix2 o (0 : Fin 1)) = (V c main_v22 : S256x1.Idx → EReal) (ix2 o (0 : Fin 1)) := by
  obtain ⟨-, -, -, -, -, -, e0, e1, -⟩ := idx_facts t
  show (V c main_v22 : S256x1.Idx → EReal) (((cfg1.win 2).blk t).view.emb (ix2 o (0 : Fin 1))) = _
  refine congrArg _ (funext fun a => Fin.ext ?_)
  match a with
  | ⟨0, _⟩ => show win1_2.index t (0 : Fin 2) * 256 + 1 * o.val = o.val; omega
  | ⟨1, _⟩ => show win1_2.index t (1 : Fin 2) * 1 + 1 * 0 = 0; omega

/-- The input's block at point `t` is batch element `t` of the input. -/
theorem iblk_x (c : Dev nD) (t : Fin cfg1.N) (k : Fin 128) (s : Fin 1024) :
    (iblk1 V c 3 t : Vec Ideal S1x128x1024 .f32) (ix3 (0 : Fin 1) k s)
      = (V c main_arg0 : S32x128x1024.Idx → EReal) (ix3 (⟨t.val, lt32 t⟩ : Fin 32) k s) := by
  obtain ⟨-, -, -, -, -, -, -, -, e0, e1, e2, -⟩ := idx_facts t
  show (V c main_arg0 : S32x128x1024.Idx → EReal) (((cfg1.win 3).blk t).view.emb (ix3 (0 : Fin 1) k s)) = _
  refine congrArg _ (funext fun a => Fin.ext ?_)
  match a with
  | ⟨0, _⟩ => show win1_3.index t (0 : Fin 3) * 1 + 1 * 0 = t.val; omega
  | ⟨1, _⟩ => show win1_3.index t (1 : Fin 3) * 128 + 1 * k.val = k.val; omega
  | ⟨2, _⟩ => show win1_3.index t (2 : Fin 3) * 1024 + 1 * s.val = s.val; omega

theorem iblk_wd (c : Dev nD) (t : Fin cfg1.N) (o : Fin 256) (k : Fin 128) :
    (iblk1 V c 4 t : Vec Ideal S256x128 .f32) (ix2 o k) = (V c main_v23 : S256x128.Idx → EReal) (ix2 o k) := by
  obtain ⟨-, -, -, -, -, -, -, -, -, -, -, e0, e1, -⟩ := idx_facts t
  show (V c main_v23 : S256x128.Idx → EReal) (((cfg1.win 4).blk t).view.emb (ix2 o k)) = _
  refine congrArg _ (funext fun a => Fin.ext ?_)
  match a with
  | ⟨0, _⟩ => show win1_4.index t (0 : Fin 2) * 256 + 1 * o.val = o.val; omega
  | ⟨1, _⟩ => show win1_4.index t (1 : Fin 2) * 128 + 1 * k.val = k.val; omega

theorem iblk_bd (c : Dev nD) (t : Fin cfg1.N) (o : Fin 256) :
    (iblk1 V c 5 t : Vec Ideal S256x1 .f32) (ix2 o (0 : Fin 1)) = (V c main_v24 : S256x1.Idx → EReal) (ix2 o (0 : Fin 1)) := by
  obtain ⟨-, -, -, -, -, -, -, -, -, -, -, -, -, e0, e1, -⟩ := idx_facts t
  show (V c main_v24 : S256x1.Idx → EReal) (((cfg1.win 5).blk t).view.emb (ix2 o (0 : Fin 1))) = _
  refine congrArg _ (funext fun a => Fin.ext ?_)
  match a with
  | ⟨0, _⟩ => show win1_5.index t (0 : Fin 2) * 256 + 1 * o.val = o.val; omega
  | ⟨1, _⟩ => show win1_5.index t (1 : Fin 2) * 1 + 1 * 0 = 0; omega

/-- What the output array holds after the region, as one function of the arrays the region finds: at `(n, o, s)` the
    block of batch element `n` of the padded first layer and of the input. -/
def arr (c : Dev nD) : S32x256x1024.Idx → EReal := fun i =>
  Cert.Tcn.blockPad (fun o k => (V c main_v21 : S3x256x256.Idx → EReal) (ix3 (0 : Fin 3) o k)) (fun o k => (V c main_v21 : S3x256x256.Idx → EReal) (ix3 (1 : Fin 3) o k)) (fun o k => (V c main_v21 : S3x256x256.Idx → EReal) (ix3 (2 : Fin 3) o k))
    (fun o => (V c main_v22 : S256x1.Idx → EReal) (ix2 o (0 : Fin 1))) (fun o k => (V c main_v23 : S256x128.Idx → EReal) (ix2 o k)) (fun o => (V c main_v24 : S256x1.Idx → EReal) (ix2 o (0 : Fin 1)))
    (fun k j => (V c main_v20 : S32x256x1028.Idx → EReal) (ix3 (⟨(i 0).val, (i 0).isLt⟩ : Fin 32) k j)) (fun k s => (V c main_arg0 : S32x128x1024.Idx → EReal) (ix3 (⟨(i 0).val, (i 0).isLt⟩ : Fin 32) k s))
    (⟨(i 1).val, (i 1).isLt⟩ : Fin 256) (⟨(i 2).val, (i 2).isLt⟩ : Fin 1024)

/-- Where an element of the output's block at point `t` sits in the array. -/
theorem emb_out (t : Fin cfg1.N) (o : Fin 256) (s : Fin 1024) :
    ((cfg1.win 6).blk t).view.emb (ix3 (0 : Fin 1) o s) = (ix3 (⟨t.val, lt32 t⟩ : Fin 32) o s : S32x256x1024.Idx) := by
  obtain ⟨-, -, -, -, -, -, -, -, -, -, -, -, -, -, -, e0, e1, e2⟩ := idx_facts t
  refine funext fun a => Fin.ext ?_
  match a with
  | ⟨0, _⟩ => show win1_6.index t (0 : Fin 3) * 1 + 1 * 0 = t.val; omega
  | ⟨1, _⟩ => show win1_6.index t (1 : Fin 3) * 256 + 1 * o.val = o.val; omega
  | ⟨2, _⟩ => show win1_6.index t (2 : Fin 3) * 1024 + 1 * s.val = s.val; omega

/-- The body's output block at point `t`, entry by entry, is the array's function under the block. -/
theorem block_eq (c : Dev nD) (t : Fin cfg1.N) (y : S1x256x1024.Idx) :
    out1_6 (F := Ideal) (iblk1 V c 0 t) (iblk1 V c 1 t) (iblk1 V c 2 t) (iblk1 V c 3 t) (iblk1 V c 4 t) (iblk1 V c 5 t) y
      = arr V c (((cfg1.win 6).blk t).view.emb y) := by
  obtain ⟨u, o, s, rfl⟩ : ∃ (u : Fin 1) (o : Fin 256) (s : Fin 1024), y = ix3 u o s := ⟨y 0, y 1, y 2, eq_ix3 y⟩
  obtain rfl : u = 0 := Subsingleton.elim _ _
  refine (out1_6_apply _ _ _ _ _ _ o s).trans ?_
  rw [emb_out]
  have h0 : (fun o k => (iblk1 V c 1 t : Vec Ideal S3x256x256 .f32) (ix3 (0 : Fin 3) o k)) = fun o k => (V c main_v21 : S3x256x256.Idx → EReal) (ix3 (0 : Fin 3) o k) :=
    funext fun o => funext fun k => iblk_w V c t 0 o k
  have h1 : (fun o k => (iblk1 V c 1 t : Vec Ideal S3x256x256 .f32) (ix3 (1 : Fin 3) o k)) = fun o k => (V c main_v21 : S3x256x256.Idx → EReal) (ix3 (1 : Fin 3) o k) :=
    funext fun o => funext fun k => iblk_w V c t 1 o k
  have h2 : (fun o k => (iblk1 V c 1 t : Vec Ideal S3x256x256 .f32) (ix3 (2 : Fin 3) o k)) = fun o k => (V c main_v21 : S3x256x256.Idx → EReal) (ix3 (2 : Fin 3) o k) :=
    funext fun o => funext fun k => iblk_w V c t 2 o k
  have h3 : (fun o => (iblk1 V c 2 t : Vec Ideal S256x1 .f32) (ix2 o (0 : Fin 1))) = fun o => (V c main_v22 : S256x1.Idx → EReal) (ix2 o (0 : Fin 1)) :=
    funext fun o => iblk_b2 V c t o
  have h4 : (fun o k => (iblk1 V c 4 t : Vec Ideal S256x128 .f32) (ix2 o k)) = fun o k => (V c main_v23 : S256x128.Idx → EReal) (ix2 o k) :=
    funext fun o => funext fun k => iblk_wd V c t o k
  have h5 : (fun o => (iblk1 V c 5 t : Vec Ideal S256x1 .f32) (ix2 o (0 : Fin 1))) = fun o => (V c main_v24 : S256x1.Idx → EReal) (ix2 o (0 : Fin 1)) :=
    funext fun o => iblk_bd V c t o
  have h6 : (fun k j => (iblk1 V c 0 t : Vec Ideal S1x256x1028 .f32) (ix3 (0 : Fin 1) k j)) = fun k j => (V c main_v20 : S32x256x1028.Idx → EReal) (ix3 (⟨t.val, lt32 t⟩ : Fin 32) k j) :=
    funext fun k => funext fun j => iblk_sig V c t k j
  have h7 : (fun k s => (iblk1 V c 3 t : Vec Ideal S1x128x1024 .f32) (ix3 (0 : Fin 1) k s)) = fun k s => (V c main_arg0 : S32x128x1024.Idx → EReal) (ix3 (⟨t.val, lt32 t⟩ : Fin 32) k s) :=
    funext fun k => funext fun s => iblk_x V c t k s
  rw [h0, h1, h2, h3, h4, h5, h6, h7]
  rfl

/-- What point `t` writes back is the block of the array's function. -/
theorem flushed_eq (c : Dev nD) (t : Fin cfg1.N) :
    (dat1 V c).flushed 6 t = ((cfg1.win 6).blk t).view.read (Elt Ideal) (arr V c) := by
  show (cfg1.win 6).cut (grid1.coords t) ((dat1 V c).after 6 t) = _
  rw [after1_6]
  funext j
  exact block_eq V c t j

/-- An index of the array is in point `t`'s block iff each coordinate is in the block's range on its axis. -/
theorem mem_blk (t : Fin cfg1.N) (i : S32x256x1024.Idx) :
    i ∈ ((cfg1.win 6).blk t).view.set ↔ ∀ a : Fin 3, win1_6.index t a * S1x256x1024.size a ≤ (i a).val ∧ (i a).val < win1_6.index t a * S1x256x1024.size a + S1x256x1024.size a := by
  show i ∈ ((View.whole main_v25).slice (win1_6.rect t)).set ↔ _
  rw [View.set_slice_whole, Rect.mem_set_unit]
  exact Iff.rfl

/-- Every index of the array is under the block of the point of its batch coordinate. -/
theorem cover (i : S32x256x1024.Idx) :
    ∃ t : Fin cfg1.N, (cfg1.win 6).flush t = true ∧ i ∈ ((cfg1.win 6).blk t).view.set := by
  have hi0 : (i 0).val < 32 := (i 0).isLt
  have hi1 : (i 1).val < 256 := (i 1).isLt
  have hi2 : (i 2).val < 1024 := (i 2).isLt
  obtain ⟨t, ht⟩ : ∃ t : Fin cfg1.N, t.val = (i 0).val := ⟨⟨(i 0).val, Nat.lt_of_lt_of_eq hi0 N_1.symm⟩, rfl⟩
  obtain ⟨-, -, -, -, -, -, -, -, -, -, -, -, -, -, -, e0, e1, e2⟩ := idx_facts t
  refine ⟨t, flush1_6 t, ?_⟩
  rw [mem_blk]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 256 ≤ (i 1).val ∧ (i 1).val < win1_6.index t (1 : Fin 3) * 256 + 256; omega
  | ⟨2, _⟩ => show win1_6.index t (2 : Fin 3) * 1024 ≤ (i 2).val ∧ (i 2).val < win1_6.index t (2 : Fin 3) * 1024 + 1024; omega

/-- The output array after the region. -/
theorem final (c : Dev nD) : (dat1 (F := Ideal) V c).arrAt 6 cfg1.N = arr V c :=
  (dat1 V c).arrAt_eq_of_cover 6 (arr V c) (fun t _ => flushed_eq V c t) cover

theorem region1_array (c : Dev nD) (n : Fin 32) (o : Fin 256) (t : Fin 1024) :
    ((dat1 (F := Ideal) V c).arrAt 6 cfg1.N : S32x256x1024.Idx → EReal) (ix3 n o t)
      = Cert.Tcn.blockPad (fun o k => (V c main_v21 : S3x256x256.Idx → EReal) (ix3 (0 : Fin 3) o k)) (fun o k => (V c main_v21 : S3x256x256.Idx → EReal) (ix3 (1 : Fin 3) o k)) (fun o k => (V c main_v21 : S3x256x256.Idx → EReal) (ix3 (2 : Fin 3) o k))
          (fun o => (V c main_v22 : S256x1.Idx → EReal) (ix2 o (0 : Fin 1))) (fun o k => (V c main_v23 : S256x128.Idx → EReal) (ix2 o k)) (fun o => (V c main_v24 : S256x1.Idx → EReal) (ix2 o (0 : Fin 1)))
          (fun k j => (V c main_v20 : S32x256x1028.Idx → EReal) (ix3 n k j)) (fun k t => (V c main_arg0 : S32x128x1024.Idx → EReal) (ix3 n k t)) o t :=
  congrFun (final V c) (ix3 n o t)

end Array

end Cert.ReferenceIdeal.Region1

end
-- ==== Proof.RefValue.lean ====
/-
  The two-call program's result, at an index, as the specification's block of the argument arrays: the second call's
  output block is the second layer off the padded first layer, the first layer the first call's output off the padded
  input; padding on the left and reading at the offsets 0, 2, 4 is the three causal taps.
-/
import proofs.«153267_g2000506556625611_pallasbulk_77_11_alg».proof.Proof.RefHost
import proofs.«153267_g2000506556625611_pallasbulk_77_11_alg».proof.Proof.RefRegion0
import proofs.«153267_g2000506556625611_pallasbulk_77_11_alg».proof.Proof.RefRegion1

set_option maxRecDepth 16384

noncomputable section

namespace Cert.ReferenceIdeal.Value

open Idealize.ShloMosaic Idealize.ShloMosaic.TcCoe Idealize.ShloMosaic.ValueIdx Idealize.SL.Sem
open Cert.ReferenceIdeal Cert.ReferenceIdeal.Gen Cert.ReferenceIdeal.Host

variable (m : (ℓ : Loc nD τ sig) → Buf (Elt Ideal) ℓ) (ρ : Dev nD → PrngReg) (c : Dev nD)

/-- The taps, biases and projection the two-call program uses, as functions of the argument arrays. -/
abbrev W1k (k : Fin 3) : Fin 256 → Fin 128 → EReal := fun o j => wn1 (m ((c : Thread nD τ).loc main_arg1)) (m ((c : Thread nD τ).loc main_arg2)) (ix3 k o j)
abbrev W2k (k : Fin 3) : Fin 256 → Fin 256 → EReal := fun o j => wn2 (m ((c : Thread nD τ).loc main_arg4)) (m ((c : Thread nD τ).loc main_arg5)) (ix3 k o j)
abbrev B1 : Fin 256 → EReal := fun o => (m ((c : Thread nD τ).loc main_arg3) : S256.Idx → EReal) (ix1 o)
abbrev B2 : Fin 256 → EReal := fun o => (m ((c : Thread nD τ).loc main_arg6) : S256.Idx → EReal) (ix1 o)
abbrev BD : Fin 256 → EReal := fun o => (m ((c : Thread nD τ).loc main_arg8) : S256.Idx → EReal) (ix1 o)
abbrev WD : Fin 256 → Fin 128 → EReal := fun o j => (m ((c : Thread nD τ).loc main_arg7) : S256x128x1.Idx → EReal) (ix3 o j (0 : Fin 1))
abbrev X (n : Fin 32) : Fin 128 → Fin 1024 → EReal := fun k t => (m ((c : Thread nD τ).loc main_arg0) : S32x128x1024.Idx → EReal) (ix3 n k t)

/-- The first call's output array is the first layer off the padded input. -/
theorem first_layer  (n : Fin 32) :
    (fun k t => ((dat0 (V3 m ρ) c).arrAt 3 cfg0.N : S32x256x1024.Idx → EReal) (ix3 n k t))
      = Cert.Tcn.hiddenPad (W1k m c 0) (W1k m c 1) (W1k m c 2) (B1 m c) (Cert.Tcn.padl (X m c n)) := by
  funext k t
  rw [Cert.ReferenceIdeal.Region0.region0_array (V3 m ρ) c n k t]
  have e18 : (fun o => (V3 m ρ c main_v18 : S256x1.Idx → EReal) (ix2 o (0 : Fin 1))) = B1 m c := funext fun o => V3_v18_apply m ρ c o
  have e16 : (fun k j => (V3 m ρ c main_v16 : S32x128x1028.Idx → EReal) (ix3 n k j)) = Cert.Tcn.padl (X m c n) :=
    funext fun k => funext fun j => V3_v16_apply m ρ c n k j
  rw [e18, e16, V3_v17]

/-- The result array of the two-call program, at an index, is the block of the specification. -/
theorem result_apply  (n : Fin 32) (o : Fin 256) (t : Fin 1024) :
    (W8 m ρ c (Proc.devRef .tc main_v25) : S32x256x1024.Idx → EReal) (ix3 n o t)
      = Cert.Tcn.block (W1k m c 0) (W1k m c 1) (W1k m c 2) (B1 m c) (W2k m c 0) (W2k m c 1) (W2k m c 2) (B2 m c) (WD m c) (BD m c) (X m c n) o t := by
  rw [show W8 m ρ c (Proc.devRef .tc main_v25) = (dat1 (V7 m ρ) c).arrAt 6 cfg1.N from W8_arr m ρ c 6]
  rw [Cert.ReferenceIdeal.Region1.region1_array (V7 m ρ) c n o t]
  have e22 : (fun o => (V7 m ρ c main_v22 : S256x1.Idx → EReal) (ix2 o (0 : Fin 1))) = B2 m c := funext fun o => V7_v22_apply m ρ c o
  have e24 : (fun o => (V7 m ρ c main_v24 : S256x1.Idx → EReal) (ix2 o (0 : Fin 1))) = BD m c := funext fun o => V7_v24_apply m ρ c o
  have e23 : (fun o k => (V7 m ρ c main_v23 : S256x128.Idx → EReal) (ix2 o k)) = WD m c := funext fun o => funext fun k => V7_v23_apply m ρ c o k
  have e20 : (fun k j => (V7 m ρ c main_v20 : S32x256x1028.Idx → EReal) (ix3 n k j))
      = Cert.Tcn.padl (Cert.Tcn.hiddenPad (W1k m c 0) (W1k m c 1) (W1k m c 2) (B1 m c) (Cert.Tcn.padl (X m c n))) := by
    rw [← first_layer m ρ c n]
    exact funext fun k => funext fun j => V7_v20_apply m ρ c n k j
  rw [e22, e24, e23, e20, V7_v21, V7_arg0]
  exact Cert.Tcn.blockPad_eq _ _ _ _ _ _ _ _ _ _ _ o t

end Cert.ReferenceIdeal.Value

end
-- ==== Proof.lean ====
/-
  The fused temporal block against its two-call reference, on the extended reals.

  Both programs compute, for every batch element, out = relu (relu (conv₂ (relu (conv₁ x + b₁)) + b₂) + Wd·x + bd) with
  causal three-tap convolutions of dilation two and weight-normalised taps. The fused program keeps the first layer in
  the kernel and realises the causal padding by shifting the signal right with zero fill; the reference runs two
  kernels, pads the input and the first layer with four zeros on the left on the host, and reads the padded signal at
  the offsets 0, 2, 4. At exact arithmetic the roundings to bf16 are the identity, each matrix product is a finite sum
  of products, and the two programs add the same three products in a different order and bracket the residual and
  its bias differently: commutativity and associativity of addition on the extended reals join them (Spec.lean), so
  the precondition is never opened. The weight normalisation is the same host computation in both programs and is
  carried as one function of the raw weights and gains.

  The frames: the reference's is its generated two-region frame; the fused program's (at both instances) is a frame
  run of its one region, the body's four slab stores covering the output block. The ideal pass rewrote nothing, so
  the idealization claim is trivial.
-/
import proofs.«153267_g2000506556625611_pallasbulk_77_11_alg».proof.Defs
import proofs.«153267_g2000506556625611_pallasbulk_77_11_alg».proof.Proof.Gen.Kernel
import proofs.«153267_g2000506556625611_pallasbulk_77_11_alg».proof.Proof.Gen.KernelIdeal
import proofs.«153267_g2000506556625611_pallasbulk_77_11_alg».proof.Proof.Gen.ReferenceIdeal
import proofs.«153267_g2000506556625611_pallasbulk_77_11_alg».proof.Proof.Gen.Pre_finite_inputs
import proofs.«153267_g2000506556625611_pallasbulk_77_11_alg».proof.Proof.KernelFrame
import proofs.«153267_g2000506556625611_pallasbulk_77_11_alg».proof.Proof.KernelIdealFrame
import proofs.«153267_g2000506556625611_pallasbulk_77_11_alg».proof.Proof.KernelIdealValue
import proofs.«153267_g2000506556625611_pallasbulk_77_11_alg».proof.Proof.RefValue
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-! ## The frames and the idealization -/

theorem frame_k : Cert.frame_Kernel := fun m ρ _ => Cert.Kernel.HFrame.frame m ρ
theorem frame_ki : Cert.frame_KernelIdeal := fun m ρ _ => Cert.KernelIdeal.HFrame.frame m ρ
theorem frame_ri : Cert.frame_ReferenceIdeal := fun m ρ _ => Cert.ReferenceIdeal.Gen.frame m ρ
theorem preserves : Cert.preserves_Kernel_KernelIdeal := trivial

/-! ## The two results are one function of the arguments -/

/-- The weight normalisation is the same function in both programs. -/
theorem wn1_eq : Cert.ReferenceIdeal.Host.wn1 = Cert.KernelIdeal.Host.wn1 := rfl
theorem wn2_eq : Cert.ReferenceIdeal.Host.wn2 = Cert.KernelIdeal.Host.wn2 := rfl

/-- From memories that agree on the arguments, the reference's result array is the fused program's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (ρ' : Dev Cert.ReferenceIdeal.nD → PrngReg) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    (Cert.ReferenceIdeal.Gen.W8 m' ρ' c (Proc.devRef .tc Cert.ReferenceIdeal.main_v25) : Cert.KernelIdeal.S32x256x1024.Idx → EReal)
      = ((Cert.KernelIdeal.HFrame.dats (F := Ideal) m 0 c).arrAt 4 Cert.KernelIdeal.cfg0.N : Cert.KernelIdeal.S32x256x1024.Idx → EReal) := by
  funext i
  obtain ⟨n, o, t, rfl⟩ : ∃ (n : Fin 32) (o : Fin 256) (t : Fin 1024), i = ix3 n o t := ⟨i 0, i 1, i 2, eq_ix3 i⟩
  refine (Cert.ReferenceIdeal.Value.result_apply m' ρ' c n o t).trans ((?_ : _ = _).trans (Cert.KernelIdeal.Value.result_apply m c n o t).symm)
  unfold Cert.ReferenceIdeal.Value.W1k Cert.ReferenceIdeal.Value.W2k Cert.ReferenceIdeal.Value.B1 Cert.ReferenceIdeal.Value.B2
    Cert.ReferenceIdeal.Value.BD Cert.ReferenceIdeal.Value.WD Cert.ReferenceIdeal.Value.X
    Cert.KernelIdeal.Value.W1k Cert.KernelIdeal.Value.W2k Cert.KernelIdeal.Value.B1 Cert.KernelIdeal.Value.B2
    Cert.KernelIdeal.Value.BD Cert.KernelIdeal.Value.WD Cert.KernelIdeal.Value.X
  rw [h0, h1, h2, h3, h4, h5, h6, h7, h8, wn1_eq, wn2_eq]

/-- At exact arithmetic both programs run, end with the same result array, element by element, and leave their
    arguments unchanged. -/
theorem algebraic : Cert.algebraic_KernelIdeal_ReferenceIdeal := by
  intro m ρ m' ρ' _ hagree
  refine ⟨fun c => (Cert.KernelIdeal.HFrame.dats (F := Ideal) m 0 c).arrAt 4 Cert.KernelIdeal.cfg0.N, ?_, ?_⟩
  · exact (θ_run Cert.KernelIdeal.defs _ _).mono (fun r h c => ⟨(h c).1 4,
      ((h c).1 0).trans (((Cert.KernelIdeal.HFrame.dats m 0 c).arrAt_in 0 rfl _).trans ((Cert.KernelIdeal.HFrame.A_eq m c 0).trans (Cert.KernelIdeal.HFrame.V_main_arg0 m c))),
      ((h c).2 Cert.KernelIdeal.main_arg1 (by decide)).trans (Cert.KernelIdeal.HFrame.V_main_arg1 m c),
      ((h c).2 Cert.KernelIdeal.main_arg2 (by decide)).trans (Cert.KernelIdeal.HFrame.V_main_arg2 m c),
      ((h c).2 Cert.KernelIdeal.main_arg3 (by decide)).trans (Cert.KernelIdeal.HFrame.V_main_arg3 m c),
      ((h c).2 Cert.KernelIdeal.main_arg4 (by decide)).trans (Cert.KernelIdeal.HFrame.V_main_arg4 m c),
      ((h c).2 Cert.KernelIdeal.main_arg5 (by decide)).trans (Cert.KernelIdeal.HFrame.V_main_arg5 m c),
      ((h c).2 Cert.KernelIdeal.main_arg6 (by decide)).trans (Cert.KernelIdeal.HFrame.V_main_arg6 m c),
      ((h c).2 Cert.KernelIdeal.main_arg7 (by decide)).trans (Cert.KernelIdeal.HFrame.V_main_arg7 m c),
      ((h c).2 Cert.KernelIdeal.main_arg8 (by decide)).trans (Cert.KernelIdeal.HFrame.V_main_arg8 m c)⟩) (Cert.KernelIdeal.HFrame.run_main (F := Ideal) m ρ)
  · exact (θ_run Cert.ReferenceIdeal.defs _ _).mono (fun r h c => ⟨(h c _ (Cert.ReferenceIdeal.Gen.mem_uc Cert.ReferenceIdeal.main_v25 (by decide))).trans
        (result_eq m m' ρ' c (hagree c).1 (hagree c).2.1 (hagree c).2.2.1 (hagree c).2.2.2.1 (hagree c).2.2.2.2.1 (hagree c).2.2.2.2.2.1
          (hagree c).2.2.2.2.2.2.1 (hagree c).2.2.2.2.2.2.2.1 (hagree c).2.2.2.2.2.2.2.2),
      (h c _ (Cert.ReferenceIdeal.Gen.mem_uc Cert.ReferenceIdeal.main_arg0 (by decide))).trans (Cert.ReferenceIdeal.Gen.W8_main_arg0 m' ρ' c),
      (h c _ (Cert.ReferenceIdeal.Gen.mem_uc Cert.ReferenceIdeal.main_arg1 (by decide))).trans (Cert.ReferenceIdeal.Gen.W8_main_arg1 m' ρ' c),
      (h c _ (Cert.ReferenceIdeal.Gen.mem_uc Cert.ReferenceIdeal.main_arg2 (by decide))).trans (Cert.ReferenceIdeal.Gen.W8_main_arg2 m' ρ' c),
      (h c _ (Cert.ReferenceIdeal.Gen.mem_uc Cert.ReferenceIdeal.main_arg3 (by decide))).trans (Cert.ReferenceIdeal.Gen.W8_main_arg3 m' ρ' c),
      (h c _ (Cert.ReferenceIdeal.Gen.mem_uc Cert.ReferenceIdeal.main_arg4 (by decide))).trans (Cert.ReferenceIdeal.Gen.W8_main_arg4 m' ρ' c),
      (h c _ (Cert.ReferenceIdeal.Gen.mem_uc Cert.ReferenceIdeal.main_arg5 (by decide))).trans (Cert.ReferenceIdeal.Gen.W8_main_arg5 m' ρ' c),
      (h c _ (Cert.ReferenceIdeal.Gen.mem_uc Cert.ReferenceIdeal.main_arg6 (by decide))).trans (Cert.ReferenceIdeal.Gen.W8_main_arg6 m' ρ' c),
      (h c _ (Cert.ReferenceIdeal.Gen.mem_uc Cert.ReferenceIdeal.main_arg7 (by decide))).trans (Cert.ReferenceIdeal.Gen.W8_main_arg7 m' ρ' c),
      (h c _ (Cert.ReferenceIdeal.Gen.mem_uc Cert.ReferenceIdeal.main_arg8 (by decide))).trans (Cert.ReferenceIdeal.Gen.W8_main_arg8 m' ρ' c)⟩) (Cert.ReferenceIdeal.Run.run_all (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
